-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v48_1)) (v1 : (c : Dev Cert.KernelIdeal.nD) → Buf (Elt Ideal) ((c.tc : Thread Cert.KernelIdeal.nD Cert.KernelIdeal.τ).loc Cert.KernelIdeal.main_v48_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_1) = v0 c
          ∧ r.2.mem ((c.tc : Thread Cert.KernelIdeal.nD Cert.KernelIdeal.τ).loc Cert.KernelIdeal.main_v48_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1600000 : Shape := ⟨1, ![1600000]⟩
abbrev S30000x128 : Shape := ⟨2, ![30000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S30000x128 : S_.BroadcastsInDim S30000x128 (![] : Fin 0 → Fin S30000x128.rank)
  reducesTo_S30000x128_S_d0_1 : S30000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg18 : FVec F S256 .f32) (main_arg19 : FVec F S256x2 .f32) (main_arg20 : FVec F S2 .f32) (main_v63 : IVec S_ 1) (main_v67 : IVec S_ 1) : IVec S_ 1 :=
  let main_v68 : IVec S_ 1 := andi main_v63 main_v67
  let main_v69 : FVec F S256 .f32 := Host.absf main_arg18
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x2 .f32 := Host.absf main_arg19
  let main_cst_28 : FVec F S_ .f32 := constant S_ .f32 0x7F800000#32
  let main_v75 : FVec F S256x2 .f32 := broadcastInDim S256x2 ![] bcast_S_S256x2 main_cst_28
  let main_v76 : IVec S256x2 1 := cmpf .olt main_v74 main_v75
  let main_c_29 : IVec S_ 1 := constantI S_ 1 1#1
  let main_v77 : IVec S_ 1 := (fun x v => Host.reduce IntOp.andi x v reducesTo_S256x2_S_d0_1 h_S_) main_v76 main_c_29
  let main_v78 : IVec S_ 1 := andi main_v73 main_v77
  let main_v79 : FVec F S2 .f32 := Host.absf main_arg20
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg15 : FVec F S256x256 .f32) (main_arg16 : FVec F S256 .f32) (main_arg17 : FVec F S256x256 .f32) (main_arg18 : FVec F S256 .f32) (main_arg19 : FVec F S256x2 .f32) (main_arg20 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg17
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg18 main_arg19 main_arg20 main_v63 main_v67

def fn_part2 {F : FTy → Type} [FloatOps F] (main_arg11 : FVec F S128x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x2 .f32) (main_arg20 : FVec F S2 .f32) (main_v33 : IVec S_ 1) : IVec S_ 1 :=
  let main_v34 : FVec F S128x256 .f32 := Host.absf main_arg11
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg13
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg15 main_arg16 main_arg17 main_arg18 main_arg19 main_arg20 main_v48 main_v49 main_v50

def fn_part1 {F : FTy → Type} [FloatOps F] (main_arg8 : FVec F S128x128 .f32) (main_arg9 : FVec F S128x128 .f32) (main_arg10 : FVec F S128 .f32) (main_arg11 : FVec F S128x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x2 .f32) (main_arg20 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : IVec S100000 32) (main_arg1 : IVec S1600000 32) (main_arg2 : IVec S1600000 32) (main_arg3 : IVec S100000 32) (main_arg4 : FVec F S30000x128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S256x2 .f32) (main_arg20 : FVec F S2 .f32) : IVec S_ 1 :=
  let main_v0 : FVec F S30000x128 .f32 := Host.absf main_arg4
  let main_cst : FVec F S_ .f32 := constant S_ .f32 0x7F800000#32
  let main_v1 : FVec F S30000x128 .f32 := broadcastInDim S30000x128 ![] bcast_S_S30000x128 main_cst
  let main_v2 : IVec S30000x128 1 := cmpf .olt main_v0 main_v1
  let main_c : IVec S_ 1 := constantI S_ 1 1#1
  let main_v3 : IVec S_ 1 := (fun x v => Host.reduce IntOp.andi x v reducesTo_S30000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S100000 : Shape := ⟨1, ![100000]⟩
abbrev S1600000 : Shape := ⟨1, ![1600000]⟩
abbrev S30000x128 : Shape := ⟨2, ![30000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x128 : Shape := ⟨2, ![100000, 128]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S256x128 : Shape := ⟨2, ![256, 128]⟩
abbrev S256x1 : Shape := ⟨2, ![256, 1]⟩
abbrev S1x256 : Shape := ⟨2, ![1, 256]⟩
abbrev S1x2 : Shape := ⟨2, ![1, 2]⟩

abbrev nBuf : Space → Nat
  | .hbm => 149
  | .vmem => 31
  | .smem => 0
  | _ => 0

abbrev hbmTy0_0 (i : Nat) : BufTy := match i % 128 with
  | 0 => ⟨S100000, .i32⟩
  | 1 => ⟨S1600000, .i32⟩
  | 2 => ⟨S1600000, .i32⟩
  | 3 => ⟨S100000, .i32⟩
  | 4 => ⟨S30000x128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256x256, .f32⟩
  | 18 => ⟨S256, .f32⟩
  | 19 => ⟨S256x2, .f32⟩
  | 20 => ⟨S2, .f32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S1, .i32⟩
  | 30 => ⟨S_, .i32⟩
  | 31 => ⟨S100000x1, .i32⟩
  | 32 => ⟨S100000x1, .i1⟩
  | 33 => ⟨S1x1, .i32⟩
  | 34 => ⟨S100000x1, .i32⟩
  | 35 => ⟨S100000x1, .i1⟩
  | 36 => ⟨S100000x1, .i1⟩
  | 37 => ⟨S_, .i1⟩
  | 38 => ⟨S100000, .i1⟩
  | 39 => ⟨S100000x128, .f32⟩
  | 40 => ⟨S100000x128, .i1⟩
  | 41 => ⟨S_, .f32⟩
  | 42 => ⟨S100000x128, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1, .i32⟩
  | 53 => ⟨S_, .i32⟩
  | 54 => ⟨S1600000x1, .i32⟩
  | 55 => ⟨S1600000x1, .i1⟩
  | 56 => ⟨S1x1, .i32⟩
  | 57 => ⟨S1600000x1, .i32⟩
  | 58 => ⟨S1600000x1, .i1⟩
  | 59 => ⟨S1600000x1, .i1⟩
  | 60 => ⟨S_, .i1⟩
  | 61 => ⟨S1600000, .i1⟩
  | 62 => ⟨S1600000x128, .f32⟩
  | 63 => ⟨S1600000x128, .i1⟩
  | 64 => ⟨S_, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S1x128, .f32⟩
  | 84 => ⟨S100000x128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1, .i32⟩
  | 94 => ⟨S_, .i32⟩
  | 95 => ⟨S1600000x1, .i32⟩
  | 96 => ⟨S1600000x1, .i1⟩
  | 97 => ⟨S1x1, .i32⟩
  | 98 => ⟨S1600000x1, .i32⟩
  | 99 => ⟨S1600000x1, .i1⟩
  | 100 => ⟨S1600000x1, .i1⟩
  | 101 => ⟨S_, .i1⟩
  | 102 => ⟨S1600000, .i1⟩
  | 103 => ⟨S1600000x128, .f32⟩
  | 104 => ⟨S1600000x128, .i1⟩
  | 105 => ⟨S_, .f32⟩
  | 106 => ⟨S1600000x128, .f32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S_, .f32⟩
  | 113 => ⟨S1600000, .f32⟩
  | 114 => ⟨S_, .f32⟩
  | 115 => ⟨S100000, .f32⟩
  | 116 => ⟨S1600000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x128, .f32⟩
  | 123 => ⟨S100000x128, .f32⟩
  | 124 => ⟨S1x128, .f32⟩
  | 125 => ⟨S100000x128, .f32⟩
  | 126 => ⟨S_, .f32⟩
  | 127 => ⟨S256x128, .f32⟩
  | _ => ⟨S100000, .i32⟩

abbrev hbmTy0_1 (i : Nat) : BufTy := match i % 128 with
  | 0 => ⟨S100000x1, .i32⟩
  | 1 => ⟨S256x128, .f32⟩
  | 2 => ⟨S_, .f32⟩
  | 3 => ⟨S100000, .f32⟩
  | 4 => ⟨S_, .f32⟩
  | 5 => ⟨S256, .f32⟩
  | 6 => ⟨S100000x1, .i32⟩
  | 7 => ⟨S256, .f32⟩
  | 8 => ⟨S_, .f32⟩
  | 9 => ⟨S256, .f32⟩
  | 10 => ⟨S256, .f32⟩
  | 11 => ⟨S256x1, .f32⟩
  | 12 => ⟨S256x128, .f32⟩
  | 13 => ⟨S256x128, .f32⟩
  | 14 => ⟨S1x256, .f32⟩
  | 15 => ⟨S1x256, .f32⟩
  | 16 => ⟨S1x256, .f32⟩
  | 17 => ⟨S1x256, .f32⟩
  | 18 => ⟨S1x2, .f32⟩
  | 19 => ⟨S256x256, .f32⟩
  | 20 => ⟨S256x2, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S256x128, .f32⟩
  | .local _ .vmem, ⟨19, _⟩ => ⟨S128x256, .f32⟩
  | .local _ .vmem, ⟨20, _⟩ => ⟨S1x256, .f32⟩
  | .local _ .vmem, ⟨21, _⟩ => ⟨S256x256, .f32⟩
  | .local _ .vmem, ⟨22, _⟩ => ⟨S1x256, .f32⟩
  | .local _ .vmem, ⟨23, _⟩ => ⟨S256x256, .f32⟩
  | .local _ .vmem, ⟨24, _⟩ => ⟨S1x256, .f32⟩
  | .local _ .vmem, ⟨25, _⟩ => ⟨S256x256, .f32⟩
  | .local _ .vmem, ⟨26, _⟩ => ⟨S1x256, .f32⟩
  | .local _ .vmem, ⟨27, _⟩ => ⟨S256x2, .f32⟩
  | .local _ .vmem, ⟨28, _⟩ => ⟨S1x2, .f32⟩
  | .local _ .vmem, ⟨29, _⟩ => ⟨S256x256, .f32⟩
  | .local _ .vmem, ⟨30, _⟩ => ⟨S256x2, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v0 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v1 : Ref sig .tc := ⟨.hbm, 66, rfl⟩
abbrev main_cst : Ref sig .tc := ⟨.hbm, 67, rfl⟩
abbrev main_v2 : Ref sig .tc := ⟨.hbm, 68, rfl⟩
abbrev main_v3 : Ref sig .tc := ⟨.hbm, 69, rfl⟩
abbrev main_v4 : Ref sig .tc := ⟨.hbm, 70, rfl⟩
abbrev main_cst_0 : Ref sig .tc := ⟨.hbm, 71, rfl⟩
abbrev main_v5 : Ref sig .tc := ⟨.hbm, 72, rfl⟩
abbrev main_cst_1 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_cst_2 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_call2_cst : Ref sig .tc := ⟨.hbm, 105, rfl⟩
abbrev main_call2_v15 : Ref sig .tc := ⟨.hbm, 106, rfl⟩
abbrev main_v16 : Ref sig .tc := ⟨.hbm, 107, rfl⟩
abbrev main_cst_3 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_cst_4 : Ref sig .tc := ⟨.hbm, 112, rfl⟩
abbrev main_v20 : Ref sig .tc := ⟨.hbm, 113, rfl⟩
abbrev main_cst_5 : Ref sig .tc := ⟨.hbm, 114, rfl⟩
abbrev main_v21 : Ref sig .tc := ⟨.hbm, 115, rfl⟩
abbrev main_v22 : Ref sig .tc := ⟨.hbm, 116, rfl⟩
abbrev main_v23 : Ref sig .tc := ⟨.hbm, 117, rfl⟩
abbrev main_cst_6 : Ref sig .tc := ⟨.hbm, 118, rfl⟩
abbrev main_v24 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_cst_7 : Ref sig .tc := ⟨.hbm, 126, rfl⟩
abbrev main_v31 : Ref sig .tc := ⟨.hbm, 127, rfl⟩
abbrev main_v32 : Ref sig .tc := ⟨.hbm, 128, rfl⟩
abbrev main_v33 : Ref sig .tc := ⟨.hbm, 129, rfl⟩
abbrev main_cst_8 : Ref sig .tc := ⟨.hbm, 130, rfl⟩
abbrev main_v34 : Ref sig .tc := ⟨.hbm, 131, rfl⟩
abbrev main_cst_9 : Ref sig .tc := ⟨.hbm, 132, rfl⟩
abbrev main_v35 : Ref sig .tc := ⟨.hbm, 133, rfl⟩
abbrev main_v36 : Ref sig .tc := ⟨.hbm, 134, rfl⟩
abbrev main_v37 : Ref sig .tc := ⟨.hbm, 135, rfl⟩
abbrev main_cst_10 : Ref sig .tc := ⟨.hbm, 136, rfl⟩
abbrev main_v38 : Ref sig .tc := ⟨.hbm, 137, rfl⟩
abbrev main_v39 : Ref sig .tc := ⟨.hbm, 138, rfl⟩
abbrev main_v40 : Ref sig .tc := ⟨.hbm, 139, rfl⟩
abbrev main_v41 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48_0 : Ref sig .tc := ⟨.hbm, 147, rfl⟩
abbrev main_v48_1 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg12_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x2 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x2 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S256x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S256x2 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S256_S1x256 : S256.ShapeCasts S1x256
  shapeCasts_S2_S1x2 : S2.ShapeCasts S1x2
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  reduces_S256x2_S256 : S256x2.Reduces [1] S256
  shapeCasts_S256_S256x1 : S256.ShapeCasts S256x1
  broadcasts_S256x1_S256x2 : S256x1.Broadcasts S256x2
  gather_S30000x128_S100000x1_S100000x128_1_0_n_n_0_1_1128_wf : GatherDims.WF S30000x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x256_S256x256_1_0_0_1_n_n_wf : DotDims.WF S256x128 S128x256 S256x256 [1] [0] [0] [1] [] []
  dot_S256x256_S256x256_S256x256_1_0_0_1_n_n_wf : DotDims.WF S256x256 S256x256 S256x256 [1] [0] [0] [1] [] []
  dot_S256x256_S256x2_S256x2_1_0_0_1_n_n_wf : DotDims.WF S256x256 S256x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x128.size a
  hwx2_0 : ∀ i : grid2.Coords, EltTy.bits .f32 = 32 ∨ (Rect.block (s := S256x128) S256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .f32 = 32 ∨ (Rect.block (s := S256x256) S256x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x2.size a ≤ S256x2.size a
  hwx2_9 : ∀ i : grid2.Coords, EltTy.bits .f32 = 32 ∨ (Rect.block (s := S256x2) S256x2.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x2.size a ≤ S1x2.size a
  hwx2_10 : ∀ i : grid2.Coords, EltTy.bits .f32 = 32 ∨ (Rect.block (s := S1x2) S1x2.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S256x256.size a ≤ S256x256.size a
  hwx2_11 : ∀ i : grid2.Coords, EltTy.bits .f32 = 32 ∨ (Rect.block (s := S256x256) S256x256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S256x2.size a ≤ S256x2.size a
  hwx2_12 : ∀ i : grid2.Coords, EltTy.bits .f32 = 32 ∨ (Rect.block (s := S256x2) S256x2.size (cc2_transform_12 i) (hinb2_12 i)).WholeWords (EltTy.packing .f32)

variable [Facts₀]

def gather_S30000x128_S100000x1_S100000x128_1_0_n_n_0_1_1128 : GatherDims S30000x128 S100000x1 S100000x128 where
  offsetDims := [1]
  collapsedSliceDims := [0]
  operandBatchingDims := []
  startIndicesBatchingDims := []
  startIndexMap := [0]
  indexVectorDim := 1
  sliceSizes := ![1, 128]
  wf := gather_S30000x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x2_S256x2_1_0_0_1_n_n : DotDims S256x256 S256x2 S256x2 where
  lhsContracting := [1]
  rhsContracting := [0]
  lhsNonContracting := [0]
  rhsNonContracting := [1]
  lhsBatch := []
  rhsBatch := []
  wf := dot_S256x256_S256x2_S256x2_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v46) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg19) S256x2.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v47) S1x2.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v48_0) S256x256.size cc2_transform_11 reads2_11 true true 1 stage2_11 sem2_11
    hrank2 hreads2_11 hinb2_11 nbuf2_11 (Memref.isWhole_whole _) hwx2_11 hstage2_11

abbrev win2_12 : Pipeline.Window sig grid2 :=
  Pipeline.Window.ofSpec (Memref.whole main_v48_1) S256x2.size cc2_transform_12 reads2_12 true true 1 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S100000 : Shape := ⟨1, ![100000]⟩
abbrev S1600000 : Shape := ⟨1, ![1600000]⟩
abbrev S30000x128 : Shape := ⟨2, ![30000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S100000x128 : Shape := ⟨2, ![100000, 128]⟩
abbrev S1600000x1 : Shape := ⟨2, ![1600000, 1]⟩
abbrev S1600000x128 : Shape := ⟨2, ![1600000, 128]⟩
abbrev S1x128 : Shape := ⟨2, ![1, 128]⟩
abbrev S256x128 : Shape := ⟨2, ![256, 128]⟩
abbrev S256x1 : Shape := ⟨2, ![256, 1]⟩
abbrev S1x256 : Shape := ⟨2, ![1, 256]⟩
abbrev S1x2 : Shape := ⟨2, ![1, 2]⟩

abbrev nBuf : Space → Nat
  | .hbm => 203
  | .vmem => 0
  | .smem => 0
  | _ => 0

abbrev hbmTy0_0 (i : Nat) : BufTy := match i % 128 with
  | 0 => ⟨S100000, .i32⟩
  | 1 => ⟨S1600000, .i32⟩
  | 2 => ⟨S1600000, .i32⟩
  | 3 => ⟨S100000, .i32⟩
  | 4 => ⟨S30000x128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x256, .f32⟩
  | 12 => ⟨S256, .f32⟩
  | 13 => ⟨S256x256, .f32⟩
  | 14 => ⟨S256, .f32⟩
  | 15 => ⟨S256x256, .f32⟩
  | 16 => ⟨S256, .f32⟩
  | 17 => ⟨S256x256, .f32⟩
  | 18 => ⟨S256, .f32⟩
  | 19 => ⟨S256x2, .f32⟩
  | 20 => ⟨S2, .f32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S1, .i32⟩
  | 30 => ⟨S_, .i32⟩
  | 31 => ⟨S100000x1, .i32⟩
  | 32 => ⟨S100000x1, .i1⟩
  | 33 => ⟨S1x1, .i32⟩
  | 34 => ⟨S100000x1, .i32⟩
  | 35 => ⟨S100000x1, .i1⟩
  | 36 => ⟨S100000x1, .i1⟩
  | 37 => ⟨S_, .i1⟩
  | 38 => ⟨S100000, .i1⟩
  | 39 => ⟨S100000x128, .f32⟩
  | 40 => ⟨S100000x128, .i1⟩
  | 41 => ⟨S_, .f32⟩
  | 42 => ⟨S100000x128, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1, .i32⟩
  | 53 => ⟨S_, .i32⟩
  | 54 => ⟨S1600000x1, .i32⟩
  | 55 => ⟨S1600000x1, .i1⟩
  | 56 => ⟨S1x1, .i32⟩
  | 57 => ⟨S1600000x1, .i32⟩
  | 58 => ⟨S1600000x1, .i1⟩
  | 59 => ⟨S1600000x1, .i1⟩
  | 60 => ⟨S_, .i1⟩
  | 61 => ⟨S1600000, .i1⟩
  | 62 => ⟨S1600000x128, .f32⟩
  | 63 => ⟨S1600000x128, .i1⟩
  | 64 => ⟨S_, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1, .i32⟩
  | 101 => ⟨S_, .i32⟩
  | 102 => ⟨S1600000x1, .i32⟩
  | 103 => ⟨S1600000x1, .i1⟩
  | 104 => ⟨S1x1, .i32⟩
  | 105 => ⟨S1600000x1, .i32⟩
  | 106 => ⟨S1600000x1, .i1⟩
  | 107 => ⟨S1600000x1, .i1⟩
  | 108 => ⟨S_, .i1⟩
  | 109 => ⟨S1600000, .i1⟩
  | 110 => ⟨S1600000x128, .f32⟩
  | 111 => ⟨S1600000x128, .i1⟩
  | 112 => ⟨S_, .f32⟩
  | 113 => ⟨S1600000x128, .f32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S_, .f32⟩
  | 120 => ⟨S1600000, .f32⟩
  | 121 => ⟨S_, .f32⟩
  | 122 => ⟨S100000, .f32⟩
  | 123 => ⟨S1600000x1, .i32⟩
  | 124 => ⟨S100000, .f32⟩
  | 125 => ⟨S_, .f32⟩
  | 126 => ⟨S100000, .f32⟩
  | 127 => ⟨S100000, .f32⟩
  | _ => ⟨S100000, .i32⟩

abbrev hbmTy0_1 (i : Nat) : BufTy := match i % 128 with
  | 0 => ⟨S100000x1, .f32⟩
  | 1 => ⟨S100000x128, .f32⟩
  | 2 => ⟨S100000x128, .f32⟩
  | 3 => ⟨S100000x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S_, .f32⟩
  | 13 => ⟨S256x128, .f32⟩
  | 14 => ⟨S100000x1, .i32⟩
  | 15 => ⟨S256x128, .f32⟩
  | 16 => ⟨S_, .f32⟩
  | 17 => ⟨S100000, .f32⟩
  | 18 => ⟨S_, .f32⟩
  | 19 => ⟨S256, .f32⟩
  | 20 => ⟨S100000x1, .i32⟩
  | 21 => ⟨S256, .f32⟩
  | 22 => ⟨S_, .f32⟩
  | 23 => ⟨S256, .f32⟩
  | 24 => ⟨S256, .f32⟩
  | 25 => ⟨S256x1, .f32⟩
  | 26 => ⟨S256x128, .f32⟩
  | 27 => ⟨S256x128, .f32⟩
  | 28 => ⟨S256x256, .f32⟩
  | 29 => ⟨S1x256, .f32⟩
  | 30 => ⟨S256x256, .f32⟩
  | 31 => ⟨S256x256, .f32⟩
  | 32 => ⟨S_, .f32⟩
  | 33 => ⟨S256x256, .f32⟩
  | 34 => ⟨S256x256, .f32⟩
  | 35 => ⟨S256x256, .f32⟩
  | 36 => ⟨S1x256, .f32⟩
  | 37 => ⟨S256x256, .f32⟩
  | 38 => ⟨S256x256, .f32⟩
  | 39 => ⟨S_, .f32⟩
  | 40 => ⟨S256x256, .f32⟩
  | 41 => ⟨S256x256, .f32⟩
  | 42 => ⟨S256x256, .f32⟩
  | 43 => ⟨S1x256, .f32⟩
  | 44 => ⟨S256x256, .f32⟩
  | 45 => ⟨S256x256, .f32⟩
  | 46 => ⟨S_, .f32⟩
  | 47 => ⟨S256x256, .f32⟩
  | 48 => ⟨S256x256, .f32⟩
  | 49 => ⟨S256x256, .f32⟩
  | 50 => ⟨S1x256, .f32⟩
  | 51 => ⟨S256x256, .f32⟩
  | 52 => ⟨S256x256, .f32⟩
  | 53 => ⟨S_, .f32⟩
  | 54 => ⟨S256x256, .f32⟩
  | 55 => ⟨S256x256, .f32⟩
  | 56 => ⟨S256x2, .f32⟩
  | 57 => ⟨S1x2, .f32⟩
  | 58 => ⟨S256x2, .f32⟩
  | 59 => ⟨S256x2, .f32⟩
  | 60 => ⟨S_, .f32⟩
  | 61 => ⟨S256, .f32⟩
  | 62 => ⟨S_, .f32⟩
  | 63 => ⟨S256, .f32⟩
  | 64 => ⟨S256, .f32⟩
  | 65 => ⟨S256x1, .f32⟩
  | 66 => ⟨S256x2, .f32⟩
  | 67 => ⟨S256x2, .f32⟩
  | 68 => ⟨S256x2, .f32⟩
  | 69 => ⟨S_, .f32⟩
  | 70 => ⟨S256, .f32⟩
  | 71 => ⟨S256x1, .f32⟩
  | 72 => ⟨S256x1, .f32⟩
  | 73 => ⟨S256x2, .f32⟩
  | 74 => ⟨S256x2, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v0 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v1 : Ref sig .tc := ⟨.hbm, 66, rfl⟩
abbrev main_cst : Ref sig .tc := ⟨.hbm, 67, rfl⟩
abbrev main_v2 : Ref sig .tc := ⟨.hbm, 68, rfl⟩
abbrev main_v3 : Ref sig .tc := ⟨.hbm, 69, rfl⟩
abbrev main_v4 : Ref sig .tc := ⟨.hbm, 70, rfl⟩
abbrev main_cst_0 : Ref sig .tc := ⟨.hbm, 71, rfl⟩
abbrev main_v5 : Ref sig .tc := ⟨.hbm, 72, rfl⟩
abbrev main_cst_1 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_cst_2 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_call2_cst : Ref sig .tc := ⟨.hbm, 89, rfl⟩
abbrev main_call2_v0 : Ref sig .tc := ⟨.hbm, 90, rfl⟩
abbrev main_v20 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v21 : Ref sig .tc := ⟨.hbm, 114, rfl⟩
abbrev main_cst_3 : Ref sig .tc := ⟨.hbm, 115, rfl⟩
abbrev main_v22 : Ref sig .tc := ⟨.hbm, 116, rfl⟩
abbrev main_v23 : Ref sig .tc := ⟨.hbm, 117, rfl⟩
abbrev main_v24 : Ref sig .tc := ⟨.hbm, 118, rfl⟩
abbrev main_cst_4 : Ref sig .tc := ⟨.hbm, 119, rfl⟩
abbrev main_v25 : Ref sig .tc := ⟨.hbm, 120, rfl⟩
abbrev main_cst_5 : Ref sig .tc := ⟨.hbm, 121, rfl⟩
abbrev main_v26 : Ref sig .tc := ⟨.hbm, 122, rfl⟩
abbrev main_v27 : Ref sig .tc := ⟨.hbm, 123, rfl⟩
abbrev main_v28 : Ref sig .tc := ⟨.hbm, 124, rfl⟩
abbrev main_cst_6 : Ref sig .tc := ⟨.hbm, 125, rfl⟩
abbrev main_v29 : Ref sig .tc := ⟨.hbm, 126, rfl⟩
abbrev main_v30 : Ref sig .tc := ⟨.hbm, 127, rfl⟩
abbrev main_v31 : Ref sig .tc := ⟨.hbm, 128, rfl⟩
abbrev main_v32 : Ref sig .tc := ⟨.hbm, 129, rfl⟩
abbrev main_v33 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_call4_cst : Ref sig .tc := ⟨.hbm, 137, rfl⟩
abbrev main_call4_v0 : Ref sig .tc := ⟨.hbm, 138, rfl⟩
abbrev main_v40 : Ref sig .tc := ⟨.hbm, 139, rfl⟩
abbrev main_cst_7 : Ref sig .tc := ⟨.hbm, 140, rfl⟩
abbrev main_v41 : Ref sig .tc := ⟨.hbm, 141, rfl⟩
abbrev main_v42 : Ref sig .tc := ⟨.hbm, 142, rfl⟩
abbrev main_v43 : Ref sig .tc := ⟨.hbm, 143, rfl⟩
abbrev main_cst_8 : Ref sig .tc := ⟨.hbm, 144, rfl⟩
abbrev main_v44 : Ref sig .tc := ⟨.hbm, 145, rfl⟩
abbrev main_cst_9 : Ref sig .tc := ⟨.hbm, 146, rfl⟩
abbrev main_v45 : Ref sig .tc := ⟨.hbm, 147, rfl⟩
abbrev main_v46 : Ref sig .tc := ⟨.hbm, 148, rfl⟩
abbrev main_v47 : Ref sig .tc := ⟨.hbm, 149, rfl⟩
abbrev main_cst_10 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩
abbrev main_v56 : Ref sig .tc := ⟨.hbm, 159, rfl⟩
abbrev main_call5_cst : Ref sig .tc := ⟨.hbm, 160, rfl⟩
abbrev main_call5_v0 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_call6_cst : Ref sig .tc := ⟨.hbm, 167, rfl⟩
abbrev main_call6_v0 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_call7_cst : Ref sig .tc := ⟨.hbm, 174, rfl⟩
abbrev main_call7_v0 : Ref sig .tc := ⟨.hbm, 175, rfl⟩
abbrev main_v67 : Ref sig .tc := ⟨.hbm, 176, rfl⟩
abbrev main_v68 : Ref sig .tc := ⟨.hbm, 177, rfl⟩
abbrev main_v69 : Ref sig .tc := ⟨.hbm, 178, rfl⟩
abbrev main_v70 : Ref sig .tc := ⟨.hbm, 179, rfl⟩
abbrev main_v71 : Ref sig .tc := ⟨.hbm, 180, rfl⟩
abbrev main_call8_cst : Ref sig .tc := ⟨.hbm, 181, rfl⟩
abbrev main_call8_v0 : Ref sig .tc := ⟨.hbm, 182, rfl⟩
abbrev main_v72 : Ref sig .tc := ⟨.hbm, 183, rfl⟩
abbrev main_v73 : Ref sig .tc := ⟨.hbm, 184, rfl⟩
abbrev main_v74 : Ref sig .tc := ⟨.hbm, 185, rfl⟩
abbrev main_v75 : Ref sig .tc := ⟨.hbm, 186, rfl⟩
abbrev main_v76 : Ref sig .tc := ⟨.hbm, 187, rfl⟩
abbrev main_call9_cst : Ref sig .tc := ⟨.hbm, 188, rfl⟩
abbrev main_call9_v0 : Ref sig .tc := ⟨.hbm, 189, rfl⟩
abbrev main_call9_cst_0 : Ref sig .tc := ⟨.hbm, 190, rfl⟩
abbrev main_call9_v1 : Ref sig .tc := ⟨.hbm, 191, rfl⟩
abbrev main_call9_v2 : Ref sig .tc := ⟨.hbm, 192, rfl⟩
abbrev main_call9_v3 : Ref sig .tc := ⟨.hbm, 193, rfl⟩
abbrev main_call9_v4 : Ref sig .tc := ⟨.hbm, 194, rfl⟩
abbrev main_call9_v5 : Ref sig .tc := ⟨.hbm, 195, rfl⟩
abbrev main_call9_v6 : Ref sig .tc := ⟨.hbm, 196, rfl⟩
abbrev main_call9_cst_1 : Ref sig .tc := ⟨.hbm, 197, rfl⟩
abbrev main_call9_v7 : Ref sig .tc := ⟨.hbm, 198, rfl⟩
abbrev main_call9_v8 : Ref sig .tc := ⟨.hbm, 199, rfl⟩
abbrev main_call9_v9 : Ref sig .tc := ⟨.hbm, 200, rfl⟩
abbrev main_call9_v10 : Ref sig .tc := ⟨.hbm, 201, rfl⟩
abbrev main_v77 : Ref sig .tc := ⟨.hbm, 202, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  reducesTo_S256x2_S256_d1 : S256x2.ReducesTo [1] S256
  bcast_S256x1_S256x2_0_1 : S256x1.BroadcastsInDim S256x2 (![0, 1] : Fin 2 → Fin S256x2.rank)
  gather_S30000x128_S100000x1_S100000x128_1_0_n_n_0_1_1128_wf : GatherDims.WF S30000x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x256_S256x256_1_0_0_1_n_n_wf : DotDims.WF S256x128 S128x256 S256x256 [1] [0] [0] [1] [] []
  dot_S256x256_S256x256_S256x256_1_0_0_1_n_n_wf : DotDims.WF S256x256 S256x256 S256x256 [1] [0] [0] [1] [] []
  dot_S256x256_S256x2_S256x2_1_0_0_1_n_n_wf : DotDims.WF S256x256 S256x2 S256x2 [1] [0] [0] [1] [] []

variable [Facts₀]

def gather_S30000x128_S100000x1_S100000x128_1_0_n_n_0_1_1128 : GatherDims S30000x128 S100000x1 S100000x128 where
  offsetDims := [1]
  collapsedSliceDims := [0]
  operandBatchingDims := []
  startIndicesBatchingDims := []
  startIndexMap := [0]
  indexVectorDim := 1
  sliceSizes := ![1, 128]
  wf := gather_S30000x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x2_S256x2_1_0_0_1_n_n : DotDims S256x256 S256x2 S256x2 where
  lhsContracting := [1]
  rhsContracting := [0]
  lhsNonContracting := [0]
  rhsNonContracting := [1]
  lhsBatch := []
  rhsBatch := []
  wf := dot_S256x256_S256x2_S256x2_1_0_0_1_n_n_wf

class Facts : Prop extends Facts₀ where

variable [Facts]
-- ==== Proof.KernelRun.lean ====
/-
  The idealized kernel's run with its final buffer contents named.

  @main is nine segments: three stretches of host operations, the first graph-convolution region, two more stretches,
  the second region, one stretch, and the head's region. Each segment takes the TensorCore's buffer contents at one
  boundary to the contents at the next: a host stretch to the fold of its operations, a region to its arrays at what
  its write-backs leave and every other buffer as it was. Launched from any memory with zero counters, every weakly
  fair execution terminates without a fault, and in the final state EVERY buffer that outlives the regions holds
  the last boundary's contents — in particular the two result arrays, which the frame claim alone does not name.
-/
import proofs.«176873_j75763223102156_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer at the contents of
    the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- A reference of @main that no region scopes is among the buffers the final state is read at. -/
theorem mem_final (b : Ref sig .tc) (h : ¬ (Proc.devRef .tc b : DevRef τ sig).isScoped) :
    Proc.devRef .tc b ∈ Pipeline.ucRefs τ sig := mem_uc b h

end Cert.KernelIdeal.Run

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«176873_j75763223102156_1_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.SpecSage.lean ====
/-
  A graph-convolution layer with mean aggregation, as a function on the extended reals, index by index, and the two
  spellings it lowers to.
  For an M×K array h of node features, an M×K array hn of averaged neighbour features, two K×N weights ws and wn and a
  bias given as a one-row array b (shape [1, N]) the layer is
      (a, c) ↦ max (Σ_{k<K} h(a,k)·ws(k,c) + Σ_{k<K} hn(a,k)·wn(k,c) + b(0,c)) 0 .
  * sage_of_matmul: two matrix-unit products over the plain M×K by K×N dimension numbers into zero accumulators, all
    four operands first narrowed to a 16-bit float format (the identity on the extended reals; the two row operands also
    shape-cast to their own shape), added, plus the bias row (shape-cast to its own shape) broadcast over the rows,
    then a maximum with a splat of the scalar word 0, is the layer.
  * sage_of_dotGeneral: the host's two products over the same dimension numbers, added, plus the bias row broadcast
    along the axes [0, 1], then a maximum with a rank-0 constant 0 broadcast along no axis, is the layer.
  * sage_rows: the layer's value in a row depends on h and hn only through that row, so a block of rows of both gives
    that block of the layer (for a grid that tiles the rows).
  Only sums are re-indexed: nothing is distributed or cancelled, so no entry needs to be finite.
-/
import Idealize.ShloMosaic.PureOps.Ideal.Laws
import Idealize.ShloMosaic.Lib.ValueIdx
import Idealize.ShloMosaic.Lib.Pipeline.Value
import proofs.«176873_j75763223102156_1_alg».proof.Proof.LibPlainDot
import proofs.«176873_j75763223102156_1_alg».proof.Proof.LibDenseStage

noncomputable section

namespace Cert.Spec

open Idealize.ShloMosaic Idealize.ShloMosaic.ValueIdx

variable (M K N : Nat)

/-- The self term, plus the neighbour term, plus the bias row, cut off below at 0. -/
def sage (h hn : FVec Ideal ⟨2, ![M, K]⟩ .f32) (ws wn : FVec Ideal ⟨2, ![K, N]⟩ .f32) (b : FVec Ideal ⟨2, ![1, N]⟩ .f32) :
    FVec Ideal ⟨2, ![M, N]⟩ .f32 :=
  fun i => max (∑ k : Fin K, h (ix2 (i 0) k) * ws (ix2 k (i 1)) + ∑ k : Fin K, hn (ix2 (i 0) k) * wn (ix2 k (i 1))
    + b (ix2 (0 : Fin 1) (i 1))) 0

theorem sage_apply (h hn : FVec Ideal ⟨2, ![M, K]⟩ .f32) (ws wn : FVec Ideal ⟨2, ![K, N]⟩ .f32) (b : FVec Ideal ⟨2, ![1, N]⟩ .f32)
    (a : Fin M) (c : Fin N) :
    sage M K N h hn ws wn b (ix2 a c)
      = max (∑ k : Fin K, h (ix2 a k) * ws (ix2 k c) + ∑ k : Fin K, hn (ix2 a k) * wn (ix2 k c) + b (ix2 (0 : Fin 1) c)) 0 := rfl

/-- The layer in row a' of a block is the layer in row a of the whole, when row a' of both blocks is row a of the wholes. -/
theorem sage_rows (M' : Nat) (H Hn : FVec Ideal ⟨2, ![M, K]⟩ .f32) (h hn : FVec Ideal ⟨2, ![M', K]⟩ .f32)
    (ws wn : FVec Ideal ⟨2, ![K, N]⟩ .f32) (b : FVec Ideal ⟨2, ![1, N]⟩ .f32) (a : Fin M) (a' : Fin M')
    (e1 : ∀ k : Fin K, h (ix2 a' k) = H (ix2 a k)) (e2 : ∀ k : Fin K, hn (ix2 a' k) = Hn (ix2 a k)) (c : Fin N) :
    sage M' K N h hn ws wn b (ix2 a' c) = sage M K N H Hn ws wn b (ix2 a c) := by
  have s1 : ∑ k : Fin K, h (ix2 a' k) * ws (ix2 k c) = ∑ k : Fin K, H (ix2 a k) * ws (ix2 k c) :=
    Finset.sum_congr rfl fun k _ => by rw [e1 k]
  have s2 : ∑ k : Fin K, hn (ix2 a' k) * wn (ix2 k c) = ∑ k : Fin K, Hn (ix2 a k) * wn (ix2 k c) :=
    Finset.sum_congr rfl fun k _ => by rw [e2 k]
  rw [sage_apply, sage_apply, s1, s2]

/-- The matrix unit's spelling of the layer. -/
theorem sage_of_matmul (h hn : FVec Ideal ⟨2, ![M, K]⟩ .f32) (ws wn : FVec Ideal ⟨2, ![K, N]⟩ .f32) (b : FVec Ideal ⟨2, ![1, N]⟩ .f32)
    (h1 h2 h3 h4 : FTy.bf16.bits < FTy.f32.bits)
    (hs1 hs2 : (⟨2, ![M, K]⟩ : Shape).ShapeCasts ⟨2, ![M, K]⟩)
    (hc : (⟨2, ![1, N]⟩ : Shape).ShapeCasts ⟨2, ![1, N]⟩) (hb : (⟨2, ![1, N]⟩ : Shape).Broadcasts ⟨2, ![M, N]⟩) :
    maximumf (addf (addf
          (matmul (F := Ideal) (DotDims.plain M K N) none (truncf .bf16 (shapeCast ⟨2, ![M, K]⟩ h hs1) h1) (truncf .bf16 ws h2)
            (constant ⟨2, ![M, N]⟩ .f32 0x00000000#32))
          (matmul (F := Ideal) (DotDims.plain M K N) none (truncf .bf16 (shapeCast ⟨2, ![M, K]⟩ hn hs2) h3) (truncf .bf16 wn h4)
            (constant ⟨2, ![M, N]⟩ .f32 0x00000000#32)))
        (broadcastTo ⟨2, ![M, N]⟩ (shapeCast ⟨2, ![1, N]⟩ b hc) hb))
      (broadcast ⟨2, ![M, N]⟩ (Scalar.ofBits (F := Ideal) .f32 0x00000000#32))
      = sage M K N h hn ws wn b := by
  funext i
  obtain ⟨a, c, rfl⟩ : ∃ (a : Fin M) (c : Fin N), i = ix2 a c := ⟨i 0, i 1, eq_ix2 i⟩
  rw [maximumf_apply, addf_apply, addf_apply, broadcast_apply, Cert.LibPlainDot.matmul_plain, Cert.LibPlainDot.matmul_plain,
    shapeCast_self, shapeCast_self, shapeCast_self, Cert.LibDenseStage.row_broadcastTo, sage_apply]
  exact congrArg (max _) Ideal.ofBits_zero_f32

/-- The host's spelling of the layer. -/
theorem sage_of_dotGeneral (h hn : FVec Ideal ⟨2, ![M, K]⟩ .f32) (ws wn : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (addf (Host.dotGeneral (F := Ideal) (DotDims.plain M K N) none h ws)
          (Host.dotGeneral (F := Ideal) (DotDims.plain M K N) none hn wn))
        (broadcastInDim ⟨2, ![M, N]⟩ ![0, 1] hb b))
      (broadcastInDim ⟨2, ![M, N]⟩ ![] h0 (constant (F := Ideal) ⟨0, ![]⟩ .f32 0x00000000#32))
      = sage M K N h hn ws wn b := by
  funext i
  obtain ⟨a, c, rfl⟩ : ∃ (a : Fin M) (c : Fin N), i = ix2 a c := ⟨i 0, i 1, eq_ix2 i⟩
  rw [maximumf_apply, addf_apply, addf_apply, Cert.LibPlainDot.dotGeneral_plain, Cert.LibPlainDot.dotGeneral_plain,
    Cert.LibDenseStage.row_broadcastInDim, sage_apply,
    broadcastInDim_apply (![] : Fin 0 → Fin 2) h0 _ (ix2 a c) ix0 (fun ax => ax.elim0), constant_apply]
  exact congrArg (max _) Ideal.ofBits_zero_f32

end Cert.Spec

end
-- ==== Proof.Region0.lean ====
/-
  The array region 0 leaves: the graph-convolution layer of the region's whole input arrays.

  The region runs the layer's body at 20 grid points; point t is handed rows 5000·t … 5000·t + 4999 of the two row
  operands (node features and averaged neighbour features), the two 128×128 weights and the bias row whole, and writes
  back the same rows of the result. The body's value on a block is the layer of the block (the matrix unit's spelling
  of the layer), a row of the layer depends on the row operands only through that row, and the 20 blocks of 5000 rows
  tile the 100000 rows: so the array ends as the layer of the whole arrays, entry by entry.
-/
import proofs.«176873_j75763223102156_1_alg».proof.Proof.Gen.KernelIdeal.Frame
import proofs.«176873_j75763223102156_1_alg».proof.Proof.SpecSage
import Idealize.ShloMosaic.Lib.Pipeline.Value
import Idealize.ShloMosaic.Lib.ValueIdx

set_option maxRecDepth 16384

noncomputable section

namespace Cert.KernelIdeal.Val0

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the whole arrays as the region finds them. -/
def layer (c : Dev nD) : FVec Ideal ⟨2, ![100000, 128]⟩ .f32 :=
  Cert.Spec.sage 100000 128 128 (V c main_v0) (V c main_v13) (V c main_arg5) (V c main_arg6) (V c main_v14)

/-- The body's value on its loaded blocks is the layer of the blocks. -/
theorem payload_eq (x0 x1 : FVec Ideal ⟨2, ![5000, 128]⟩ .f32) (x2 x3 : FVec Ideal ⟨2, ![128, 128]⟩ .f32) (x4 : FVec Ideal ⟨2, ![1, 128]⟩ .f32) :
    k0_pay1 (F := Ideal) x0 x1 x2 x3 x4 = Cert.Spec.sage 5000 128 128 x0 x1 x2 x3 x4 := by
  unfold k0_pay1
  exact Cert.Spec.sage_of_matmul 5000 128 128 x0 x1 x2 x3 x4 _ _ _ _ _ _ _ _

/-- The printed index maps, decided over the grid: the row operands and the result move one block of rows per point,
    the weights and the bias row stay. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem rows_lt (t : Fin cfg0.N) (p : Fin 5000) : t.val * 5000 + p.val < 100000 := by
  have hN : cfg0.N = 20 := N_0
  have ht := t.isLt
  have hp := p.isLt
  omega

/-- Row p, column q of point t's block of a row operand or of the result is row 5000·t + p, column q of the array. -/
theorem emb_rows0 (t : Fin cfg0.N) (p : Fin 5000) (q : Fin 128) :
    ((cfg0.win 0).blk t).view.emb (ix2 p q) = ix2 (⟨t.val * 5000 + p.val, rows_lt t p⟩ : Fin 100000) q := by
  obtain ⟨e0, e1, -⟩ := index_maps t
  funext a; apply Fin.ext
  match a with
  | ⟨0, _⟩ => show win0_0.index t (0 : Fin 2) * 5000 + 1 * p.val = t.val * 5000 + p.val; omega
  | ⟨1, _⟩ => show win0_0.index t (1 : Fin 2) * 128 + 1 * q.val = q.val; omega

theorem emb_rows1 (t : Fin cfg0.N) (p : Fin 5000) (q : Fin 128) :
    ((cfg0.win 1).blk t).view.emb (ix2 p q) = ix2 (⟨t.val * 5000 + p.val, rows_lt t p⟩ : Fin 100000) q := by
  obtain ⟨-, -, e0, e1, -⟩ := index_maps t
  funext a; apply Fin.ext
  match a with
  | ⟨0, _⟩ => show win0_1.index t (0 : Fin 2) * 5000 + 1 * p.val = t.val * 5000 + p.val; omega
  | ⟨1, _⟩ => show win0_1.index t (1 : Fin 2) * 128 + 1 * q.val = q.val; omega

theorem emb_rows5 (t : Fin cfg0.N) (p : Fin 5000) (q : Fin 128) :
    ((cfg0.win 5).blk t).view.emb (ix2 p q) = ix2 (⟨t.val * 5000 + p.val, rows_lt t p⟩ : Fin 100000) q := by
  obtain ⟨-, -, -, -, -, -, -, -, -, -, e0, e1⟩ := index_maps t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-- The weights' and the bias row's one block is the whole array. -/
theorem emb_whole2 (t : Fin cfg0.N) (y : S128x128.Idx) : ((cfg0.win 2).blk t).view.emb y = y := by
  obtain ⟨-, -, -, -, e0, e1, -⟩ := index_maps t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem emb_whole3 (t : Fin cfg0.N) (y : S128x128.Idx) : ((cfg0.win 3).blk t).view.emb y = y := by
  obtain ⟨-, -, -, -, -, -, e0, e1, -⟩ := index_maps t
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem emb_whole4 (t : Fin cfg0.N) (y : S1x128.Idx) : ((cfg0.win 4).blk t).view.emb y = y := by
  obtain ⟨-, -, -, -, -, -, -, -, e0, e1, -⟩ := index_maps t
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The blocks point t is handed, read off the arrays. -/
theorem block0 (c : Dev nD) (t : Fin cfg0.N) (p : Fin 5000) (k : Fin 128) :
    iblk0 V c 0 t (ix2 p k) = V c main_v0 (ix2 (⟨t.val * 5000 + p.val, rows_lt t p⟩ : Fin 100000) k) := by
  show V c main_v0 (((cfg0.win 0).blk t).view.emb (ix2 p k)) = _
  rw [emb_rows0]

theorem block1 (c : Dev nD) (t : Fin cfg0.N) (p : Fin 5000) (k : Fin 128) :
    iblk0 V c 1 t (ix2 p k) = V c main_v13 (ix2 (⟨t.val * 5000 + p.val, rows_lt t p⟩ : Fin 100000) k) := by
  show V c main_v13 (((cfg0.win 1).blk t).view.emb (ix2 p k)) = _
  rw [emb_rows1]

theorem block2 (c : Dev nD) (t : Fin cfg0.N) : (iblk0 V c 2 t : S128x128.Idx → Ideal .f32) = V c main_arg5 := by
  funext y
  show V c main_arg5 (((cfg0.win 2).blk t).view.emb y) = _
  rw [emb_whole2]

theorem block3 (c : Dev nD) (t : Fin cfg0.N) : (iblk0 V c 3 t : S128x128.Idx → Ideal .f32) = V c main_arg6 := by
  funext y
  show V c main_arg6 (((cfg0.win 3).blk t).view.emb y) = _
  rw [emb_whole3]

theorem block4 (c : Dev nD) (t : Fin cfg0.N) : (iblk0 V c 4 t : S1x128.Idx → Ideal .f32) = V c main_v14 := by
  funext y
  show V c main_v14 (((cfg0.win 4).blk t).view.emb y) = _
  rw [emb_whole4]

/-- What point t writes back is block t of the layer of the whole arrays. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  rw [payload_eq, block2, block3, block4]
  funext j
  obtain ⟨p, q, rfl⟩ : ∃ (p : Fin 5000) (q : Fin 128), j = ix2 p q := ⟨j 0, j 1, eq_ix2 j⟩
  show Cert.Spec.sage 5000 128 128 (iblk0 V c 0 t) (iblk0 V c 1 t) (V c main_arg5) (V c main_arg6) (V c main_v14) (ix2 p q)
    = layer V c (((cfg0.win 5).blk t).view.emb (ix2 p q))
  rw [emb_rows5]
  exact Cert.Spec.sage_rows 100000 128 128 5000 (V c main_v0) (V c main_v13) (iblk0 V c 0 t) (iblk0 V c 1 t)
    (V c main_arg5) (V c main_arg6) (V c main_v14) ⟨t.val * 5000 + p.val, rows_lt t p⟩ p
    (fun k => block0 V c t p k) (fun k => block1 V c t p k) q

/-- An index of the array is in point t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v15).slice (win0_5.rect t)).set ↔ _
  rw [View.set_slice_whole, Rect.mem_set_unit]
  exact Iff.rfl

/-- Every row lies in the block of the point numbered by its quotient by 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, e0, e1⟩ := index_maps t
  have et : t.val = (i 0).val / 5000 := rfl
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the region: the layer of the arrays the region found. -/
theorem final (c : Dev nD) : (dat0 V c).arrAt 5 cfg0.N = layer V c :=
  (dat0 V c).arrAt_eq_of_cover 5 (layer V c) (fun t _ => flushed_eq V c t) covered

end Cert.KernelIdeal.Val0

end
-- ==== Proof.Region1.lean ====
/-
  The array region 1 leaves: the graph-convolution layer of the region's whole input arrays.

  The region runs the layer's body at 20 grid points; point t is handed rows 5000·t … 5000·t + 4999 of the two row
  operands (node features and averaged neighbour features), the two 128×128 weights and the bias row whole, and writes
  back the same rows of the result. The body's value on a block is the layer of the block (the matrix unit's spelling
  of the layer), a row of the layer depends on the row operands only through that row, and the 20 blocks of 5000 rows
  tile the 100000 rows: so the array ends as the layer of the whole arrays, entry by entry.
-/
import proofs.«176873_j75763223102156_1_alg».proof.Proof.Gen.KernelIdeal.Frame
import proofs.«176873_j75763223102156_1_alg».proof.Proof.SpecSage
import Idealize.ShloMosaic.Lib.Pipeline.Value
import Idealize.ShloMosaic.Lib.ValueIdx

set_option maxRecDepth 16384

noncomputable section

namespace Cert.KernelIdeal.Val1

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the whole arrays as the region finds them. -/
def layer (c : Dev nD) : FVec Ideal ⟨2, ![100000, 128]⟩ .f32 :=
  Cert.Spec.sage 100000 128 128 (V c main_v15) (V c main_v28) (V c main_arg8) (V c main_arg9) (V c main_v29)

/-- The body's value on its loaded blocks is the layer of the blocks. -/
theorem payload_eq (x0 x1 : FVec Ideal ⟨2, ![5000, 128]⟩ .f32) (x2 x3 : FVec Ideal ⟨2, ![128, 128]⟩ .f32) (x4 : FVec Ideal ⟨2, ![1, 128]⟩ .f32) :
    k1_pay1 (F := Ideal) x0 x1 x2 x3 x4 = Cert.Spec.sage 5000 128 128 x0 x1 x2 x3 x4 := by
  unfold k1_pay1
  exact Cert.Spec.sage_of_matmul 5000 128 128 x0 x1 x2 x3 x4 _ _ _ _ _ _ _ _

/-- The printed index maps, decided over the grid: the row operands and the result move one block of rows per point,
    the weights and the bias row stay. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem rows_lt (t : Fin cfg1.N) (p : Fin 5000) : t.val * 5000 + p.val < 100000 := by
  have hN : cfg1.N = 20 := N_1
  have ht := t.isLt
  have hp := p.isLt
  omega

/-- Row p, column q of point t's block of a row operand or of the result is row 5000·t + p, column q of the array. -/
theorem emb_rows0 (t : Fin cfg1.N) (p : Fin 5000) (q : Fin 128) :
    ((cfg1.win 0).blk t).view.emb (ix2 p q) = ix2 (⟨t.val * 5000 + p.val, rows_lt t p⟩ : Fin 100000) q := by
  obtain ⟨e0, e1, -⟩ := index_maps t
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

theorem emb_rows1 (t : Fin cfg1.N) (p : Fin 5000) (q : Fin 128) :
    ((cfg1.win 1).blk t).view.emb (ix2 p q) = ix2 (⟨t.val * 5000 + p.val, rows_lt t p⟩ : Fin 100000) q := by
  obtain ⟨-, -, e0, e1, -⟩ := index_maps t
  funext a; apply Fin.ext
  match a with
  | ⟨0, _⟩ => show win1_1.index t (0 : Fin 2) * 5000 + 1 * p.val = t.val * 5000 + p.val; omega
  | ⟨1, _⟩ => show win1_1.index t (1 : Fin 2) * 128 + 1 * q.val = q.val; omega

theorem emb_rows5 (t : Fin cfg1.N) (p : Fin 5000) (q : Fin 128) :
    ((cfg1.win 5).blk t).view.emb (ix2 p q) = ix2 (⟨t.val * 5000 + p.val, rows_lt t p⟩ : Fin 100000) q := by
  obtain ⟨-, -, -, -, -, -, -, -, -, -, e0, e1⟩ := index_maps t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-- The weights' and the bias row's one block is the whole array. -/
theorem emb_whole2 (t : Fin cfg1.N) (y : S128x128.Idx) : ((cfg1.win 2).blk t).view.emb y = y := by
  obtain ⟨-, -, -, -, e0, e1, -⟩ := index_maps t
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem emb_whole3 (t : Fin cfg1.N) (y : S128x128.Idx) : ((cfg1.win 3).blk t).view.emb y = y := by
  obtain ⟨-, -, -, -, -, -, e0, e1, -⟩ := index_maps t
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem emb_whole4 (t : Fin cfg1.N) (y : S1x128.Idx) : ((cfg1.win 4).blk t).view.emb y = y := by
  obtain ⟨-, -, -, -, -, -, -, -, e0, e1, -⟩ := index_maps t
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The blocks point t is handed, read off the arrays. -/
theorem block0 (c : Dev nD) (t : Fin cfg1.N) (p : Fin 5000) (k : Fin 128) :
    iblk1 V c 0 t (ix2 p k) = V c main_v15 (ix2 (⟨t.val * 5000 + p.val, rows_lt t p⟩ : Fin 100000) k) := by
  show V c main_v15 (((cfg1.win 0).blk t).view.emb (ix2 p k)) = _
  rw [emb_rows0]

theorem block1 (c : Dev nD) (t : Fin cfg1.N) (p : Fin 5000) (k : Fin 128) :
    iblk1 V c 1 t (ix2 p k) = V c main_v28 (ix2 (⟨t.val * 5000 + p.val, rows_lt t p⟩ : Fin 100000) k) := by
  show V c main_v28 (((cfg1.win 1).blk t).view.emb (ix2 p k)) = _
  rw [emb_rows1]

theorem block2 (c : Dev nD) (t : Fin cfg1.N) : (iblk1 V c 2 t : S128x128.Idx → Ideal .f32) = V c main_arg8 := by
  funext y
  show V c main_arg8 (((cfg1.win 2).blk t).view.emb y) = _
  rw [emb_whole2]

theorem block3 (c : Dev nD) (t : Fin cfg1.N) : (iblk1 V c 3 t : S128x128.Idx → Ideal .f32) = V c main_arg9 := by
  funext y
  show V c main_arg9 (((cfg1.win 3).blk t).view.emb y) = _
  rw [emb_whole3]

theorem block4 (c : Dev nD) (t : Fin cfg1.N) : (iblk1 V c 4 t : S1x128.Idx → Ideal .f32) = V c main_v29 := by
  funext y
  show V c main_v29 (((cfg1.win 4).blk t).view.emb y) = _
  rw [emb_whole4]

/-- What point t writes back is block t of the layer of the whole arrays. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  rw [payload_eq, block2, block3, block4]
  funext j
  obtain ⟨p, q, rfl⟩ : ∃ (p : Fin 5000) (q : Fin 128), j = ix2 p q := ⟨j 0, j 1, eq_ix2 j⟩
  show Cert.Spec.sage 5000 128 128 (iblk1 V c 0 t) (iblk1 V c 1 t) (V c main_arg8) (V c main_arg9) (V c main_v29) (ix2 p q)
    = layer V c (((cfg1.win 5).blk t).view.emb (ix2 p q))
  rw [emb_rows5]
  exact Cert.Spec.sage_rows 100000 128 128 5000 (V c main_v15) (V c main_v28) (iblk1 V c 0 t) (iblk1 V c 1 t)
    (V c main_arg8) (V c main_arg9) (V c main_v29) ⟨t.val * 5000 + p.val, rows_lt t p⟩ p
    (fun k => block0 V c t p k) (fun k => block1 V c t p k) q

/-- An index of the array is in point t's block iff each coordinate is in the block's range on its axis. -/
theorem mem_block (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v30).slice (win1_5.rect t)).set ↔ _
  rw [View.set_slice_whole, Rect.mem_set_unit]
  exact Iff.rfl

/-- Every row lies in the block of the point numbered by its quotient by 5000. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, -, -, e0, e1⟩ := index_maps t
  have et : t.val = (i 0).val / 5000 := rfl
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY after the region: the layer of the arrays the region found. -/
theorem final (c : Dev nD) : (dat1 V c).arrAt 5 cfg1.N = layer V c :=
  (dat1 V c).arrAt_eq_of_cover 5 (layer V c) (fun t _ => flushed_eq V c t) covered

end Cert.KernelIdeal.Val1

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibAffineStage.lean ====
/-
  A dense layer without a cut-off on the extended reals, in the two spellings that lower from "x @ w + b".
  For an M×K array x, a K×N weight w and a bias given as a one-row array b (shape [1, N]), the layer is
      (a, c) ↦ Σ_{k<K} x(a,k)·w(k,c) + b(0,c) .
  * affine_of_matmul: a matrix unit's product over the plain M×K by K×N dimension numbers into a zero accumulator, both
    operands first narrowed to a 16-bit float format (the identity on the extended reals), plus the bias row (shape-cast to
    its own shape) broadcast over the rows, is the layer.
  * affine_of_dotGeneral: the host's product over the same dimension numbers, plus the bias row broadcast along the axes
    [0, 1], is the layer.
  * affine_rows: the layer's value in a row depends on x only through that row, so a block of rows of x gives that block
    of the layer (for kernels that tile the rows over a grid).
  * stage_eq_max_affine: the dense stage with a cut-off at 0 is the maximum of this layer and 0, entry by entry.
  * bias rows: a [N] vector reshaped to [1, N] (a row-major shape cast) and the same vector broadcast to [1, N] along
    axis 1 are one row, entry c of the vector at (0, c).
  Over the library, the plain-product lemmas and the dense-stage lemmas only; every extent is a variable.
-/
import Idealize.ShloMosaic.PureOps.Ideal.Laws
import Idealize.ShloMosaic.Lib.ValueIdx
import Idealize.ShloMosaic.Lib.Pipeline.Value
import proofs.«176873_j75763223102156_1_alg».proof.Proof.LibPlainDot
import proofs.«176873_j75763223102156_1_alg».proof.Proof.LibDenseStage
import proofs.«176873_j75763223102156_1_alg».proof.Proof.LibHostBroadcast

noncomputable section

namespace Cert.LibAffineStage

open Idealize.ShloMosaic Idealize.ShloMosaic.ValueIdx

variable (M K N : Nat)

/-- x·w plus the bias row. -/
def affine (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => ∑ k : Fin K, x (ix2 (i 0) k) * w (ix2 k (i 1)) + b (ix2 (0 : Fin 1) (i 1))

theorem affine_apply (x : FVec Ideal ⟨2, ![M, K]⟩ .f32) (w : FVec Ideal ⟨2, ![K, N]⟩ .f32) (b : FVec Ideal ⟨2, ![1, N]⟩ .f32)
    (a : Fin M) (c : Fin N) :
    affine M K N x w b (ix2 a c) = ∑ k : Fin K, x (ix2 a k) * w (ix2 k c) + b (ix2 (0 : Fin 1) c) := rfl

/-- The layer in row a' of a block is the layer in row a of the whole, when the block's row a' is the whole's row a. -/
theorem affine_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    affine M' K N x w b (ix2 a' c) = affine M K N X w b (ix2 a c) := by
  rw [affine_apply, affine_apply]
  exact congrArg (fun s => s + b (ix2 (0 : Fin 1) c)) (Finset.sum_congr rfl fun k _ => by rw [h k])

/-- The dense stage with a cut-off at 0 is the maximum of the layer and 0. -/
theorem stage_eq_max_affine (x : FVec Ideal ⟨2, ![M, K]⟩ .f32) (w : FVec Ideal ⟨2, ![K, N]⟩ .f32) (b : FVec Ideal ⟨2, ![1, N]⟩ .f32)
    (i : (⟨2, ![M, N]⟩ : Shape).Idx) :
    Cert.LibDenseStage.stage M K N x w b i = max (affine M K N x w b i) 0 := rfl

/-- The matrix unit's spelling of the layer. -/
theorem affine_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb)
      = affine M K N x w b := by
  funext i
  obtain ⟨a, c, rfl⟩ : ∃ (a : Fin M) (c : Fin N), i = ix2 a c := ⟨i 0, i 1, eq_ix2 i⟩
  rw [addf_apply, Cert.LibPlainDot.matmul_plain, shapeCast_self, Cert.LibDenseStage.row_broadcastTo, affine_apply]
  rfl

/-- The host's spelling of the layer. -/
theorem affine_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2)) :
    addf (Host.dotGeneral (F := Ideal) (DotDims.plain M K N) none x w) (broadcastInDim ⟨2, ![M, N]⟩ ![0, 1] hb b)
      = affine M K N x w b := by
  funext i
  obtain ⟨a, c, rfl⟩ : ∃ (a : Fin M) (c : Fin N), i = ix2 a c := ⟨i 0, i 1, eq_ix2 i⟩
  rw [addf_apply, Cert.LibPlainDot.dotGeneral_plain, Cert.LibDenseStage.row_broadcastInDim, affine_apply]
  rfl

/-- A [N] vector reshaped to a [1, N] row reads, at (0, c), the vector at c. -/
theorem reshape_row {α : Type} (v : (⟨1, ![N]⟩ : Shape).Idx → α) (h : (⟨1, ![N]⟩ : Shape).ShapeCasts ⟨2, ![1, N]⟩) (u : Fin 1) (c : Fin N) :
    shapeCast ⟨2, ![1, N]⟩ v h (ix2 u c) = v (ix1 c) :=
  shapeCast_apply v h (ix2 u c) (ix1 c) (by
    rw [Shape.rowMajor_val_one, Shape.rowMajor_val_two]
    have hu : u.val = 0 := by have := u.isLt; omega
    show c.val = u.val * N + c.val
    rw [hu]; omega)

/-- The reshaped row and the broadcast row of one vector are the same [1, N] array. -/
theorem reshape_row_eq_broadcast_row {α : Type} (v : (⟨1, ![N]⟩ : Shape).Idx → α) (h : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ v h = broadcastInDim ⟨2, ![1, N]⟩ ![1] hb v := by
  funext i
  obtain ⟨u, c, rfl⟩ : ∃ (u : Fin 1) (c : Fin N), i = ix2 u c := ⟨i 0, i 1, eq_ix2 i⟩
  rw [reshape_row, Cert.LibHostBroadcast.vec_to_row]

end Cert.LibAffineStage

end
-- ==== Proof.LibColumn.lean ====
/-
  Row-wise reductions kept as a column, read at an index, at the ideal values.
  A vector of a entries cast to an a×1 column reads its entry at the row; an a×1 column broadcast to a×b repeats each
  row's entry along the row; a sum (a maximum) along the rows of an a×b array is, at row i, the sum (the fold of max from
  the accumulator's value) over k < b of the entries (i, k).
-/
import Idealize.ShloMosaic.PureOps.Ideal.Laws
import Idealize.ShloMosaic.Lib.ValueIdx
import Idealize.ShloMosaic.Lib.Pipeline.Value

noncomputable section

namespace Cert.LibColumn

open Idealize.ShloMosaic Idealize.ShloMosaic.ValueIdx

variable {α : Type}

/-- An `[a]` array cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `i` of a sum along the rows, with the column `k` put back, is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum along the rows of an `a × b` array, at row `i`: the sum of that row's entries. -/
theorem rowSum_apply {φ : FTy} {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction (F := Ideal) .add [1] ⟨1, ![a]⟩ src acc h hφ hacc (ix1 i) = ∑ k : Fin b, src (ix2 i k) := by
  rw [Ideal.multiReduction_add_single]
  exact Finset.sum_congr rfl fun k _ => congrArg src (lift_row h i k)

/-- A maximum along the rows of an `a × b` array, at row `i`: the fold of `max` from the accumulator's value over that
    row's entries. -/
theorem rowMax_apply {φ : FTy} {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (i : Fin a) :
    multiReduction (F := Ideal) .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) := funext fun k => congrArg src (lift_row h i k)
  exact congrArg (fun f => Finset.fold max (Ideal.ofBits φ acc) f (Finset.univ : Finset (Fin b))) hf

end Cert.LibColumn

end
-- ==== Proof.SpecHead.lean ====
/-
  The head of the network as plain mathematics on the extended reals, and the two spellings of its last step.
  For an R×C array y, the row maximum m(a) is the fold of max over the row from −∞, and the log-softmax is
      (a, c) ↦ (y(a,c) − m(a)) − log Σ_k exp (y(a,k) − m(a)) .
  The head is four dense stages with a cut-off at 0 (the first one is also a result of its own), one dense layer
  without a cut-off, and the log-softmax of that.
  * lsm_of_vector: the vector unit's spelling (row maximum and row sum as reductions along axis 1 kept as columns and
    broadcast back along the rows) is the log-softmax.
  * lsm_of_host: the host's spelling (a reduce with a maximum body, one more maximum with a splat of −∞, and a reduce
    with an add body from 0, each broadcast back through an R×1 column) is the log-softmax.
-/
import Idealize.ShloMosaic.PureOps.Ideal.Laws
import Idealize.ShloMosaic.Lib.ValueIdx
import Idealize.ShloMosaic.Lib.Pipeline.Value
import proofs.«176873_j75763223102156_1_alg».proof.Proof.LibPlainDot
import proofs.«176873_j75763223102156_1_alg».proof.Proof.LibDenseStage
import proofs.«176873_j75763223102156_1_alg».proof.Proof.LibAffineStage
import proofs.«176873_j75763223102156_1_alg».proof.Proof.LibHostBroadcast
import proofs.«176873_j75763223102156_1_alg».proof.Proof.LibColumn

noncomputable section

namespace Cert.Spec

open Idealize.ShloMosaic Idealize.ShloMosaic.ValueIdx

/-- The maximum of row a: the fold of max over the row's entries, from −∞. -/
def rowMax (R C : Nat) (y : FVec Ideal ⟨2, ![R, C]⟩ .f32) (a : Fin R) : EReal :=
  (Finset.univ : Finset (Fin C)).fold max (Ideal.ofBits .f32 0xFF800000#32) (fun k => y (ix2 a k))

/-- The log-softmax along the rows, in the shifted form: subtract the row maximum, then the log of the row's sum of
    exponentials of the shifted entries. -/
def lsm (R C : Nat) (y : FVec Ideal ⟨2, ![R, C]⟩ .f32) : FVec Ideal ⟨2, ![R, C]⟩ .f32 :=
  fun i => (y i - rowMax R C y (i 0)) - Ideal.log (∑ k : Fin C, Ideal.exp (y (ix2 (i 0) k) - rowMax R C y (i 0)))

/-- The first dense stage of the head, which is also a result. -/
def hidden (hg : FVec Ideal ⟨2, ![256, 128]⟩ .f32) (e1w : FVec Ideal ⟨2, ![128, 256]⟩ .f32) (e1b : FVec Ideal ⟨2, ![1, 256]⟩ .f32) :
    FVec Ideal ⟨2, ![256, 256]⟩ .f32 :=
  Cert.LibDenseStage.stage 256 128 256 hg e1w e1b

/-- The head's log-probabilities: three more dense stages, the prediction layer, and the log-softmax. -/
def logp (hg : FVec Ideal ⟨2, ![256, 128]⟩ .f32) (e1w : FVec Ideal ⟨2, ![128, 256]⟩ .f32) (e1b : FVec Ideal ⟨2, ![1, 256]⟩ .f32)
    (e2w : FVec Ideal ⟨2, ![256, 256]⟩ .f32) (e2b : FVec Ideal ⟨2, ![1, 256]⟩ .f32)
    (e3w : FVec Ideal ⟨2, ![256, 256]⟩ .f32) (e3b : FVec Ideal ⟨2, ![1, 256]⟩ .f32)
    (e4w : FVec Ideal ⟨2, ![256, 256]⟩ .f32) (e4b : FVec Ideal ⟨2, ![1, 256]⟩ .f32)
    (pw : FVec Ideal ⟨2, ![256, 2]⟩ .f32) (pb : FVec Ideal ⟨2, ![1, 2]⟩ .f32) : FVec Ideal ⟨2, ![256, 2]⟩ .f32 :=
  lsm 256 2 (Cert.LibAffineStage.affine 256 256 2
    (Cert.LibDenseStage.stage 256 256 256 (Cert.LibDenseStage.stage 256 256 256 (Cert.LibDenseStage.stage 256 256 256
      (hidden hg e1w e1b) e2w e2b) e3w e3b) e4w e4b) pw pb)

theorem lsm_apply (R C : Nat) (y : FVec Ideal ⟨2, ![R, C]⟩ .f32) (a : Fin R) (c : Fin C) :
    lsm R C y (ix2 a c)
      = (y (ix2 a c) - rowMax R C y a) - Ideal.log (∑ k : Fin C, Ideal.exp (y (ix2 a k) - rowMax R C y a)) := rfl

/-- The vector unit's spelling of the log-softmax. -/
theorem lsm_of_vector (R C : Nat) (y : FVec Ideal ⟨2, ![R, C]⟩ .f32)
    (hr : (⟨2, ![R, C]⟩ : Shape).Reduces [1] (⟨1, ![R]⟩ : Shape)) (hφ : FKind.Formats .f32)
    (hacc : (0xFF800000#32 : BitVec FTy.f32.bits) = FKind.maximumf.neutral .f32 hφ)
    (hφ' : FKind.Formats .f32) (hacc' : (0x00000000#32 : BitVec FTy.f32.bits) = FKind.add.neutral .f32 hφ')
    (hsc : (⟨1, ![R]⟩ : Shape).ShapeCasts ⟨2, ![R, 1]⟩) (hbc : (⟨2, ![R, 1]⟩ : Shape).Broadcasts ⟨2, ![R, C]⟩) :
    subf (subf y (broadcastTo ⟨2, ![R, C]⟩ (shapeCast ⟨2, ![R, 1]⟩
            (multiReduction (F := Ideal) .maximumf [1] ⟨1, ![R]⟩ y 0xFF800000#32 hr hφ hacc) hsc) hbc))
        (broadcastTo ⟨2, ![R, C]⟩ (log (shapeCast ⟨2, ![R, 1]⟩
            (multiReduction (F := Ideal) .add [1] ⟨1, ![R]⟩
              (exp (subf y (broadcastTo ⟨2, ![R, C]⟩ (shapeCast ⟨2, ![R, 1]⟩
                (multiReduction (F := Ideal) .maximumf [1] ⟨1, ![R]⟩ y 0xFF800000#32 hr hφ hacc) hsc) hbc)))
              0x00000000#32 hr hφ' hacc') hsc)) hbc)
      = lsm R C y := by
  -- the row maximum kept as a column and broadcast back along the rows, at an index
  have hm : ∀ (a : Fin R) (c : Fin C),
      broadcastTo ⟨2, ![R, C]⟩ (shapeCast ⟨2, ![R, 1]⟩
        (multiReduction (F := Ideal) .maximumf [1] ⟨1, ![R]⟩ y 0xFF800000#32 hr hφ hacc) hsc) hbc (ix2 a c) = rowMax R C y a := by
    intro a c
    rw [Cert.LibColumn.broadcastTo_a1_ab_apply, Cert.LibColumn.shapeCast_a_a1_apply, Cert.LibColumn.rowMax_apply]
    rfl
  funext i
  obtain ⟨a, c, rfl⟩ : ∃ (a : Fin R) (c : Fin C), i = ix2 a c := ⟨i 0, i 1, eq_ix2 i⟩
  rw [subf_apply, subf_apply, hm, Cert.LibColumn.broadcastTo_a1_ab_apply, lsm_apply]
  refine congrArg (fun t => (y (ix2 a c) - rowMax R C y a) - t) ?_
  show Ideal.log (shapeCast ⟨2, ![R, 1]⟩ _ hsc (ix2 a (0 : Fin 1))) = _
  rw [Cert.LibColumn.shapeCast_a_a1_apply, Cert.LibColumn.rowSum_apply]
  refine congrArg Ideal.log (Finset.sum_congr rfl fun k _ => ?_)
  show Ideal.exp (subf y _ (ix2 a k)) = _
  rw [subf_apply, hm]

/-- The host's exponential and logarithm of an array, at an index. -/
theorem hostExp_apply {s : Shape} (x : FVec Ideal s .f32) (i : s.Idx) : Host.exp x i = Ideal.exp (x i) := rfl

theorem hostLog_apply {s : Shape} (x : FVec Ideal s .f32) (i : s.Idx) : Host.log x i = Ideal.log (x i) := rfl

/-- The host's reduce with an add body from 0 along the rows of an R×C array, at row a: the sum of the row. -/
theorem hostRowSum_apply (R C : Nat) (x : FVec Ideal ⟨2, ![R, C]⟩ .f32)
    (hred : (⟨2, ![R, C]⟩ : Shape).ReducesTo [1] (⟨1, ![R]⟩ : Shape)) (hr : (⟨2, ![R, C]⟩ : Shape).Reduces [1] (⟨1, ![R]⟩ : Shape))
    (hu : 0 < (⟨0, ![]⟩ : Shape).numel) (a : Fin R) :
    Host.reduceAdd x (constant (F := Ideal) ⟨0, ![]⟩ .f32 0x00000000#32) hred hu (ix1 a) = ∑ k : Fin C, x (ix2 a k) := by
  show Ideal.hostReduceAdd hred x (Ideal.ofBits .f32 0x00000000#32) (ix1 a) = _
  rw [Ideal.hostReduceAdd_single hred hr, Ideal.ofBits_zero_f32, zero_add]
  exact Finset.sum_congr rfl fun k _ => congrArg x (Cert.LibColumn.lift_row hr a k)

/-- The host's spelling of the log-softmax. -/
theorem lsm_of_host (R C : Nat) (y : FVec Ideal ⟨2, ![R, C]⟩ .f32)
    (hred : (⟨2, ![R, C]⟩ : Shape).ReducesTo [1] (⟨1, ![R]⟩ : Shape)) (hu : 0 < (⟨0, ![]⟩ : Shape).numel)
    (hb0 : (⟨0, ![]⟩ : Shape).BroadcastsInDim ⟨1, ![R]⟩ (![] : Fin 0 → Fin 1))
    (hb1 : (⟨1, ![R]⟩ : Shape).BroadcastsInDim ⟨2, ![R, 1]⟩ (![0] : Fin 1 → Fin 2))
    (hb2 : (⟨2, ![R, 1]⟩ : Shape).BroadcastsInDim ⟨2, ![R, C]⟩ (![0, 1] : Fin 2 → Fin 2)) :
    subf (subf y (broadcastInDim ⟨2, ![R, C]⟩ ![0, 1] hb2 (broadcastInDim ⟨2, ![R, 1]⟩ ![0] hb1
            (maximumf (broadcastInDim ⟨1, ![R]⟩ ![] hb0 (constant (F := Ideal) ⟨0, ![]⟩ .f32 0xFF800000#32))
              (Host.reduce FloatOps.maximumf y (constant (F := Ideal) ⟨0, ![]⟩ .f32 0xFF800000#32) hred hu)))))
        (broadcastInDim ⟨2, ![R, C]⟩ ![0, 1] hb2 (Host.log (broadcastInDim ⟨2, ![R, 1]⟩ ![0] hb1
          (Host.reduceAdd
            (Host.exp (subf y (broadcastInDim ⟨2, ![R, C]⟩ ![0, 1] hb2 (broadcastInDim ⟨2, ![R, 1]⟩ ![0] hb1
              (maximumf (broadcastInDim ⟨1, ![R]⟩ ![] hb0 (constant (F := Ideal) ⟨0, ![]⟩ .f32 0xFF800000#32))
                (Host.reduce FloatOps.maximumf y (constant (F := Ideal) ⟨0, ![]⟩ .f32 0xFF800000#32) hred hu))))))
            (constant (F := Ideal) ⟨0, ![]⟩ .f32 0x00000000#32) hred hu))))
      = lsm R C y := by
  have hr : (⟨2, ![R, C]⟩ : Shape).Reduces [1] (⟨1, ![R]⟩ : Shape) := ⟨hred.1, Nat.one_pos, hred.2⟩
  -- the reduce with a maximum body from −∞, at row a: the row maximum
  have hmax : ∀ a : Fin R,
      Host.reduce FloatOps.maximumf y (constant (F := Ideal) ⟨0, ![]⟩ .f32 0xFF800000#32) hred hu (ix1 a) = rowMax R C y a := by
    intro a
    rw [Host.reduce_eq_fold_single FloatOps.maximumf y _ hred hr hu]
    have hf : (y ∘ hr.lift (ix1 a)) = fun k : Fin C => y (ix2 a k) :=
      funext fun k => congrArg y (Cert.LibColumn.lift_row hr a k)
    exact congrArg (fun f => Finset.fold max (Ideal.ofBits .f32 0xFF800000#32) f (Finset.univ : Finset (Fin C))) hf
  -- one more maximum with −∞ changes nothing (−∞ is below the fold that starts from it), and the two broadcasts read row a
  have hm : ∀ (a : Fin R) (c : Fin C),
      broadcastInDim ⟨2, ![R, C]⟩ ![0, 1] hb2 (broadcastInDim ⟨2, ![R, 1]⟩ ![0] hb1
        (maximumf (broadcastInDim ⟨1, ![R]⟩ ![] hb0 (constant (F := Ideal) ⟨0, ![]⟩ .f32 0xFF800000#32))
          (Host.reduce FloatOps.maximumf y (constant (F := Ideal) ⟨0, ![]⟩ .f32 0xFF800000#32) hred hu))) (ix2 a c)
        = rowMax R C y a := by
    intro a c
    rw [Cert.LibHostBroadcast.vec_along_rows, maximumf_apply, Cert.LibHostBroadcast.scalar_to_any, constant_apply, hmax]
    exact max_eq_right ((Finset.le_fold_max _).2 (Or.inl le_rfl))
  funext i
  obtain ⟨a, c, rfl⟩ : ∃ (a : Fin R) (c : Fin C), i = ix2 a c := ⟨i 0, i 1, eq_ix2 i⟩
  rw [subf_apply, subf_apply, hm, Cert.LibHostBroadcast.col_to_mat, lsm_apply, hostLog_apply,
    Cert.LibHostBroadcast.vec_to_col, hostRowSum_apply R C _ hred hr hu]
  refine congrArg (fun t => (y (ix2 a c) - rowMax R C y a) - Ideal.log t) (Finset.sum_congr rfl fun k _ => ?_)
  rw [hostExp_apply, subf_apply, hm]

end Cert.Spec

end
-- ==== Proof.Region2.lean ====
/-
  The arrays region 2 leaves: the head of the network, of the region's whole input arrays.

  The region runs the head's body at one grid point, which is handed every input array whole (the pooled features, four
  weight and bias pairs of the hidden stages, the prediction layer's weight and bias) and writes two results back whole:
  the first hidden stage, and the log-probabilities. The body's first payload is the matrix unit's spelling of a dense
  stage; the second is three more dense stages, one dense layer without a cut-off, and the vector unit's spelling of the
  log-softmax along the rows. Each window's one block is the whole array, and the one point's block of each result
  covers it: so the two arrays end as the first hidden stage and the log-probabilities of the arrays the region found.
-/
import proofs.«176873_j75763223102156_1_alg».proof.Proof.Gen.KernelIdeal.Frame
import proofs.«176873_j75763223102156_1_alg».proof.Proof.SpecHead
import Idealize.ShloMosaic.Lib.Pipeline.Value
import Idealize.ShloMosaic.Lib.ValueIdx

set_option maxRecDepth 16384

noncomputable section

namespace Cert.KernelIdeal.Val2

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's payloads -/

/-- The first payload is the first dense stage of its loaded blocks (the row operand's extra cast to its own shape is
    the identity). -/
theorem pay_hidden (x0 : Vec Ideal S256x128 .f32) (x1 : Vec Ideal S128x256 .f32) (x2 : Vec Ideal S1x256 .f32) :
    k2_pay2 (F := Ideal) x0 x1 x2 = Cert.Spec.hidden x0 x1 x2 := by
  unfold k2_pay2
  refine (Cert.LibDenseStage.stage_of_matmul 256 128 256 (shapeCast S256x128 x0 shapeCasts_S256x128_S256x128) x1 x2 _ _ _ _).trans ?_
  rw [shapeCast_self]
  rfl

/-- One middle layer in the body's spelling is a dense stage. -/
theorem mid_stage (X : FVec Ideal S256x256 .f32) (w : Vec Ideal S256x256 .f32) (b : Vec Ideal S1x256 .f32) :
    maximumf (addf (matmul (F := Ideal) dot_S256x256_S256x256_S256x256_1_0_0_1_n_n none (truncf .bf16 X bitsLt_bf16_f32)
          (truncf .bf16 w bitsLt_bf16_f32) (constant S256x256 .f32 0x00000000#32))
        (broadcastTo S256x256 (shapeCast S1x256 b shapeCasts_S1x256_S1x256) broadcasts_S1x256_S256x256))
      (broadcast S256x256 (Scalar.ofBits (F := Ideal) .f32 0x00000000#32))
      = Cert.LibDenseStage.stage 256 256 256 X w b :=
  Cert.LibDenseStage.stage_of_matmul 256 256 256 X w b _ _ _ _

/-- The prediction layer in the body's spelling is a dense layer without a cut-off. -/
theorem pred_affine (X : FVec Ideal S256x256 .f32) (w : Vec Ideal S256x2 .f32) (b : Vec Ideal S1x2 .f32) :
    addf (matmul (F := Ideal) dot_S256x256_S256x2_S256x2_1_0_0_1_n_n none (truncf .bf16 X bitsLt_bf16_f32)
          (truncf .bf16 w bitsLt_bf16_f32) (constant S256x2 .f32 0x00000000#32))
        (broadcastTo S256x2 (shapeCast S1x2 b shapeCasts_S1x2_S1x2) broadcasts_S1x2_S256x2)
      = Cert.LibAffineStage.affine 256 256 2 X w b :=
  Cert.LibAffineStage.affine_of_matmul 256 256 2 X w b _ _ _ _

/-- The value handed from the first part of the body to the second: three dense stages, narrowed (the identity). -/
theorem pay_mid (x0 : Vec Ideal S256x128 .f32) (x1 : Vec Ideal S128x256 .f32) (x2 : Vec Ideal S1x256 .f32)
    (x3 : Vec Ideal S256x256 .f32) (x4 : Vec Ideal S1x256 .f32) (x5 : Vec Ideal S256x256 .f32) (x6 : Vec Ideal S1x256 .f32) :
    k2_pay3 (F := Ideal) x0 x1 x2 x3 x4 x5 x6
      = truncf .bf16 (Cert.LibDenseStage.stage 256 256 256 (Cert.LibDenseStage.stage 256 256 256 (Cert.Spec.hidden x0 x1 x2) x3 x4) x5 x6)
          bitsLt_bf16_f32 := by
  unfold k2_pay3
  dsimp only
  rw [pay_hidden, mid_stage, mid_stage]

/-- The second payload is the head's log-probabilities of its loaded blocks. -/
theorem pay_logp (x0 : Vec Ideal S256x128 .f32) (x1 : Vec Ideal S128x256 .f32) (x2 : Vec Ideal S1x256 .f32)
    (x3 : Vec Ideal S256x256 .f32) (x4 : Vec Ideal S1x256 .f32) (x5 : Vec Ideal S256x256 .f32) (x6 : Vec Ideal S1x256 .f32)
    (x7 : Vec Ideal S256x256 .f32) (x8 : Vec Ideal S1x256 .f32) (x9 : Vec Ideal S256x2 .f32) (x10 : Vec Ideal S1x2 .f32) :
    k2_pay1 (F := Ideal) (k2_pay3 x0 x1 x2 x3 x4 x5 x6) x7 x8 x9 x10 = Cert.Spec.logp x0 x1 x2 x3 x4 x5 x6 x7 x8 x9 x10 := by
  rw [pay_mid]
  unfold k2_pay1
  dsimp only
  rw [mid_stage, pred_affine]
  exact Cert.Spec.lsm_of_vector 256 2 _ _ _ _ _ _ _ _

/-! ## The windows' blocks: each is the whole array -/

theorem zero_offsets : (![0, 0] : Fin 2 → Nat) = fun _ => 0 := funext fun a => by fin_cases a <;> rfl

/-- Window 0's printed index map, decided over the grid: block 0 on both axes. -/
theorem index_map0 : ∀ t : Fin cfg2.N, win2_0.index t (0 : Fin 2) = 0 ∧ win2_0.index t (1 : Fin 2) = 0 :=
  (by decide +kernel : ∀ t : Fin grid2.N, _)

/-- Window 0's one block sits at the array's origin and has its extents: position y of the block is position y of the array. -/
theorem emb_whole0 (t : Fin cfg2.N) (y : S256x128.Idx) : ((cfg2.win 0).blk t).view.emb y = y := by
  obtain ⟨e0, e1⟩ := index_map0 t
  funext a; apply Fin.ext
  match a with
  | ⟨0, _⟩ => show win2_0.index t (0 : Fin 2) * 256 + 1 * (y 0).val = (y 0).val; omega
  | ⟨1, _⟩ => show win2_0.index t (1 : Fin 2) * 128 + 1 * (y 1).val = (y 1).val; omega

/-- Window 1's printed index map, decided over the grid: block 0 on both axes. -/
theorem index_map1 : ∀ t : Fin cfg2.N, win2_1.index t (0 : Fin 2) = 0 ∧ win2_1.index t (1 : Fin 2) = 0 :=
  (by decide +kernel : ∀ t : Fin grid2.N, _)

/-- Window 1's one block sits at the array's origin and has its extents: position y of the block is position y of the array. -/
theorem emb_whole1 (t : Fin cfg2.N) (y : S128x256.Idx) : ((cfg2.win 1).blk t).view.emb y = y := by
  obtain ⟨e0, e1⟩ := index_map1 t
  funext a; apply Fin.ext
  match a with
  | ⟨0, _⟩ => show win2_1.index t (0 : Fin 2) * 128 + 1 * (y 0).val = (y 0).val; omega
  | ⟨1, _⟩ => show win2_1.index t (1 : Fin 2) * 256 + 1 * (y 1).val = (y 1).val; omega

/-- Window 2's printed index map, decided over the grid: block 0 on both axes. -/
theorem index_map2 : ∀ t : Fin cfg2.N, win2_2.index t (0 : Fin 2) = 0 ∧ win2_2.index t (1 : Fin 2) = 0 :=
  (by decide +kernel : ∀ t : Fin grid2.N, _)

/-- Window 2's one block sits at the array's origin and has its extents: position y of the block is position y of the array. -/
theorem emb_whole2 (t : Fin cfg2.N) (y : S1x256.Idx) : ((cfg2.win 2).blk t).view.emb y = y := by
  obtain ⟨e0, e1⟩ := index_map2 t
  funext a; apply Fin.ext
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- Window 3's printed index map, decided over the grid: block 0 on both axes. -/
theorem index_map3 : ∀ t : Fin cfg2.N, win2_3.index t (0 : Fin 2) = 0 ∧ win2_3.index t (1 : Fin 2) = 0 :=
  (by decide +kernel : ∀ t : Fin grid2.N, _)

/-- Window 3's one block sits at the array's origin and has its extents: position y of the block is position y of the array. -/
theorem emb_whole3 (t : Fin cfg2.N) (y : S256x256.Idx) : ((cfg2.win 3).blk t).view.emb y = y := by
  obtain ⟨e0, e1⟩ := index_map3 t
  funext a; apply Fin.ext
  match a with
  | ⟨0, _⟩ => show win2_3.index t (0 : Fin 2) * 256 + 1 * (y 0).val = (y 0).val; omega
  | ⟨1, _⟩ => show win2_3.index t (1 : Fin 2) * 256 + 1 * (y 1).val = (y 1).val; omega

/-- Window 4's printed index map, decided over the grid: block 0 on both axes. -/
theorem index_map4 : ∀ t : Fin cfg2.N, win2_4.index t (0 : Fin 2) = 0 ∧ win2_4.index t (1 : Fin 2) = 0 :=
  (by decide +kernel : ∀ t : Fin grid2.N, _)

/-- Window 4's one block sits at the array's origin and has its extents: position y of the block is position y of the array. -/
theorem emb_whole4 (t : Fin cfg2.N) (y : S1x256.Idx) : ((cfg2.win 4).blk t).view.emb y = y := by
  obtain ⟨e0, e1⟩ := index_map4 t
  funext a; apply Fin.ext
  match a with
  | ⟨0, _⟩ => show win2_4.index t (0 : Fin 2) * 1 + 1 * (y 0).val = (y 0).val; omega
  | ⟨1, _⟩ => show win2_4.index t (1 : Fin 2) * 256 + 1 * (y 1).val = (y 1).val; omega

/-- Window 5's printed index map, decided over the grid: block 0 on both axes. -/
theorem index_map5 : ∀ t : Fin cfg2.N, win2_5.index t (0 : Fin 2) = 0 ∧ win2_5.index t (1 : Fin 2) = 0 :=
  (by decide +kernel : ∀ t : Fin grid2.N, _)

/-- Window 5's one block sits at the array's origin and has its extents: position y of the block is position y of the array. -/
theorem emb_whole5 (t : Fin cfg2.N) (y : S256x256.Idx) : ((cfg2.win 5).blk t).view.emb y = y := by
  obtain ⟨e0, e1⟩ := index_map5 t
  funext a; apply Fin.ext
  match a with
  | ⟨0, _⟩ => show win2_5.index t (0 : Fin 2) * 256 + 1 * (y 0).val = (y 0).val; omega
  | ⟨1, _⟩ => show win2_5.index t (1 : Fin 2) * 256 + 1 * (y 1).val = (y 1).val; omega

/-- Window 6's printed index map, decided over the grid: block 0 on both axes. -/
theorem index_map6 : ∀ t : Fin cfg2.N, win2_6.index t (0 : Fin 2) = 0 ∧ win2_6.index t (1 : Fin 2) = 0 :=
  (by decide +kernel : ∀ t : Fin grid2.N, _)

/-- Window 6's one block sits at the array's origin and has its extents: position y of the block is position y of the array. -/
theorem emb_whole6 (t : Fin cfg2.N) (y : S1x256.Idx) : ((cfg2.win 6).blk t).view.emb y = y := by
  obtain ⟨e0, e1⟩ := index_map6 t
  funext a; apply Fin.ext
  match a with
  | ⟨0, _⟩ => show win2_6.index t (0 : Fin 2) * 1 + 1 * (y 0).val = (y 0).val; omega
  | ⟨1, _⟩ => show win2_6.index t (1 : Fin 2) * 256 + 1 * (y 1).val = (y 1).val; omega

/-- Window 7's printed index map, decided over the grid: block 0 on both axes. -/
theorem index_map7 : ∀ t : Fin cfg2.N, win2_7.index t (0 : Fin 2) = 0 ∧ win2_7.index t (1 : Fin 2) = 0 :=
  (by decide +kernel : ∀ t : Fin grid2.N, _)

/-- Window 7's one block sits at the array's origin and has its extents: position y of the block is position y of the array. -/
theorem emb_whole7 (t : Fin cfg2.N) (y : S256x256.Idx) : ((cfg2.win 7).blk t).view.emb y = y := by
  obtain ⟨e0, e1⟩ := index_map7 t
  funext a; apply Fin.ext
  match a with
  | ⟨0, _⟩ => show win2_7.index t (0 : Fin 2) * 256 + 1 * (y 0).val = (y 0).val; omega
  | ⟨1, _⟩ => show win2_7.index t (1 : Fin 2) * 256 + 1 * (y 1).val = (y 1).val; omega

/-- Window 8's printed index map, decided over the grid: block 0 on both axes. -/
theorem index_map8 : ∀ t : Fin cfg2.N, win2_8.index t (0 : Fin 2) = 0 ∧ win2_8.index t (1 : Fin 2) = 0 :=
  (by decide +kernel : ∀ t : Fin grid2.N, _)

/-- Window 8's one block sits at the array's origin and has its extents: position y of the block is position y of the array. -/
theorem emb_whole8 (t : Fin cfg2.N) (y : S1x256.Idx) : ((cfg2.win 8).blk t).view.emb y = y := by
  obtain ⟨e0, e1⟩ := index_map8 t
  funext a; apply Fin.ext
  match a with
  | ⟨0, _⟩ => show win2_8.index t (0 : Fin 2) * 1 + 1 * (y 0).val = (y 0).val; omega
  | ⟨1, _⟩ => show win2_8.index t (1 : Fin 2) * 256 + 1 * (y 1).val = (y 1).val; omega

/-- Window 9's printed index map, decided over the grid: block 0 on both axes. -/
theorem index_map9 : ∀ t : Fin cfg2.N, win2_9.index t (0 : Fin 2) = 0 ∧ win2_9.index t (1 : Fin 2) = 0 :=
  (by decide +kernel : ∀ t : Fin grid2.N, _)

/-- Window 9's one block sits at the array's origin and has its extents: position y of the block is position y of the array. -/
theorem emb_whole9 (t : Fin cfg2.N) (y : S256x2.Idx) : ((cfg2.win 9).blk t).view.emb y = y := by
  obtain ⟨e0, e1⟩ := index_map9 t
  funext a; apply Fin.ext
  match a with
  | ⟨0, _⟩ => show win2_9.index t (0 : Fin 2) * 256 + 1 * (y 0).val = (y 0).val; omega
  | ⟨1, _⟩ => show win2_9.index t (1 : Fin 2) * 2 + 1 * (y 1).val = (y 1).val; omega

/-- Window 10's printed index map, decided over the grid: block 0 on both axes. -/
theorem index_map10 : ∀ t : Fin cfg2.N, win2_10.index t (0 : Fin 2) = 0 ∧ win2_10.index t (1 : Fin 2) = 0 :=
  (by decide +kernel : ∀ t : Fin grid2.N, _)

/-- Window 10's one block sits at the array's origin and has its extents: position y of the block is position y of the array. -/
theorem emb_whole10 (t : Fin cfg2.N) (y : S1x2.Idx) : ((cfg2.win 10).blk t).view.emb y = y := by
  obtain ⟨e0, e1⟩ := index_map10 t
  funext a; apply Fin.ext
  match a with
  | ⟨0, _⟩ => show win2_10.index t (0 : Fin 2) * 1 + 1 * (y 0).val = (y 0).val; omega
  | ⟨1, _⟩ => show win2_10.index t (1 : Fin 2) * 2 + 1 * (y 1).val = (y 1).val; omega

/-- Window 11's printed index map, decided over the grid: block 0 on both axes. -/
theorem index_map11 : ∀ t : Fin cfg2.N, win2_11.index t (0 : Fin 2) = 0 ∧ win2_11.index t (1 : Fin 2) = 0 :=
  (by decide +kernel : ∀ t : Fin grid2.N, _)

/-- Window 11's one block sits at the array's origin and has its extents: position y of the block is position y of the array. -/
theorem emb_whole11 (t : Fin cfg2.N) (y : S256x256.Idx) : ((cfg2.win 11).blk t).view.emb y = y := by
  obtain ⟨e0, e1⟩ := index_map11 t
  funext a; apply Fin.ext
  match a with
  | ⟨0, _⟩ => show win2_11.index t (0 : Fin 2) * 256 + 1 * (y 0).val = (y 0).val; omega
  | ⟨1, _⟩ => show win2_11.index t (1 : Fin 2) * 256 + 1 * (y 1).val = (y 1).val; omega

/-- Window 12's printed index map, decided over the grid: block 0 on both axes. -/
theorem index_map12 : ∀ t : Fin cfg2.N, win2_12.index t (0 : Fin 2) = 0 ∧ win2_12.index t (1 : Fin 2) = 0 :=
  (by decide +kernel : ∀ t : Fin grid2.N, _)

/-- Window 12's one block sits at the array's origin and has its extents: position y of the block is position y of the array. -/
theorem emb_whole12 (t : Fin cfg2.N) (y : S256x2.Idx) : ((cfg2.win 12).blk t).view.emb y = y := by
  obtain ⟨e0, e1⟩ := index_map12 t
  funext a; apply Fin.ext
  match a with
  | ⟨0, _⟩ => show win2_12.index t (0 : Fin 2) * 256 + 1 * (y 0).val = (y 0).val; omega
  | ⟨1, _⟩ => show win2_12.index t (1 : Fin 2) * 2 + 1 * (y 1).val = (y 1).val; omega

/-- The blocks the point is handed are the arrays as the region finds them. -/
theorem block0 (c : Dev nD) (t : Fin cfg2.N) : (iblk2 V c 0 t : S256x128.Idx → Ideal .f32) = V c (Pipeline.arrRef spec2 0) := by
  funext y
  show V c (Pipeline.arrRef spec2 0) (((cfg2.win 0).blk t).view.emb y) = _
  rw [emb_whole0]

theorem block1 (c : Dev nD) (t : Fin cfg2.N) : (iblk2 V c 1 t : S128x256.Idx → Ideal .f32) = V c (Pipeline.arrRef spec2 1) := by
  funext y
  show V c (Pipeline.arrRef spec2 1) (((cfg2.win 1).blk t).view.emb y) = _
  rw [emb_whole1]

theorem block2 (c : Dev nD) (t : Fin cfg2.N) : (iblk2 V c 2 t : S1x256.Idx → Ideal .f32) = V c (Pipeline.arrRef spec2 2) := by
  funext y
  show V c (Pipeline.arrRef spec2 2) (((cfg2.win 2).blk t).view.emb y) = _
  rw [emb_whole2]

theorem block3 (c : Dev nD) (t : Fin cfg2.N) : (iblk2 V c 3 t : S256x256.Idx → Ideal .f32) = V c (Pipeline.arrRef spec2 3) := by
  funext y
  show V c (Pipeline.arrRef spec2 3) (((cfg2.win 3).blk t).view.emb y) = _
  rw [emb_whole3]

theorem block4 (c : Dev nD) (t : Fin cfg2.N) : (iblk2 V c 4 t : S1x256.Idx → Ideal .f32) = V c (Pipeline.arrRef spec2 4) := by
  funext y
  show V c (Pipeline.arrRef spec2 4) (((cfg2.win 4).blk t).view.emb y) = _
  rw [emb_whole4]

theorem block5 (c : Dev nD) (t : Fin cfg2.N) : (iblk2 V c 5 t : S256x256.Idx → Ideal .f32) = V c (Pipeline.arrRef spec2 5) := by
  funext y
  show V c (Pipeline.arrRef spec2 5) (((cfg2.win 5).blk t).view.emb y) = _
  rw [emb_whole5]

theorem block6 (c : Dev nD) (t : Fin cfg2.N) : (iblk2 V c 6 t : S1x256.Idx → Ideal .f32) = V c (Pipeline.arrRef spec2 6) := by
  funext y
  show V c (Pipeline.arrRef spec2 6) (((cfg2.win 6).blk t).view.emb y) = _
  rw [emb_whole6]

theorem block7 (c : Dev nD) (t : Fin cfg2.N) : (iblk2 V c 7 t : S256x256.Idx → Ideal .f32) = V c (Pipeline.arrRef spec2 7) := by
  funext y
  show V c (Pipeline.arrRef spec2 7) (((cfg2.win 7).blk t).view.emb y) = _
  rw [emb_whole7]

theorem block8 (c : Dev nD) (t : Fin cfg2.N) : (iblk2 V c 8 t : S1x256.Idx → Ideal .f32) = V c (Pipeline.arrRef spec2 8) := by
  funext y
  show V c (Pipeline.arrRef spec2 8) (((cfg2.win 8).blk t).view.emb y) = _
  rw [emb_whole8]

theorem block9 (c : Dev nD) (t : Fin cfg2.N) : (iblk2 V c 9 t : S256x2.Idx → Ideal .f32) = V c (Pipeline.arrRef spec2 9) := by
  funext y
  show V c (Pipeline.arrRef spec2 9) (((cfg2.win 9).blk t).view.emb y) = _
  rw [emb_whole9]

theorem block10 (c : Dev nD) (t : Fin cfg2.N) : (iblk2 V c 10 t : S1x2.Idx → Ideal .f32) = V c (Pipeline.arrRef spec2 10) := by
  funext y
  show V c (Pipeline.arrRef spec2 10) (((cfg2.win 10).blk t).view.emb y) = _
  rw [emb_whole10]

/-! ## What the body leaves in each result's buffer, over any loaded blocks -/

/-- A load through the rectangle at the origin with the buffer's extents reads the buffer. -/
theorem ld_r2_0 (x : Vec Ideal S256x128 .f32) : View.ld x r2_0 = x := View.ld_unit_zero zero_offsets _ x
theorem ld_r2_1 (x : Vec Ideal S128x256 .f32) : View.ld x r2_1 = x := View.ld_unit_zero zero_offsets _ x
theorem ld_r2_2 (x : Vec Ideal S1x256 .f32) : View.ld x r2_2 = x := View.ld_unit_zero zero_offsets _ x
theorem ld_r2_3 (x : Vec Ideal S256x256 .f32) : View.ld x r2_3 = x := View.ld_unit_zero zero_offsets _ x
theorem ld_r2_4 (x : Vec Ideal S256x2 .f32) : View.ld x r2_4 = x := View.ld_unit_zero zero_offsets _ x
theorem ld_r2_5 (x : Vec Ideal S1x2 .f32) : View.ld x r2_5 = x := View.ld_unit_zero zero_offsets _ x

/-- The first result's buffer after the body: the first hidden stage of the loaded blocks. -/
theorem out_hidden (x0 : Vec Ideal S256x128 .f32) (x1 : Vec Ideal S128x256 .f32) (x2 : Vec Ideal S1x256 .f32)
    (x3 : Vec Ideal S256x256 .f32) (x4 : Vec Ideal S1x256 .f32) (x5 : Vec Ideal S256x256 .f32) (x6 : Vec Ideal S1x256 .f32)
    (x7 : Vec Ideal S256x256 .f32) (x8 : Vec Ideal S1x256 .f32) (x9 : Vec Ideal S256x2 .f32) (x10 : Vec Ideal S1x2 .f32) :
    out2_11 (F := Ideal) x0 x1 x2 x3 x4 x5 x6 x7 x8 x9 x10 = Cert.Spec.hidden x0 x1 x2 := by
  unfold out2_11
  rw [View.canon_unit_zero zero_offsets, ld_r2_0, ld_r2_1, ld_r2_2]
  exact pay_hidden x0 x1 x2

/-- The second result's buffer after the body: the log-probabilities of the loaded blocks. -/
theorem out_logp (x0 : Vec Ideal S256x128 .f32) (x1 : Vec Ideal S128x256 .f32) (x2 : Vec Ideal S1x256 .f32)
    (x3 : Vec Ideal S256x256 .f32) (x4 : Vec Ideal S1x256 .f32) (x5 : Vec Ideal S256x256 .f32) (x6 : Vec Ideal S1x256 .f32)
    (x7 : Vec Ideal S256x256 .f32) (x8 : Vec Ideal S1x256 .f32) (x9 : Vec Ideal S256x2 .f32) (x10 : Vec Ideal S1x2 .f32) :
    out2_12 (F := Ideal) x0 x1 x2 x3 x4 x5 x6 x7 x8 x9 x10 = Cert.Spec.logp x0 x1 x2 x3 x4 x5 x6 x7 x8 x9 x10 := by
  unfold out2_12
  rw [View.canon_unit_zero zero_offsets, ld_r2_0, ld_r2_1, ld_r2_2, ld_r2_3, ld_r2_2, ld_r2_3, ld_r2_2, ld_r2_3, ld_r2_2, ld_r2_4, ld_r2_5]
  exact pay_logp x0 x1 x2 x3 x4 x5 x6 x7 x8 x9 x10

/-! ## What the point writes back, and the arrays after the region -/

/-- What the point writes back to the first result is its one block of the first hidden stage of the whole arrays. -/
theorem flushed_hidden (c : Dev nD) (t : Fin cfg2.N) :
    (dat2 V c).flushed 11 t = ((cfg2.win 11).blk t).view.read (Elt Ideal)
      (Cert.Spec.hidden (V c (Pipeline.arrRef spec2 0)) (V c (Pipeline.arrRef spec2 1)) (V c (Pipeline.arrRef spec2 2))) := by
  show (cfg2.win 11).cut (grid2.coords t) ((dat2 V c).after 11 t) = _
  rw [after2_11, out_hidden, block0, block1, block2]
  funext j
  show Cert.Spec.hidden (V c (Pipeline.arrRef spec2 0)) (V c (Pipeline.arrRef spec2 1)) (V c (Pipeline.arrRef spec2 2)) j
    = Cert.Spec.hidden (V c (Pipeline.arrRef spec2 0)) (V c (Pipeline.arrRef spec2 1)) (V c (Pipeline.arrRef spec2 2)) (((cfg2.win 11).blk t).view.emb j)
  rw [emb_whole11]

/-- The part of the second result's buffer that is written back is the whole buffer, and the one block of an array is
    the whole array: for any contents, cutting the buffer and reading the block agree. -/
theorem cut_whole12 (t : Fin cfg2.N) (G : S256x2.Idx → Ideal .f32) :
    (cfg2.win 12).cut (grid2.coords t) G = ((cfg2.win 12).blk t).view.read (Elt Ideal) G := by
  funext j
  show G j = G (((cfg2.win 12).blk t).view.emb j)
  rw [emb_whole12]

/-- What the point writes back to the second result is its one block of the log-probabilities of the whole arrays. -/
theorem flushed_logp (c : Dev nD) (t : Fin cfg2.N) :
    (dat2 V c).flushed 12 t = ((cfg2.win 12).blk t).view.read (Elt Ideal)
      (Cert.Spec.logp (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10))) := by
  show (cfg2.win 12).cut (grid2.coords t) ((dat2 V c).after 12 t) = _
  rw [after2_12, out_logp, block0, block1, block2, block3, block4, block5, block6, block7, block8, block9, block10]
  exact cut_whole12 t _

/-- An index of result 0's array is in the point's block iff each coordinate is in the block's range on its axis. -/
theorem mem_block11 (t : Fin cfg2.N) (i : S256x256.Idx) :
    i ∈ ((cfg2.win 11).blk t).view.set ↔ ∀ a : Fin 2, win2_11.index t a * S256x256.size a ≤ (i a).val ∧ (i a).val < win2_11.index t a * S256x256.size a + S256x256.size a := by
  show i ∈ ((View.whole main_v48_0).slice (win2_11.rect t)).set ↔ _
  rw [View.set_slice_whole, Rect.mem_set_unit]
  exact Iff.rfl

/-- Every index lies in the one point's block. -/
theorem covered11 (i : S256x256.Idx) :
    ∃ t : Fin cfg2.N, (cfg2.win 11).flush t = true ∧ i ∈ ((cfg2.win 11).blk t).view.set := by
  have hi0 : (i 0).val < 256 := (i 0).isLt
  have hi1 : (i 1).val < 256 := (i 1).isLt
  obtain ⟨e0, e1⟩ := index_map11 t2_0
  refine ⟨t2_0, flush2_11 t2_0, ?_⟩
  rw [mem_block11]
  intro a
  match a with
  | ⟨0, _⟩ => show win2_11.index t2_0 (0 : Fin 2) * 256 ≤ (i 0).val ∧ (i 0).val < win2_11.index t2_0 (0 : Fin 2) * 256 + 256; omega
  | ⟨1, _⟩ => show win2_11.index t2_0 (1 : Fin 2) * 256 ≤ (i 1).val ∧ (i 1).val < win2_11.index t2_0 (1 : Fin 2) * 256 + 256; omega

/-- An index of result 1's array is in the point's block iff each coordinate is in the block's range on its axis. -/
theorem mem_block12 (t : Fin cfg2.N) (i : S256x2.Idx) :
    i ∈ ((cfg2.win 12).blk t).view.set ↔ ∀ a : Fin 2, win2_12.index t a * S256x2.size a ≤ (i a).val ∧ (i a).val < win2_12.index t a * S256x2.size a + S256x2.size a := by
  show i ∈ ((View.whole main_v48_1).slice (win2_12.rect t)).set ↔ _
  rw [View.set_slice_whole, Rect.mem_set_unit]
  exact Iff.rfl

/-- Every index lies in the one point's block. -/
theorem covered12 (i : S256x2.Idx) :
    ∃ t : Fin cfg2.N, (cfg2.win 12).flush t = true ∧ i ∈ ((cfg2.win 12).blk t).view.set := by
  have hi0 : (i 0).val < 256 := (i 0).isLt
  have hi1 : (i 1).val < 2 := (i 1).isLt
  obtain ⟨e0, e1⟩ := index_map12 t2_0
  refine ⟨t2_0, flush2_12 t2_0, ?_⟩
  rw [mem_block12]
  intro a
  match a with
  | ⟨0, _⟩ => show win2_12.index t2_0 (0 : Fin 2) * 256 ≤ (i 0).val ∧ (i 0).val < win2_12.index t2_0 (0 : Fin 2) * 256 + 256; omega
  | ⟨1, _⟩ => show win2_12.index t2_0 (1 : Fin 2) * 2 ≤ (i 1).val ∧ (i 1).val < win2_12.index t2_0 (1 : Fin 2) * 2 + 2; omega

/-- THE FIRST RESULT after the region: the first hidden stage of the arrays the region found. -/
theorem final2_11 (c : Dev nD) : (dat2 (F := Ideal) V c).arrAt 11 cfg2.N
    = Cert.Spec.hidden (V c (Pipeline.arrRef spec2 0)) (V c (Pipeline.arrRef spec2 1)) (V c (Pipeline.arrRef spec2 2)) :=
  (dat2 V c).arrAt_eq_of_cover 11 _ (fun t _ => flushed_hidden V c t) covered11

/-- THE SECOND RESULT after the region: the log-probabilities of the arrays the region found. -/
theorem final2_12 (c : Dev nD) : (dat2 (F := Ideal) V c).arrAt 12 cfg2.N
    = Cert.Spec.logp (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) :=
  (dat2 V c).arrAt_eq_of_cover 12 _ (fun t _ => flushed_logp V c t) covered12

end Cert.KernelIdeal.Val2

end
-- ==== Proof.LibRegionLine.lean ====
/-
  A pipelined region seen from outside is a short line of pure operations on whole arrays.

  When a region is left, the buffers hold what they held when it was entered, except the region's own arrays, which
  hold what the write-backs left. If those final arrays are exactly what a line of host operations would leave in
  them from the entry contents (the inputs untouched, each output a pure function of the inputs), and the line leaves
  every buffer that is not an array of the region as it was, then the buffer contents at the exit ARE the fold of that
  line over the entry contents, as whole valuations (the several-operation form, for a region with several outputs).
  Also: the fold of a concatenation is the fold of the second line over the fold of the first.
-/
import Idealize.ShloMosaic.Lib.Pipeline.FrameSuffix
import Idealize.ShloMosaic.Lib.StableHlo.Run

noncomputable section

namespace Cert.LibRegionLine

open Idealize.ShloMosaic Idealize.ShloMosaic.StableHlo Idealize.ShloMosaic.Pipeline

variable {nD : Nat} {τ : Topo} {sig : RefSig} {Val : EltTy → Type}

/-- The exit contents of a region whose arrays end at `A` are the fold of the line `ops` over the entry contents `V`,
    provided every array of the region ends at what the line leaves in it (`hA`) and the line leaves every other
    buffer as it was (`hrest`). -/
theorem withArrays_eq_after {gr W : Nat} (win : Fin W → WinSpec sig gr) (hinj : Function.Injective (arrRef win))
    (c : Dev nD) (V : Valuation τ sig Val) (A : (w : Fin W) → Buf Val ((win w).arr.view.loc (c.tc : Thread nD τ)))
    (ops : List (HloOp τ sig Val))
    (hA : ∀ w, A w = after ops V (Proc.devRef .tc (arrRef win w)))
    (hrest : ∀ b : DevRef τ sig, (¬ ∃ w, Proc.devRef .tc (arrRef win w) = b) → after ops V b = V b) :
    withArrays win c V A = after ops V := by
  funext b
  by_cases h : ∃ w, Proc.devRef .tc (arrRef win w) = b
  · obtain ⟨w, rfl⟩ := h
    rw [withArrays_arr win hinj c V A w, hA w]
  · unfold withArrays
    rw [dif_neg h]
    exact (hrest b h).symm

/-- The fold of two lines one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibRegionLine

end
-- ==== Proof.KernelLine.lean ====
/-
  The idealized kernel's buffer contents at the last segment boundary, as the fold of ONE line of pure operations.

  Seen from outside, each region is an operation on whole arrays: a graph-convolution region writes the layer
  (Spec.sage) of its five input arrays into its output array and touches nothing else; the head's region writes the
  hidden layer of three of its input arrays into one output array and the log-probabilities of all eleven into the
  other. So the contents at a region's exit are that operation's result on the contents at its entry, and the last
  boundary's contents are the fold, from the launch memory, of the host stretches with the regions' operations
  between them.
-/
import proofs.«176873_j75763223102156_1_alg».proof.Proof.Gen.KernelIdeal.Frame
import proofs.«176873_j75763223102156_1_alg».proof.Proof.Region0
import proofs.«176873_j75763223102156_1_alg».proof.Proof.Region1
import proofs.«176873_j75763223102156_1_alg».proof.Proof.Region2
import proofs.«176873_j75763223102156_1_alg».proof.Proof.LibRegionLine

set_option maxRecDepth 16384

noncomputable section

namespace Cert.KernelIdeal.Line

open Idealize.ShloMosaic Idealize.ShloMosaic.TcCoe Idealize.ShloMosaic.StableHlo
open Cert.KernelIdeal Cert.KernelIdeal.Gen

variable (m : (ℓ : Loc nD τ sig) → Buf (Elt Ideal) ℓ) (ρ : Dev nD → PrngReg)

/-! ## Region 0: the layer of its five input arrays, written into its output array -/

/-- Region 0 as one operation on whole arrays. -/
def op0 : HloOp τ sig (Elt Ideal) :=
  nary (τ := τ) (![main_v0, main_v13, main_arg5, main_arg6, main_v14] : Fin 5 → Ref sig .tc) main_v15
    (fun x => Cert.Spec.sage 100000 128 128 (x 0) (x 1) (x 2) (x 3) (x 4))

/-- What the operation leaves in the output array. -/
theorem op0_out (X : Valuation τ sig (Elt Ideal)) :
    after [op0] X (Proc.devRef .tc main_v15)
      = Cert.Spec.sage 100000 128 128 (X (Proc.devRef .tc main_v0)) (X (Proc.devRef .tc main_v13)) (X (Proc.devRef .tc main_arg5))
          (X (Proc.devRef .tc main_arg6)) (X (Proc.devRef .tc main_v14)) := by
  unfold op0
  simp only [after_cons, after_nil]
  rw [nary_result]
  rfl

/-- It leaves every other reference's buffer as it was. -/
theorem op0_other (X : Valuation τ sig (Elt Ideal)) (r : Ref sig .tc) (hr : r ≠ main_v15) :
    after [op0] X (Proc.devRef .tc r) = X (Proc.devRef .tc r) := by
  unfold op0
  simp only [after_cons, after_nil]
  rw [nary_result_ne]
  exact hr

section
variable (X : Dev nD → Valuation τ sig (Elt Ideal))

/-- The entry contents read at the TensorCore's references. -/
abbrev atRefs0 : (c : Dev nD) → (b : Ref sig .tc) → Buf (Elt Ideal) ((c : Thread nD τ).loc b) := fun c b => X c b

/-- An input array is never written back: it ends as the region found it. -/
theorem inputs_kept0 (c : Dev nD) (w : Fin cfg0.W) (hw : ∀ t, (cfg0.win w).flush t = false) :
    (dat0 (atRefs0 X) c).arrAt w cfg0.N = atRefs0 X c (Pipeline.arrRef spec0 w) := by
  funext i
  rw [(dat0 (atRefs0 X) c).arrAt_apply_of_forall_not_mem w cfg0.N i
    (fun t _ hf => absurd hf (by rw [hw t]; exact Bool.false_ne_true)), A_eq0]

/-- The output array ends as the operation leaves it: the layer of the input arrays. -/
theorem exit_out0 (c : Dev nD) :
    (dat0 (atRefs0 X) c).arrAt 5 cfg0.N = after [op0] (X c) (Proc.devRef .tc main_v15) := by
  rw [Cert.KernelIdeal.Val0.final (atRefs0 X) c, op0_out (X c)]
  unfold Cert.KernelIdeal.Val0.layer
  rfl

set_option maxHeartbeats 1600000 in
/-- From ANY entry contents, the contents at region 0's exit are the operation's result on them. -/
theorem exit_eq0 (c : Dev nD) :
    Pipeline.withArrays spec0 c (X c) (fun w => (dat0 (atRefs0 X) c).arrAt w cfg0.N) = after [op0] (X c) := by
  refine Cert.LibRegionLine.withArrays_eq_after spec0 launch0.win.arr_inj c (X c) _ [op0] (fun w => ?_) (fun b hb => ?_)
  · match w with
    | ⟨0, _⟩ => exact (inputs_kept0 X c 0 (fun _ => rfl)).trans (op0_other _ main_v0 (by decide)).symm
    | ⟨1, _⟩ => exact (inputs_kept0 X c 1 (fun _ => rfl)).trans (op0_other _ main_v13 (by decide)).symm
    | ⟨2, _⟩ => exact (inputs_kept0 X c 2 (fun _ => rfl)).trans (op0_other _ main_arg5 (by decide)).symm
    | ⟨3, _⟩ => exact (inputs_kept0 X c 3 (fun _ => rfl)).trans (op0_other _ main_arg6 (by decide)).symm
    | ⟨4, _⟩ => exact (inputs_kept0 X c 4 (fun _ => rfl)).trans (op0_other _ main_v14 (by decide)).symm
    | ⟨5, _⟩ => exact exit_out0 X c
  · simp only [after_cons, after_nil]
    exact op0.result_of_not_mem _ (fun hm => hb ⟨5, (Finset.mem_singleton.mp hm).symm⟩)

end

/-- The contents at region 0's exit are the operation's result on the contents at its entry. -/
theorem W4_eq (c : Dev nD) : W4 m ρ c = after [op0] (W3 m ρ c) := exit_eq0 (W3 m ρ) c

/-! ## Region 1: the layer of its five input arrays, written into its output array -/

/-- Region 1 as one operation on whole arrays. -/
def op1 : HloOp τ sig (Elt Ideal) :=
  nary (τ := τ) (![main_v15, main_v28, main_arg8, main_arg9, main_v29] : Fin 5 → Ref sig .tc) main_v30
    (fun x => Cert.Spec.sage 100000 128 128 (x 0) (x 1) (x 2) (x 3) (x 4))

/-- What the operation leaves in the output array. -/
theorem op1_out (X : Valuation τ sig (Elt Ideal)) :
    after [op1] X (Proc.devRef .tc main_v30)
      = Cert.Spec.sage 100000 128 128 (X (Proc.devRef .tc main_v15)) (X (Proc.devRef .tc main_v28)) (X (Proc.devRef .tc main_arg8))
          (X (Proc.devRef .tc main_arg9)) (X (Proc.devRef .tc main_v29)) := by
  unfold op1
  simp only [after_cons, after_nil]
  rw [nary_result]
  rfl

/-- It leaves every other reference's buffer as it was. -/
theorem op1_other (X : Valuation τ sig (Elt Ideal)) (r : Ref sig .tc) (hr : r ≠ main_v30) :
    after [op1] X (Proc.devRef .tc r) = X (Proc.devRef .tc r) := by
  unfold op1
  simp only [after_cons, after_nil]
  rw [nary_result_ne]
  exact hr

section
variable (X : Dev nD → Valuation τ sig (Elt Ideal))

/-- The entry contents read at the TensorCore's references. -/
abbrev atRefs1 : (c : Dev nD) → (b : Ref sig .tc) → Buf (Elt Ideal) ((c : Thread nD τ).loc b) := fun c b => X c b

/-- An input array is never written back: it ends as the region found it. -/
theorem inputs_kept1 (c : Dev nD) (w : Fin cfg1.W) (hw : ∀ t, (cfg1.win w).flush t = false) :
    (dat1 (atRefs1 X) c).arrAt w cfg1.N = atRefs1 X c (Pipeline.arrRef spec1 w) := by
  funext i
  rw [(dat1 (atRefs1 X) c).arrAt_apply_of_forall_not_mem w cfg1.N i
    (fun t _ hf => absurd hf (by rw [hw t]; exact Bool.false_ne_true)), A_eq1]

/-- The output array ends as the operation leaves it: the layer of the input arrays. -/
theorem exit_out1 (c : Dev nD) :
    (dat1 (atRefs1 X) c).arrAt 5 cfg1.N = after [op1] (X c) (Proc.devRef .tc main_v30) := by
  rw [Cert.KernelIdeal.Val1.final (atRefs1 X) c, op1_out (X c)]
  unfold Cert.KernelIdeal.Val1.layer
  rfl

set_option maxHeartbeats 1600000 in
/-- From ANY entry contents, the contents at region 1's exit are the operation's result on them. -/
theorem exit_eq1 (c : Dev nD) :
    Pipeline.withArrays spec1 c (X c) (fun w => (dat1 (atRefs1 X) c).arrAt w cfg1.N) = after [op1] (X c) := by
  refine Cert.LibRegionLine.withArrays_eq_after spec1 launch1.win.arr_inj c (X c) _ [op1] (fun w => ?_) (fun b hb => ?_)
  · match w with
    | ⟨0, _⟩ => exact (inputs_kept1 X c 0 (fun _ => rfl)).trans (op1_other _ main_v15 (by decide)).symm
    | ⟨1, _⟩ => exact (inputs_kept1 X c 1 (fun _ => rfl)).trans (op1_other _ main_v28 (by decide)).symm
    | ⟨2, _⟩ => exact (inputs_kept1 X c 2 (fun _ => rfl)).trans (op1_other _ main_arg8 (by decide)).symm
    | ⟨3, _⟩ => exact (inputs_kept1 X c 3 (fun _ => rfl)).trans (op1_other _ main_arg9 (by decide)).symm
    | ⟨4, _⟩ => exact (inputs_kept1 X c 4 (fun _ => rfl)).trans (op1_other _ main_v29 (by decide)).symm
    | ⟨5, _⟩ => exact exit_out1 X c
  · simp only [after_cons, after_nil]
    exact op1.result_of_not_mem _ (fun hm => hb ⟨5, (Finset.mem_singleton.mp hm).symm⟩)

end

/-- The contents at region 1's exit are the operation's result on the contents at its entry. -/
theorem W7_eq (c : Dev nD) : W7 m ρ c = after [op1] (W6 m ρ c) := exit_eq1 (W6 m ρ) c

/-! ## Region 2: the head — the hidden layer into one output array, the log-probabilities into the other -/

/-- The hidden layer of the pooled features, the first weight and the first bias row, written into the first output. -/
def op2h : HloOp τ sig (Elt Ideal) :=
  ternary (τ := τ) main_v42 main_arg11 main_v43 main_v48_0 (fun a b c => Cert.Spec.hidden a b c)

/-- The log-probabilities of all eleven input arrays, written into the second output. -/
def op2l : HloOp τ sig (Elt Ideal) :=
  nary (τ := τ) (![main_v42, main_arg11, main_v43, main_arg13, main_v44, main_arg15, main_v45, main_arg17, main_v46, main_arg19, main_v47] : Fin 11 → Ref sig .tc) main_v48_1
    (fun x => Cert.Spec.logp (x 0) (x 1) (x 2) (x 3) (x 4) (x 5) (x 6) (x 7) (x 8) (x 9) (x 10))

/-- Neither operation touches a reference other than the two outputs. -/
theorem op2_other (X : Valuation τ sig (Elt Ideal)) (r : Ref sig .tc) (h0 : r ≠ main_v48_0) (h1 : r ≠ main_v48_1) :
    after [op2h, op2l] X (Proc.devRef .tc r) = X (Proc.devRef .tc r) := by
  unfold op2h op2l
  simp only [after_cons, after_nil]
  rw [nary_result_ne, ternary_result_ne]
  · exact h0
  · exact h1

/-- What the two operations leave in the first output. -/
theorem op2_hidden (X : Valuation τ sig (Elt Ideal)) :
    after [op2h, op2l] X (Proc.devRef .tc main_v48_0)
      = Cert.Spec.hidden (X (Proc.devRef .tc main_v42)) (X (Proc.devRef .tc main_arg11)) (X (Proc.devRef .tc main_v43)) := by
  unfold op2h op2l
  simp only [after_cons, after_nil]
  rw [nary_result_ne, ternary_result]
  decide

/-- What they leave in the second output: the first operation does not change what the second reads. -/
theorem op2_logp (X : Valuation τ sig (Elt Ideal)) :
    after [op2h, op2l] X (Proc.devRef .tc main_v48_1)
      = Cert.Spec.logp (X (Proc.devRef .tc main_v42)) (X (Proc.devRef .tc main_arg11)) (X (Proc.devRef .tc main_v43)) (X (Proc.devRef .tc main_arg13)) (X (Proc.devRef .tc main_v44)) (X (Proc.devRef .tc main_arg15)) (X (Proc.devRef .tc main_v45)) (X (Proc.devRef .tc main_arg17)) (X (Proc.devRef .tc main_v46)) (X (Proc.devRef .tc main_arg19)) (X (Proc.devRef .tc main_v47)) := by
  unfold op2h op2l
  simp only [after_cons, after_nil]
  rw [nary_result]
  show Cert.Spec.logp ((ternary (τ := τ) main_v42 main_arg11 main_v43 main_v48_0 (fun a b c => Cert.Spec.hidden a b c)).result X (Proc.devRef .tc main_v42))
      ((ternary (τ := τ) main_v42 main_arg11 main_v43 main_v48_0 (fun a b c => Cert.Spec.hidden a b c)).result X (Proc.devRef .tc main_arg11))
      ((ternary (τ := τ) main_v42 main_arg11 main_v43 main_v48_0 (fun a b c => Cert.Spec.hidden a b c)).result X (Proc.devRef .tc main_v43))
      ((ternary (τ := τ) main_v42 main_arg11 main_v43 main_v48_0 (fun a b c => Cert.Spec.hidden a b c)).result X (Proc.devRef .tc main_arg13))
      ((ternary (τ := τ) main_v42 main_arg11 main_v43 main_v48_0 (fun a b c => Cert.Spec.hidden a b c)).result X (Proc.devRef .tc main_v44))
      ((ternary (τ := τ) main_v42 main_arg11 main_v43 main_v48_0 (fun a b c => Cert.Spec.hidden a b c)).result X (Proc.devRef .tc main_arg15))
      ((ternary (τ := τ) main_v42 main_arg11 main_v43 main_v48_0 (fun a b c => Cert.Spec.hidden a b c)).result X (Proc.devRef .tc main_v45))
      ((ternary (τ := τ) main_v42 main_arg11 main_v43 main_v48_0 (fun a b c => Cert.Spec.hidden a b c)).result X (Proc.devRef .tc main_arg17))
      ((ternary (τ := τ) main_v42 main_arg11 main_v43 main_v48_0 (fun a b c => Cert.Spec.hidden a b c)).result X (Proc.devRef .tc main_v46))
      ((ternary (τ := τ) main_v42 main_arg11 main_v43 main_v48_0 (fun a b c => Cert.Spec.hidden a b c)).result X (Proc.devRef .tc main_arg19))
      ((ternary (τ := τ) main_v42 main_arg11 main_v43 main_v48_0 (fun a b c => Cert.Spec.hidden a b c)).result X (Proc.devRef .tc main_v47)) = _
  rw [ternary_result_ne _ _ _ _ _ _ _ _ _ _ (by decide), ternary_result_ne _ _ _ _ _ _ _ _ _ _ (by decide), ternary_result_ne _ _ _ _ _ _ _ _ _ _ (by decide), ternary_result_ne _ _ _ _ _ _ _ _ _ _ (by decide), ternary_result_ne _ _ _ _ _ _ _ _ _ _ (by decide), ternary_result_ne _ _ _ _ _ _ _ _ _ _ (by decide), ternary_result_ne _ _ _ _ _ _ _ _ _ _ (by decide), ternary_result_ne _ _ _ _ _ _ _ _ _ _ (by decide), ternary_result_ne _ _ _ _ _ _ _ _ _ _ (by decide), ternary_result_ne _ _ _ _ _ _ _ _ _ _ (by decide), ternary_result_ne _ _ _ _ _ _ _ _ _ _ (by decide)]

section
variable (X : Dev nD → Valuation τ sig (Elt Ideal))

/-- The entry contents read at the TensorCore's references. -/
abbrev atRefs2 : (c : Dev nD) → (b : Ref sig .tc) → Buf (Elt Ideal) ((c : Thread nD τ).loc b) := fun c b => X c b

/-- An input array is never written back: it ends as the region found it. -/
theorem inputs_kept2 (c : Dev nD) (w : Fin cfg2.W) (hw : ∀ t, (cfg2.win w).flush t = false) :
    (dat2 (atRefs2 X) c).arrAt w cfg2.N = atRefs2 X c (Pipeline.arrRef spec2 w) := by
  funext i
  rw [(dat2 (atRefs2 X) c).arrAt_apply_of_forall_not_mem w cfg2.N i
    (fun t _ hf => absurd hf (by rw [hw t]; exact Bool.false_ne_true)), A_eq2]

/-- The two output arrays end as the two operations leave them. -/
theorem exit_hidden (c : Dev nD) :
    (dat2 (atRefs2 X) c).arrAt 11 cfg2.N = after [op2h, op2l] (X c) (Proc.devRef .tc main_v48_0) := by
  rw [Cert.KernelIdeal.Val2.final2_11 (atRefs2 X) c, op2_hidden (X c)]

theorem exit_logp (c : Dev nD) :
    (dat2 (atRefs2 X) c).arrAt 12 cfg2.N = after [op2h, op2l] (X c) (Proc.devRef .tc main_v48_1) := by
  rw [Cert.KernelIdeal.Val2.final2_12 (atRefs2 X) c, op2_logp (X c)]

set_option maxHeartbeats 4000000 in
/-- From ANY entry contents, the contents at region 2's exit are the two operations' fold over them. -/
theorem exit_eq2 (c : Dev nD) :
    Pipeline.withArrays spec2 c (X c) (fun w => (dat2 (atRefs2 X) c).arrAt w cfg2.N) = after [op2h, op2l] (X c) := by
  refine Cert.LibRegionLine.withArrays_eq_after spec2 launch2.win.arr_inj c (X c) _ [op2h, op2l] (fun w => ?_) (fun b hb => ?_)
  · match w with
    | ⟨0, _⟩ => exact (inputs_kept2 X c 0 (fun _ => rfl)).trans (op2_other _ main_v42 (by decide) (by decide)).symm
    | ⟨1, _⟩ => exact (inputs_kept2 X c 1 (fun _ => rfl)).trans (op2_other _ main_arg11 (by decide) (by decide)).symm
    | ⟨2, _⟩ => exact (inputs_kept2 X c 2 (fun _ => rfl)).trans (op2_other _ main_v43 (by decide) (by decide)).symm
    | ⟨3, _⟩ => exact (inputs_kept2 X c 3 (fun _ => rfl)).trans (op2_other _ main_arg13 (by decide) (by decide)).symm
    | ⟨4, _⟩ => exact (inputs_kept2 X c 4 (fun _ => rfl)).trans (op2_other _ main_v44 (by decide) (by decide)).symm
    | ⟨5, _⟩ => exact (inputs_kept2 X c 5 (fun _ => rfl)).trans (op2_other _ main_arg15 (by decide) (by decide)).symm
    | ⟨6, _⟩ => exact (inputs_kept2 X c 6 (fun _ => rfl)).trans (op2_other _ main_v45 (by decide) (by decide)).symm
    | ⟨7, _⟩ => exact (inputs_kept2 X c 7 (fun _ => rfl)).trans (op2_other _ main_arg17 (by decide) (by decide)).symm
    | ⟨8, _⟩ => exact (inputs_kept2 X c 8 (fun _ => rfl)).trans (op2_other _ main_v46 (by decide) (by decide)).symm
    | ⟨9, _⟩ => exact (inputs_kept2 X c 9 (fun _ => rfl)).trans (op2_other _ main_arg19 (by decide) (by decide)).symm
    | ⟨10, _⟩ => exact (inputs_kept2 X c 10 (fun _ => rfl)).trans (op2_other _ main_v47 (by decide) (by decide)).symm
    | ⟨11, _⟩ => exact exit_hidden X c
    | ⟨12, _⟩ => exact exit_logp X c
  · simp only [after_cons, after_nil]
    rw [op2l.result_of_not_mem _ (fun hm => hb ⟨12, (Finset.mem_singleton.mp hm).symm⟩),
      op2h.result_of_not_mem _ (fun hm => hb ⟨11, (Finset.mem_singleton.mp hm).symm⟩)]

end

/-- The contents at region 2's exit are the two operations' fold over the contents at its entry. -/
theorem W9_eq (c : Dev nD) : W9 m ρ c = after [op2h, op2l] (W8 m ρ c) := exit_eq2 (W8 m ρ) c

/-! ## The whole kernel as one line -/

/-- The last boundary's contents: the fold, from the launch contents, of the host stretches with the regions'
    operations between them. -/
theorem W9_line (c : Dev nD) :
    W9 m ρ c = after [op2h, op2l] (after (hostOps2 (F := Ideal)) (after [op1] (after (hostOps1_1 (F := Ideal)) (after (hostOps1 (F := Ideal))
      (after [op0] (after (hostOps0_2 (F := Ideal)) (after (hostOps0_1 (F := Ideal)) (after (hostOps0 (F := Ideal)) (W0 m ρ c))))))))) := by
  rw [W9_eq]
  show after [op2h, op2l] (after hostOps2 (W7 m ρ c)) = _
  rw [W7_eq]
  show after [op2h, op2l] (after hostOps2 (after [op1] (after hostOps1_1 (after hostOps1 (W4 m ρ c))))) = _
  rw [W4_eq]

end Cert.KernelIdeal.Line

end
-- ==== Proof.KernelKeeps.lean ====
/-
  A stretch of host operations changes only the buffers of the values it computes.

  Each stretch of the idealized kernel's @main between two regions is a line of operations, each writing the one
  buffer of the value it defines. A reference that is not one of those values — an argument of @main, or a value
  computed earlier — therefore reads, after the stretch, what it read before it.
-/
import proofs.«176873_j75763223102156_1_alg».proof.Proof.Gen.KernelIdeal.Launch
import Idealize.ShloMosaic.Lib.StableHlo.Run

set_option maxRecDepth 16384

noncomputable section

namespace Cert.KernelIdeal.Keeps

open Idealize.ShloMosaic Idealize.ShloMosaic.TcCoe Idealize.ShloMosaic.StableHlo
open Cert.KernelIdeal Cert.KernelIdeal.Gen

variable {F : FTy → Type} [FloatOps F]

/-- `hostOps0` writes only its own 23 values: any other reference's buffer is as it was. -/
theorem keeps_hostOps0 (X : Valuation τ sig (Elt F)) (r : Ref sig .tc)
    (hr : r ∉ ([main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0] : List (Ref sig .tc))) :
    after (hostOps0 (F := F)) X (Proc.devRef .tc r) = X (Proc.devRef .tc r) :=
  after_of_forall_not_mem (b := Proc.devRef .tc r) _ _ (List.forall_iff_forall_mem.mp (by
    simp only [hostOps0, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- `hostOps0_1` writes only its own 23 values: any other reference's buffer is as it was. -/
theorem keeps_hostOps0_1 (X : Valuation τ sig (Elt F)) (r : Ref sig .tc)
    (hr : r ∉ ([main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1] : List (Ref sig .tc))) :
    after (hostOps0_1 (F := F)) X (Proc.devRef .tc r) = X (Proc.devRef .tc r) :=
  after_of_forall_not_mem (b := Proc.devRef .tc r) _ _ (List.forall_iff_forall_mem.mp (by
    simp only [hostOps0_1, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- `hostOps0_2` writes only its own 17 values: any other reference's buffer is as it was. -/
theorem keeps_hostOps0_2 (X : Valuation τ sig (Elt F)) (r : Ref sig .tc)
    (hr : r ∉ ([main_cst, main_v2, main_v3, main_v4, main_cst_0, main_v5, main_cst_1, main_v6, main_v7, main_v8, main_cst_2, main_v9, main_v10, main_v11, main_v12, main_v13, main_v14] : List (Ref sig .tc))) :
    after (hostOps0_2 (F := F)) X (Proc.devRef .tc r) = X (Proc.devRef .tc r) :=
  after_of_forall_not_mem (b := Proc.devRef .tc r) _ _ (List.forall_iff_forall_mem.mp (by
    simp only [hostOps0_2, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- `hostOps1` writes only its own 23 values: any other reference's buffer is as it was. -/
theorem keeps_hostOps1 (X : Valuation τ sig (Elt F)) (r : Ref sig .tc)
    (hr : r ∉ ([main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v16] : List (Ref sig .tc))) :
    after (hostOps1 (F := F)) X (Proc.devRef .tc r) = X (Proc.devRef .tc r) :=
  after_of_forall_not_mem (b := Proc.devRef .tc r) _ _ (List.forall_iff_forall_mem.mp (by
    simp only [hostOps1, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- `hostOps1_1` writes only its own 17 values: any other reference's buffer is as it was. -/
theorem keeps_hostOps1_1 (X : Valuation τ sig (Elt F)) (r : Ref sig .tc)
    (hr : r ∉ ([main_cst_3, main_v17, main_v18, main_v19, main_cst_4, main_v20, main_cst_5, main_v21, main_v22, main_v23, main_cst_6, main_v24, main_v25, main_v26, main_v27, main_v28, main_v29] : List (Ref sig .tc))) :
    after (hostOps1_1 (F := F)) X (Proc.devRef .tc r) = X (Proc.devRef .tc r) :=
  after_of_forall_not_mem (b := Proc.devRef .tc r) _ _ (List.forall_iff_forall_mem.mp (by
    simp only [hostOps1_1, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- `hostOps2` writes only its own 21 values: any other reference's buffer is as it was. -/
theorem keeps_hostOps2 (X : Valuation τ sig (Elt F)) (r : Ref sig .tc)
    (hr : r ∉ ([main_cst_7, main_v31, main_v32, main_v33, main_cst_8, main_v34, main_cst_9, main_v35, main_v36, main_v37, main_cst_10, main_v38, main_v39, main_v40, main_v41, main_v42, main_v43, main_v44, main_v45, main_v46, main_v47] : List (Ref sig .tc))) :
    after (hostOps2 (F := F)) X (Proc.devRef .tc r) = X (Proc.devRef .tc r) :=
  after_of_forall_not_mem (b := Proc.devRef .tc r) _ _ (List.forall_iff_forall_mem.mp (by
    simp only [hostOps2, List.Forall, nullary_writes, unary_writes, binary_writes, ternary_writes, quaternary_writes,
      reshape_writes, binaryIndexed_writes, Finset.mem_singleton]
    repeat' apply And.intro
    all_goals exact devRef_ne_of_ne (fun e => hr (by rw [e]; decide))))

end Cert.KernelIdeal.Keeps

end
-- ==== Proof.RefRun.lean ====
/-
  The reference program's run, read off its text. `ops` is @main's operations in program order, every call
  of a module-local function replaced at its call site by the callee's operations over that call's own
  buffers — a callee's argument is the caller's buffer, a value of its body the record's field, a call inside
  it replaced likewise: 182 operations, one per buffer the program writes, in the order of the buffers.
  The list is the concatenation of twelve consecutive pieces `opsA`, …, `opsL`, cut where a stage of the
  computation ends (two message-passing layers — gather at the edge sources, mean at the edge destinations,
  two linear maps, bias, relu —, the mean over each graph, four hidden layers, the output layer, the log-softmax).
  `main_eq`: @main is the straight line of these operations, once the functions' definitions unfold at
  their calls and sequencing is reassociated. `run_main`: every weakly fair execution of @main terminates,
  and in every final state each buffer holds the fold of `ops` over the launch contents.
-/
import proofs.«176873_j75763223102156_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The call of @_take on the table %arg4 and the node indices %arg0 (result main_v0): a negative index shifted by the table's height through @_where, the gather, the in-range mask, the select against NaN. 23 operations. -/
abbrev opsA : List (HloOp τ sig (Elt F)) :=
  [ StableHlo.TRef.nullary main_call0.c (constantI S_ 32 0#32),
    StableHlo.TRef.unary main_call0.c main_call0.v0 (broadcastInDim S100000 ![] bcast_S_S100000),
    StableHlo.TRef.binary (.of main_arg0 : StableHlo.TRef sig ⟨S100000, .i32⟩) main_call0.v0 main_call0.v1 (cmpi .slt),
    StableHlo.TRef.nullary main_call0.c_0 (constantI S_ 32 30000#32),
    StableHlo.TRef.unary main_call0.c_0 main_call0.v2 (broadcastInDim S100000 ![] bcast_S_S100000),
    StableHlo.TRef.binary (.of main_arg0 : StableHlo.TRef sig ⟨S100000, .i32⟩) main_call0.v2 main_call0.v3 addi,
    StableHlo.TRef.ternary main_call0.v1 main_call0.v3 (.of main_arg0 : StableHlo.TRef sig ⟨S100000, .i32⟩) main_call0.call0.v0 select,
    StableHlo.TRef.unary main_call0.call0.v0 main_call0.v5 (broadcastInDim S100000x1 ![0] bcast_S100000_S100000x1_0),
    StableHlo.TRef.nullary main_call0.c_1 (constantI S1 32 29999#32),
    StableHlo.TRef.nullary main_call0.c_2 (constantI S_ 32 0#32),
    StableHlo.TRef.unary main_call0.c_2 main_call0.v6 (broadcastInDim S100000x1 ![] bcast_S_S100000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S100000x1 ![0, 1] bcast_S1x1_S100000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S100000x1_S100000_d1 h_S_),
    StableHlo.TRef.binary (.of main_arg4 : StableHlo.TRef sig ⟨S30000x128, .f32⟩) main_call0.v5 main_call0.v13 (fun x i => Host.gather gather_S30000x128_S100000x1_S100000x128_1_0_n_n_0_1_1128 x i),
    StableHlo.TRef.unary main_call0.v12 main_call0.v14 (broadcastInDim S100000x128 ![0] bcast_S100000_S100000x128_0),
    StableHlo.TRef.nullary main_call0.cst (constant S_ .f32 0x7FC00000#32),
    StableHlo.TRef.unary main_call0.cst main_call0.v15 (broadcastInDim S100000x128 ![] bcast_S_S100000x128),
    StableHlo.TRef.ternary main_call0.v14 main_call0.v13 main_call0.v15 main_call0.v16 select ]

/-- The call of @_take_0 on main_v0 and the edge sources %arg1 (result main_v1). 23 operations. -/
abbrev opsB : List (HloOp τ sig (Elt F)) :=
  [ StableHlo.TRef.nullary main_call1.c (constantI S_ 32 0#32),
    StableHlo.TRef.unary main_call1.c main_call1.v0 (broadcastInDim S1600000 ![] bcast_S_S1600000),
    StableHlo.TRef.binary (.of main_arg1 : StableHlo.TRef sig ⟨S1600000, .i32⟩) main_call1.v0 main_call1.v1 (cmpi .slt),
    StableHlo.TRef.nullary main_call1.c_0 (constantI S_ 32 100000#32),
    StableHlo.TRef.unary main_call1.c_0 main_call1.v2 (broadcastInDim S1600000 ![] bcast_S_S1600000),
    StableHlo.TRef.binary (.of main_arg1 : StableHlo.TRef sig ⟨S1600000, .i32⟩) main_call1.v2 main_call1.v3 addi,
    StableHlo.TRef.ternary main_call1.v1 main_call1.v3 (.of main_arg1 : StableHlo.TRef sig ⟨S1600000, .i32⟩) main_call1.call0.v0 select,
    StableHlo.TRef.unary main_call1.call0.v0 main_call1.v5 (broadcastInDim S1600000x1 ![0] bcast_S1600000_S1600000x1_0),
    StableHlo.TRef.nullary main_call1.c_1 (constantI S1 32 99999#32),
    StableHlo.TRef.nullary main_call1.c_2 (constantI S_ 32 0#32),
    StableHlo.TRef.unary main_call1.c_2 main_call1.v6 (broadcastInDim S1600000x1 ![] bcast_S_S1600000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S1600000x1 ![0, 1] bcast_S1x1_S1600000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1600000x1_S1600000_d1 h_S_),
    StableHlo.TRef.binary (.of main_v0 : StableHlo.TRef sig ⟨S100000x128, .f32⟩) main_call1.v5 main_call1.v13 (fun x i => Host.gather gather_S100000x128_S1600000x1_S1600000x128_1_0_n_n_0_1_1128 x i),
    StableHlo.TRef.unary main_call1.v12 main_call1.v14 (broadcastInDim S1600000x128 ![0] bcast_S1600000_S1600000x128_0),
    StableHlo.TRef.nullary main_call1.cst (constant S_ .f32 0x7FC00000#32),
    StableHlo.TRef.unary main_call1.cst main_call1.v15 (broadcastInDim S1600000x128 ![] bcast_S_S1600000x128),
    StableHlo.TRef.ternary main_call1.v14 main_call1.v13 main_call1.v15 main_call1.v16 select ]

/-- %cst … %13: the scatter-add of the gathered rows at the edge destinations %arg2, the scatter-add of ones there (the in-degree), its maximum with one, the quotient (result main_v13). 16 operations. -/
abbrev opsC : List (HloOp τ sig (Elt F)) :=
  [ StableHlo.nullary main_cst (constant S_ .f32 0x00000000#32),
    StableHlo.unary main_cst main_v2 (broadcastInDim S100000x128 ![] bcast_S_S100000x128 : (⟨S_, .f32⟩ : BufTy).Contents (Elt F) → (⟨S100000x128, .f32⟩ : BufTy).Contents (Elt F)),
    StableHlo.unary main_arg2 main_v3 (broadcastInDim S1600000x1 ![0] bcast_S1600000_S1600000x1_0 : (⟨S1600000, .i32⟩ : BufTy).Contents (Elt F) → (⟨S1600000x1, .i32⟩ : BufTy).Contents (Elt F)),
    StableHlo.ternary main_v2 main_v3 main_v1 main_v4 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_0 (constant S_ .f32 0x3F800000#32),
    StableHlo.unary main_cst_0 main_v5 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v6 (broadcastInDim S100000 ![] bcast_S_S100000 : (⟨S_, .f32⟩ : BufTy).Contents (Elt F) → (⟨S100000, .f32⟩ : BufTy).Contents (Elt F)),
    StableHlo.unary main_arg2 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v9 (broadcastInDim S100000 ![] bcast_S_S100000 : (⟨S_, .f32⟩ : BufTy).Contents (Elt F) → (⟨S100000, .f32⟩ : BufTy).Contents (Elt F)),
    StableHlo.binary main_v8 main_v9 main_v10 (maximumf : (⟨S100000, .f32⟩ : BufTy).Contents (Elt F) → (⟨S100000, .f32⟩ : BufTy).Contents (Elt F) → (⟨S100000, .f32⟩ : BufTy).Contents (Elt F)),
    StableHlo.unary main_v10 main_v11 (broadcastInDim S100000x1 ![0] bcast_S100000_S100000x1_0 : (⟨S100000, .f32⟩ : BufTy).Contents (Elt F) → (⟨S100000x1, .f32⟩ : BufTy).Contents (Elt F)),
    StableHlo.unary main_v11 main_v12 (broadcastInDim S100000x128 ![0, 1] bcast_S100000x1_S100000x128_0_1 : (⟨S100000x1, .f32⟩ : BufTy).Contents (Elt F) → (⟨S100000x128, .f32⟩ : BufTy).Contents (Elt F)),
    StableHlo.binary main_v4 main_v12 main_v13 (Host.divf : (⟨S100000x128, .f32⟩ : BufTy).Contents (Elt F) → (⟨S100000x128, .f32⟩ : BufTy).Contents (Elt F) → (⟨S100000x128, .f32⟩ : BufTy).Contents (Elt F)) ]

/-- %14 … %20: the two dot_general, their sum, the bias broadcast and added, and the call of @relu (result main_v20). 9 operations. -/
abbrev opsD : List (HloOp τ sig (Elt F)) :=
  [ StableHlo.binary main_v0 main_arg5 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v13 main_arg6 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v14 main_v15 main_v16 (addf : (⟨S100000x128, .f32⟩ : BufTy).Contents (Elt F) → (⟨S100000x128, .f32⟩ : BufTy).Contents (Elt F) → (⟨S100000x128, .f32⟩ : BufTy).Contents (Elt F)),
    StableHlo.unary main_arg7 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v18 main_v19 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v19 : StableHlo.TRef sig ⟨S100000x128, .f32⟩) main_call2.v0 main_call2.v1 maximumf ]

/-- The call of @_take_0 on main_v20 and the edge sources %arg1 (result main_v21). 23 operations. -/
abbrev opsE : List (HloOp τ sig (Elt F)) :=
  [ StableHlo.TRef.nullary main_call3.c (constantI S_ 32 0#32),
    StableHlo.TRef.unary main_call3.c main_call3.v0 (broadcastInDim S1600000 ![] bcast_S_S1600000),
    StableHlo.TRef.binary (.of main_arg1 : StableHlo.TRef sig ⟨S1600000, .i32⟩) main_call3.v0 main_call3.v1 (cmpi .slt),
    StableHlo.TRef.nullary main_call3.c_0 (constantI S_ 32 100000#32),
    StableHlo.TRef.unary main_call3.c_0 main_call3.v2 (broadcastInDim S1600000 ![] bcast_S_S1600000),
    StableHlo.TRef.binary (.of main_arg1 : StableHlo.TRef sig ⟨S1600000, .i32⟩) main_call3.v2 main_call3.v3 addi,
    StableHlo.TRef.ternary main_call3.v1 main_call3.v3 (.of main_arg1 : StableHlo.TRef sig ⟨S1600000, .i32⟩) main_call3.call0.v0 select,
    StableHlo.TRef.unary main_call3.call0.v0 main_call3.v5 (broadcastInDim S1600000x1 ![0] bcast_S1600000_S1600000x1_0),
    StableHlo.TRef.nullary main_call3.c_1 (constantI S1 32 99999#32),
    StableHlo.TRef.nullary main_call3.c_2 (constantI S_ 32 0#32),
    StableHlo.TRef.unary main_call3.c_2 main_call3.v6 (broadcastInDim S1600000x1 ![] bcast_S_S1600000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S1600000x1 ![0, 1] bcast_S1x1_S1600000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S1600000x1_S1600000_d1 h_S_),
    StableHlo.TRef.binary (.of main_v20 : StableHlo.TRef sig ⟨S100000x128, .f32⟩) main_call3.v5 main_call3.v13 (fun x i => Host.gather gather_S100000x128_S1600000x1_S1600000x128_1_0_n_n_0_1_1128 x i),
    StableHlo.TRef.unary main_call3.v12 main_call3.v14 (broadcastInDim S1600000x128 ![0] bcast_S1600000_S1600000x128_0),
    StableHlo.TRef.nullary main_call3.cst (constant S_ .f32 0x7FC00000#32),
    StableHlo.TRef.unary main_call3.cst main_call3.v15 (broadcastInDim S1600000x128 ![] bcast_S_S1600000x128),
    StableHlo.TRef.ternary main_call3.v14 main_call3.v13 main_call3.v15 main_call3.v16 select ]

/-- %cst_3 … %33: the second layer's scatter-adds, degree and quotient (result main_v33). 16 operations. -/
abbrev opsF : List (HloOp τ sig (Elt F)) :=
  [ StableHlo.nullary main_cst_3 (constant S_ .f32 0x00000000#32),
    StableHlo.unary main_cst_3 main_v22 (broadcastInDim S100000x128 ![] bcast_S_S100000x128 : (⟨S_, .f32⟩ : BufTy).Contents (Elt F) → (⟨S100000x128, .f32⟩ : BufTy).Contents (Elt F)),
    StableHlo.unary main_arg2 main_v23 (broadcastInDim S1600000x1 ![0] bcast_S1600000_S1600000x1_0 : (⟨S1600000, .i32⟩ : BufTy).Contents (Elt F) → (⟨S1600000x1, .i32⟩ : BufTy).Contents (Elt F)),
    StableHlo.ternary main_v22 main_v23 main_v21 main_v24 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_4 (constant S_ .f32 0x3F800000#32),
    StableHlo.unary main_cst_4 main_v25 (broadcastInDim S1600000 ![] bcast_S_S1600000 : (⟨S_, .f32⟩ : BufTy).Contents (Elt F) → (⟨S1600000, .f32⟩ : BufTy).Contents (Elt F)),
    StableHlo.nullary main_cst_5 (constant S_ .f32 0x00000000#32),
    StableHlo.unary main_cst_5 main_v26 (broadcastInDim S100000 ![] bcast_S_S100000 : (⟨S_, .f32⟩ : BufTy).Contents (Elt F) → (⟨S100000, .f32⟩ : BufTy).Contents (Elt F)),
    StableHlo.unary main_arg2 main_v27 (broadcastInDim S1600000x1 ![0] bcast_S1600000_S1600000x1_0 : (⟨S1600000, .i32⟩ : BufTy).Contents (Elt F) → (⟨S1600000x1, .i32⟩ : BufTy).Contents (Elt F)),
    StableHlo.ternary main_v26 main_v27 main_v25 main_v28 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_6 (constant S_ .f32 0x3F800000#32),
    StableHlo.unary main_cst_6 main_v29 (broadcastInDim S100000 ![] bcast_S_S100000 : (⟨S_, .f32⟩ : BufTy).Contents (Elt F) → (⟨S100000, .f32⟩ : BufTy).Contents (Elt F)),
    StableHlo.binary main_v28 main_v29 main_v30 (maximumf : (⟨S100000, .f32⟩ : BufTy).Contents (Elt F) → (⟨S100000, .f32⟩ : BufTy).Contents (Elt F) → (⟨S100000, .f32⟩ : BufTy).Contents (Elt F)),
    StableHlo.unary main_v30 main_v31 (broadcastInDim S100000x1 ![0] bcast_S100000_S100000x1_0 : (⟨S100000, .f32⟩ : BufTy).Contents (Elt F) → (⟨S100000x1, .f32⟩ : BufTy).Contents (Elt F)),
    StableHlo.unary main_v31 main_v32 (broadcastInDim S100000x128 ![0, 1] bcast_S100000x1_S100000x128_0_1 : (⟨S100000x1, .f32⟩ : BufTy).Contents (Elt F) → (⟨S100000x128, .f32⟩ : BufTy).Contents (Elt F)),
    StableHlo.binary main_v24 main_v32 main_v33 (Host.divf : (⟨S100000x128, .f32⟩ : BufTy).Contents (Elt F) → (⟨S100000x128, .f32⟩ : BufTy).Contents (Elt F) → (⟨S100000x128, .f32⟩ : BufTy).Contents (Elt F)) ]

/-- %34 … %40: the second layer's two dot_general, sum, bias and the call of @relu (result main_v40). 9 operations. -/
abbrev opsG : List (HloOp τ sig (Elt F)) :=
  [ StableHlo.binary main_v20 main_arg8 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v33 main_arg9 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v34 main_v35 main_v36 (addf : (⟨S100000x128, .f32⟩ : BufTy).Contents (Elt F) → (⟨S100000x128, .f32⟩ : BufTy).Contents (Elt F) → (⟨S100000x128, .f32⟩ : BufTy).Contents (Elt F)),
    StableHlo.unary main_arg10 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v39 : StableHlo.TRef sig ⟨S100000x128, .f32⟩) main_call4.v0 main_call4.v1 maximumf ]

/-- %cst_7 … %52: the scatter-add of the node rows at the graph indices %arg3, the scatter-add of ones there (the graph's size), its maximum with one, the quotient (result main_v52). 16 operations. -/
abbrev opsH : List (HloOp τ sig (Elt F)) :=
  [ StableHlo.nullary main_cst_7 (constant S_ .f32 0x00000000#32),
    StableHlo.unary main_cst_7 main_v41 (broadcastInDim S256x128 ![] bcast_S_S256x128 : (⟨S_, .f32⟩ : BufTy).Contents (Elt F) → (⟨S256x128, .f32⟩ : BufTy).Contents (Elt F)),
    StableHlo.unary main_arg3 main_v42 (broadcastInDim S100000x1 ![0] bcast_S100000_S100000x1_0 : (⟨S100000, .i32⟩ : BufTy).Contents (Elt F) → (⟨S100000x1, .i32⟩ : BufTy).Contents (Elt F)),
    StableHlo.ternary main_v41 main_v42 main_v40 main_v43 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)),
    StableHlo.nullary main_cst_8 (constant S_ .f32 0x3F800000#32),
    StableHlo.unary main_cst_8 main_v44 (broadcastInDim S100000 ![] bcast_S_S100000 : (⟨S_, .f32⟩ : BufTy).Contents (Elt F) → (⟨S100000, .f32⟩ : BufTy).Contents (Elt F)),
    StableHlo.nullary main_cst_9 (constant S_ .f32 0x00000000#32),
    StableHlo.unary main_cst_9 main_v45 (broadcastInDim S256 ![] bcast_S_S256 : (⟨S_, .f32⟩ : BufTy).Contents (Elt F) → (⟨S256, .f32⟩ : BufTy).Contents (Elt F)),
    StableHlo.unary main_arg3 main_v46 (broadcastInDim S100000x1 ![0] bcast_S100000_S100000x1_0 : (⟨S100000, .i32⟩ : BufTy).Contents (Elt F) → (⟨S100000x1, .i32⟩ : BufTy).Contents (Elt F)),
    StableHlo.ternary main_v45 main_v46 main_v44 main_v47 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    StableHlo.nullary main_cst_10 (constant S_ .f32 0x3F800000#32),
    StableHlo.unary main_cst_10 main_v48 (broadcastInDim S256 ![] bcast_S_S256 : (⟨S_, .f32⟩ : BufTy).Contents (Elt F) → (⟨S256, .f32⟩ : BufTy).Contents (Elt F)),
    StableHlo.binary main_v47 main_v48 main_v49 (maximumf : (⟨S256, .f32⟩ : BufTy).Contents (Elt F) → (⟨S256, .f32⟩ : BufTy).Contents (Elt F) → (⟨S256, .f32⟩ : BufTy).Contents (Elt F)),
    StableHlo.unary main_v49 main_v50 (broadcastInDim S256x1 ![0] bcast_S256_S256x1_0 : (⟨S256, .f32⟩ : BufTy).Contents (Elt F) → (⟨S256x1, .f32⟩ : BufTy).Contents (Elt F)),
    StableHlo.unary main_v50 main_v51 (broadcastInDim S256x128 ![0, 1] bcast_S256x1_S256x128_0_1 : (⟨S256x1, .f32⟩ : BufTy).Contents (Elt F) → (⟨S256x128, .f32⟩ : BufTy).Contents (Elt F)),
    StableHlo.binary main_v43 main_v51 main_v52 (Host.divf : (⟨S256x128, .f32⟩ : BufTy).Contents (Elt F) → (⟨S256x128, .f32⟩ : BufTy).Contents (Elt F) → (⟨S256x128, .f32⟩ : BufTy).Contents (Elt F)) ]

/-- %53 … %57: the first hidden layer — the dot_general, the bias and the call of @relu_2 (result main_v57, the program's second result). 7 operations. -/
abbrev opsI : List (HloOp τ sig (Elt F)) :=
  [ StableHlo.binary main_v52 main_arg11 main_v53 ((fun l r => Host.dotGeneral dot_S256x128_S128x256_S256x256_1_0_0_1_n_n none l r) : (⟨S256x128, .f32⟩ : BufTy).Contents (Elt F) → (⟨S128x256, .f32⟩ : BufTy).Contents (Elt F) → (⟨S256x256, .f32⟩ : BufTy).Contents (Elt F)),
    StableHlo.unary main_arg12 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S256x256 ![0, 1] bcast_S1x256_S256x256_0_1 : (⟨S1x256, .f32⟩ : BufTy).Contents (Elt F) → (⟨S256x256, .f32⟩ : BufTy).Contents (Elt F)),
    StableHlo.binary main_v53 main_v55 main_v56 (addf : (⟨S256x256, .f32⟩ : BufTy).Contents (Elt F) → (⟨S256x256, .f32⟩ : BufTy).Contents (Elt F) → (⟨S256x256, .f32⟩ : BufTy).Contents (Elt F)),
    StableHlo.TRef.nullary main_call5.cst (constant S_ .f32 0x00000000#32),
    StableHlo.TRef.unary main_call5.cst main_call5.v0 (broadcastInDim S256x256 ![] bcast_S_S256x256),
    StableHlo.TRef.binary (.of main_v56 : StableHlo.TRef sig ⟨S256x256, .f32⟩) main_call5.v0 main_call5.v1 maximumf ]

/-- %58 … %72: the three further hidden layers, each a dot_general, a bias and a call of @relu_2 (result main_v72). 21 operations. -/
abbrev opsJ : List (HloOp τ sig (Elt F)) :=
  [ StableHlo.binary main_v57 main_arg13 main_v58 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    StableHlo.unary main_arg14 main_v59 (broadcastInDim S1x256 ![1] bcast_S256_S1x256_1 : (⟨S256, .f32⟩ : BufTy).Contents (Elt F) → (⟨S1x256, .f32⟩ : BufTy).Contents (Elt F)),
    StableHlo.unary main_v59 main_v60 (broadcastInDim S256x256 ![0, 1] bcast_S1x256_S256x256_0_1 : (⟨S1x256, .f32⟩ : BufTy).Contents (Elt F) → (⟨S256x256, .f32⟩ : BufTy).Contents (Elt F)),
    StableHlo.binary main_v58 main_v60 main_v61 (addf : (⟨S256x256, .f32⟩ : BufTy).Contents (Elt F) → (⟨S256x256, .f32⟩ : BufTy).Contents (Elt F) → (⟨S256x256, .f32⟩ : BufTy).Contents (Elt F)),
    StableHlo.TRef.nullary main_call6.cst (constant S_ .f32 0x00000000#32),
    StableHlo.TRef.unary main_call6.cst main_call6.v0 (broadcastInDim S256x256 ![] bcast_S_S256x256),
    StableHlo.TRef.binary (.of main_v61 : StableHlo.TRef sig ⟨S256x256, .f32⟩) main_call6.v0 main_call6.v1 maximumf,
    StableHlo.binary main_v62 main_arg15 main_v63 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    StableHlo.unary main_arg16 main_v64 (broadcastInDim S1x256 ![1] bcast_S256_S1x256_1 : (⟨S256, .f32⟩ : BufTy).Contents (Elt F) → (⟨S1x256, .f32⟩ : BufTy).Contents (Elt F)),
    StableHlo.unary main_v64 main_v65 (broadcastInDim S256x256 ![0, 1] bcast_S1x256_S256x256_0_1 : (⟨S1x256, .f32⟩ : BufTy).Contents (Elt F) → (⟨S256x256, .f32⟩ : BufTy).Contents (Elt F)),
    StableHlo.binary main_v63 main_v65 main_v66 (addf : (⟨S256x256, .f32⟩ : BufTy).Contents (Elt F) → (⟨S256x256, .f32⟩ : BufTy).Contents (Elt F) → (⟨S256x256, .f32⟩ : BufTy).Contents (Elt F)),
    StableHlo.TRef.nullary main_call7.cst (constant S_ .f32 0x00000000#32),
    StableHlo.TRef.unary main_call7.cst main_call7.v0 (broadcastInDim S256x256 ![] bcast_S_S256x256),
    StableHlo.TRef.binary (.of main_v66 : StableHlo.TRef sig ⟨S256x256, .f32⟩) main_call7.v0 main_call7.v1 maximumf,
    StableHlo.binary main_v67 main_arg17 main_v68 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    StableHlo.unary main_arg18 main_v69 (broadcastInDim S1x256 ![1] bcast_S256_S1x256_1 : (⟨S256, .f32⟩ : BufTy).Contents (Elt F) → (⟨S1x256, .f32⟩ : BufTy).Contents (Elt F)),
    StableHlo.unary main_v69 main_v70 (broadcastInDim S256x256 ![0, 1] bcast_S1x256_S256x256_0_1 : (⟨S1x256, .f32⟩ : BufTy).Contents (Elt F) → (⟨S256x256, .f32⟩ : BufTy).Contents (Elt F)),
    StableHlo.binary main_v68 main_v70 main_v71 (addf : (⟨S256x256, .f32⟩ : BufTy).Contents (Elt F) → (⟨S256x256, .f32⟩ : BufTy).Contents (Elt F) → (⟨S256x256, .f32⟩ : BufTy).Contents (Elt F)),
    StableHlo.TRef.nullary main_call8.cst (constant S_ .f32 0x00000000#32),
    StableHlo.TRef.unary main_call8.cst main_call8.v0 (broadcastInDim S256x256 ![] bcast_S_S256x256),
    StableHlo.TRef.binary (.of main_v71 : StableHlo.TRef sig ⟨S256x256, .f32⟩) main_call8.v0 main_call8.v1 maximumf ]

/-- %73 … %76: the output layer — the last dot_general and its bias (result main_v76). 4 operations. -/
abbrev opsK : List (HloOp τ sig (Elt F)) :=
  [ StableHlo.binary main_v72 main_arg19 main_v73 ((fun l r => Host.dotGeneral dot_S256x256_S256x2_S256x2_1_0_0_1_n_n none l r) : (⟨S256x256, .f32⟩ : BufTy).Contents (Elt F) → (⟨S256x2, .f32⟩ : BufTy).Contents (Elt F) → (⟨S256x2, .f32⟩ : BufTy).Contents (Elt F)),
    StableHlo.unary main_arg20 main_v74 (broadcastInDim S1x2 ![1] bcast_S2_S1x2_1 : (⟨S2, .f32⟩ : BufTy).Contents (Elt F) → (⟨S1x2, .f32⟩ : BufTy).Contents (Elt F)),
    StableHlo.unary main_v74 main_v75 (broadcastInDim S256x2 ![0, 1] bcast_S1x2_S256x2_0_1 : (⟨S1x2, .f32⟩ : BufTy).Contents (Elt F) → (⟨S256x2, .f32⟩ : BufTy).Contents (Elt F)),
    StableHlo.binary main_v73 main_v75 main_v76 (addf : (⟨S256x2, .f32⟩ : BufTy).Contents (Elt F) → (⟨S256x2, .f32⟩ : BufTy).Contents (Elt F) → (⟨S256x2, .f32⟩ : BufTy).Contents (Elt F)) ]

/-- The call of @log_softmax (result main_v77, the program's first result): the row maximum, the shifted exponentials, their row sum, its logarithm, the difference. 15 operations. -/
abbrev opsL : List (HloOp τ sig (Elt F)) :=
  [ StableHlo.TRef.nullary main_call9.cst (constant S_ .f32 0xFF800000#32),
    StableHlo.TRef.binary (.of main_v76 : StableHlo.TRef sig ⟨S256x2, .f32⟩) main_call9.cst main_call9.v0 (fun x v => Host.reduce FloatOps.maximumf x v reducesTo_S256x2_S256_d1 h_S_),
    StableHlo.TRef.nullary main_call9.cst_0 (constant S_ .f32 0xFF800000#32),
    StableHlo.TRef.unary main_call9.cst_0 main_call9.v1 (broadcastInDim S256 ![] bcast_S_S256),
    StableHlo.TRef.binary main_call9.v1 main_call9.v0 main_call9.v2 maximumf,
    StableHlo.TRef.unary main_call9.v2 main_call9.v3 (broadcastInDim S256x1 ![0] bcast_S256_S256x1_0),
    StableHlo.TRef.unary main_call9.v3 main_call9.v4 (broadcastInDim S256x2 ![0, 1] bcast_S256x1_S256x2_0_1),
    StableHlo.TRef.binary (.of main_v76 : StableHlo.TRef sig ⟨S256x2, .f32⟩) main_call9.v4 main_call9.v5 subf,
    StableHlo.TRef.unary main_call9.v5 main_call9.v6 Host.exp,
    StableHlo.TRef.nullary main_call9.cst_1 (constant S_ .f32 0x00000000#32),
    StableHlo.TRef.binary main_call9.v6 main_call9.cst_1 main_call9.v7 (fun x v => Host.reduceAdd x v reducesTo_S256x2_S256_d1 h_S_),
    StableHlo.TRef.unary main_call9.v7 main_call9.v8 (broadcastInDim S256x1 ![0] bcast_S256_S256x1_0),
    StableHlo.TRef.unary main_call9.v8 main_call9.v9 Host.log,
    StableHlo.TRef.unary main_call9.v9 main_call9.v10 (broadcastInDim S256x2 ![0, 1] bcast_S256x1_S256x2_0_1),
    StableHlo.TRef.binary main_call9.v5 main_call9.v10 main_call9.v11 subf ]

/-- @main's 182 operations in program order, the calls unfolded. -/
abbrev ops : List (HloOp τ sig (Elt F)) :=
  opsA ++ (opsB ++ (opsC ++ (opsD ++ (opsE ++ (opsF ++ (opsG ++ (opsH ++ (opsI ++ (opsJ ++ (opsK ++ (opsL)))))))))))

-- the straight line is a chain of 182 binds
set_option maxRecDepth 16384 in
set_option maxHeartbeats 4000000 in
/-- @main is that straight line: its two windows in order, the functions' definitions unfolded at their calls and the
    records at their fields; both sides are the same chain of `hlo` steps once sequencing is reassociated
    (`bind_assoc`, `pure_bind`) and the concatenation is run piece after piece (`seq_append`). -/
theorem main_eq (c : Dev nD) : main (F := F) c = seq ops := by
  simp only [main, main_part0, main_part1, fn_take.body, fn_take_0.body, fn_where.body, fn_where_1.body, fn_relu.body,
    fn_relu_2.body, fn_log_softmax.body, ops, opsA, opsB, opsC, opsD, opsE, opsF, opsG, opsH, opsI, opsJ, opsK, opsL,
    seq_append, seq, bind_assoc, pure_bind]

/-- The signature scopes no buffer. -/
theorem scopedRefs_eq : (Finset.univ.filter fun b : Ref sig .tc => b.isScoped) = ∅ := by decide
/-- The signature has no semaphore. -/
theorem scopedSems_eq : (Finset.univ.filter fun sm : SemLoc sig => sm.isScoped .tc) = ∅ := by decide

/-- Every operation touches TensorCore buffers only: each is a builder's, whose buffers are its operands and result. -/
theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub .., nullary_bufs_sub .., unary_bufs_sub ..,
    unary_bufs_sub .., ternary_bufs_sub .., nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub .., binary_bufs_sub .., binary_bufs_sub ..,
    binary_bufs_sub .., unary_bufs_sub .., unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub .., nullary_bufs_sub .., unary_bufs_sub ..,
    unary_bufs_sub .., ternary_bufs_sub .., nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub .., binary_bufs_sub .., binary_bufs_sub ..,
    binary_bufs_sub .., unary_bufs_sub .., unary_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub .., binary_bufs_sub .., binary_bufs_sub ..,
    unary_bufs_sub .., unary_bufs_sub .., binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ

end Cert.ReferenceIdeal.Hand

end
-- ==== Proof.LibTypedRefs.lean ====
/-
  Typed references of a host program: carrying contents to a buffer's own type and back.

  An outlined function's body names its values by typed references; an operation built over them carries each
  operand from its buffer's type to the value's type and the result back, by a transport along the equation "the
  buffer's type is the value's type". Composed term after composed term these transports come in pairs, back and
  forth along one equation:
  * ofBuf_toBuf: contents carried to the buffer's type and back are the contents;
  * toBuf_ofBuf: and the other way round.
  Both hold for every reference, whatever its equation's proof: no type is computed. Rewriting with them leaves a
  composed term with transports only at its leaves and at its top.
-/
import Idealize.ShloMosaic.Lib.StableHlo

noncomputable section

namespace Cert.LibTypedRefs

open Idealize.ShloMosaic Idealize.ShloMosaic.StableHlo

variable {sig : RefSig} {Val : EltTy → Type} {T : BufTy}

/-- Contents carried to a buffer's type and back are the contents. -/
theorem ofBuf_toBuf (x : TRef sig T) (v : T.Contents Val) : x.ofBuf (x.toBuf v) = v := by
  show cast _ (cast _ v) = v
  rw [cast_cast, cast_eq]

/-- A buffer's contents carried to the value's type and back are the buffer's contents. -/
theorem toBuf_ofBuf (x : TRef sig T) (v : x.ref.ty.Contents Val) : x.toBuf (x.ofBuf v) = v := by
  show cast _ (cast _ v) = v
  rw [cast_cast, cast_eq]

end Cert.LibTypedRefs

end
-- ==== Proof.SharedPrefix.lean ====
/-
  The two programs' shared prefix is one function of the same inputs.

  Both programs begin with the same host computation: the table's rows looked up at the node indices (a negative
  index shifted by the table's height, the gather, rows at an out-of-range index replaced by NaN), those rows
  gathered again at the edge sources, the gathered rows summed at the edge destinations (scatter-add into zeros),
  the in-degree (ones summed at the same destinations) raised to at least one, and the quotient: each node's mean
  over its incoming edges. On either side the fold of these operations, read at the quotient's buffer, is the same
  composition of the same operations applied to the contents of the four argument buffers it reads — the node
  indices, the edge sources, the edge destinations and the table. So where the two launch memories agree on those
  four buffers, the two folds agree at the quotient (`prefix_v13`), and already at the looked-up rows
  (`prefix_v0`, from the node indices and the table alone).

  The proof computes both folds (each operation's result at its own buffer is its function of its operands'
  contents, at any other buffer what was there), cancels the transports a typed reference puts around an operand
  and a result where they meet back to back, rewrites the kernel side's argument contents to the reference
  side's, and compares the two terms structurally: the shapes, the gather and scatter dimension records and the
  side conditions of the two programs are each the other's by unfolding, the remaining transports are along
  equations between equal types, and the gather, scatter-add, reduction and division themselves are never
  opened.
-/
import proofs.«176873_j75763223102156_1_alg».proof.Proof.Gen.KernelIdeal.Frame
import proofs.«176873_j75763223102156_1_alg».proof.Proof.RefRun
import proofs.«176873_j75763223102156_1_alg».proof.Proof.LibTypedRefs
import Idealize.ShloMosaic.PureOps.Ideal

noncomputable section

namespace Cert.Shared

open Idealize.ShloMosaic Idealize.ShloMosaic.StableHlo Idealize.SL.Sem

variable {X : Valuation Cert.KernelIdeal.τ Cert.KernelIdeal.sig (Elt Ideal)}
  {Y : Valuation Cert.ReferenceIdeal.τ Cert.ReferenceIdeal.sig (Elt Ideal)}

-- the two composed terms are compared as they stand; the operations over whole arrays are not unfolded
attribute [local irreducible] Host.gather Host.scatterAdd Host.reduce Host.divf in
set_option maxHeartbeats 2000000 in
set_option maxRecDepth 8192 in
/-- The looked-up rows: where the two memories agree on the node indices and on the table, the kernel side's first
    23 host operations and the reference's leave the same contents in the buffer of the rows. -/
theorem prefix_v0
    (h0 : X (Proc.devRef .tc Cert.KernelIdeal.main_arg0) = Y (Proc.devRef .tc Cert.ReferenceIdeal.main_arg0))
    (h4 : X (Proc.devRef .tc Cert.KernelIdeal.main_arg4) = Y (Proc.devRef .tc Cert.ReferenceIdeal.main_arg4)) :
    StableHlo.after (Cert.KernelIdeal.Gen.hostOps0 (F := Ideal)) X (Proc.devRef .tc Cert.KernelIdeal.main_v0)
      = StableHlo.after (Cert.ReferenceIdeal.Hand.opsA (F := Ideal)) Y (Proc.devRef .tc Cert.ReferenceIdeal.main_v0) := by
  after_results_simp
  simp only [Cert.LibTypedRefs.ofBuf_toBuf, Cert.LibTypedRefs.toBuf_ofBuf]
  simp only [h0, h4]
  rfl

attribute [local irreducible] Host.gather Host.scatterAdd Host.reduce Host.divf in
set_option maxHeartbeats 2000000 in
set_option maxRecDepth 8192 in
/-- The mean over incoming edges: where the two memories agree on the node indices, the edge sources, the edge
    destinations and the table, the kernel side's host operations up to the quotient and the reference's leave the
    same contents in the quotient's buffer. -/
theorem prefix_v13
    (h0 : X (Proc.devRef .tc Cert.KernelIdeal.main_arg0) = Y (Proc.devRef .tc Cert.ReferenceIdeal.main_arg0))
    (h1 : X (Proc.devRef .tc Cert.KernelIdeal.main_arg1) = Y (Proc.devRef .tc Cert.ReferenceIdeal.main_arg1))
    (h2 : X (Proc.devRef .tc Cert.KernelIdeal.main_arg2) = Y (Proc.devRef .tc Cert.ReferenceIdeal.main_arg2))
    (h4 : X (Proc.devRef .tc Cert.KernelIdeal.main_arg4) = Y (Proc.devRef .tc Cert.ReferenceIdeal.main_arg4)) :
    StableHlo.after (Cert.KernelIdeal.Gen.hostOps0_2 (F := Ideal)) (StableHlo.after (Cert.KernelIdeal.Gen.hostOps0_1 (F := Ideal)) (StableHlo.after (Cert.KernelIdeal.Gen.hostOps0 (F := Ideal)) X)) (Proc.devRef .tc Cert.KernelIdeal.main_v13)
      = StableHlo.after (Cert.ReferenceIdeal.Hand.opsC (F := Ideal)) (StableHlo.after (Cert.ReferenceIdeal.Hand.opsB (F := Ideal)) (StableHlo.after (Cert.ReferenceIdeal.Hand.opsA (F := Ideal)) Y)) (Proc.devRef .tc Cert.ReferenceIdeal.main_v13) := by
  after_results_simp
  simp only [Cert.LibTypedRefs.ofBuf_toBuf, Cert.LibTypedRefs.toBuf_ofBuf]
  simp only [h0, h1, h2, h4]
  rfl

end Cert.Shared

end
-- ==== Proof.SharedMid.lean ====
/-
  The two programs' other shared stretches are, each, one function of the same inputs.

  After the first layer both programs repeat the host computation of a node's mean over its incoming edges on
  that layer's output — the rows gathered at the edge sources (a negative index shifted by the number of rows, rows
  at an out-of-range index replaced by NaN), summed at the edge destinations, divided by the in-degree raised to at
  least one (`mid_v28`) — and after the second layer both pool the node rows graph by graph: the rows summed at the
  graph indices, divided by the number of nodes of the graph raised to at least one (`tail_v42`). On either side the
  fold of the stretch's operations, read at the quotient's buffer, is the same composition of the same operations
  applied to the contents of the buffers it reads: the layer's output and the edge sources and destinations for
  the first, the layer's output and the graph indices for the second. So where the two memories agree on those
  buffers, the two folds agree at the quotient.

  The proofs are the first stretch's: both folds computed, the back-to-back transports of typed references
  cancelled, the kernel side's leaves rewritten to the reference side's, and the two terms compared structurally
  with the gather, scatter-add, reduction and division kept closed.
-/
import proofs.«176873_j75763223102156_1_alg».proof.Proof.Gen.KernelIdeal.Frame
import proofs.«176873_j75763223102156_1_alg».proof.Proof.RefRun
import proofs.«176873_j75763223102156_1_alg».proof.Proof.LibTypedRefs
import Idealize.ShloMosaic.PureOps.Ideal

noncomputable section

namespace Cert.Shared

open Idealize.ShloMosaic Idealize.ShloMosaic.StableHlo Idealize.SL.Sem

variable {X : Valuation Cert.KernelIdeal.τ Cert.KernelIdeal.sig (Elt Ideal)}
  {Y : Valuation Cert.ReferenceIdeal.τ Cert.ReferenceIdeal.sig (Elt Ideal)}

attribute [local irreducible] Host.gather Host.scatterAdd Host.reduce Host.divf in
set_option maxHeartbeats 2000000 in
set_option maxRecDepth 8192 in
/-- The second layer's mean over incoming edges: where the two memories agree on the first layer's output, the edge
    sources and the edge destinations, the kernel side's host operations between its first two kernels and the
    reference's leave the same contents in the quotient's buffer. -/
theorem mid_v28
    (hv : X (Proc.devRef .tc Cert.KernelIdeal.main_v15) = Y (Proc.devRef .tc Cert.ReferenceIdeal.main_v20))
    (h1 : X (Proc.devRef .tc Cert.KernelIdeal.main_arg1) = Y (Proc.devRef .tc Cert.ReferenceIdeal.main_arg1))
    (h2 : X (Proc.devRef .tc Cert.KernelIdeal.main_arg2) = Y (Proc.devRef .tc Cert.ReferenceIdeal.main_arg2)) :
    StableHlo.after (Cert.KernelIdeal.Gen.hostOps1_1 (F := Ideal)) (StableHlo.after (Cert.KernelIdeal.Gen.hostOps1 (F := Ideal)) X) (Proc.devRef .tc Cert.KernelIdeal.main_v28)
      = StableHlo.after (Cert.ReferenceIdeal.Hand.opsF (F := Ideal)) (StableHlo.after (Cert.ReferenceIdeal.Hand.opsE (F := Ideal)) Y) (Proc.devRef .tc Cert.ReferenceIdeal.main_v33) := by
  after_results_simp
  simp only [Cert.LibTypedRefs.ofBuf_toBuf, Cert.LibTypedRefs.toBuf_ofBuf]
  simp only [hv, h1, h2]
  rfl

attribute [local irreducible] Host.gather Host.scatterAdd Host.reduce Host.divf in
set_option maxHeartbeats 2000000 in
set_option maxRecDepth 8192 in
/-- The mean over each graph: where the two memories agree on the second layer's output and on the graph indices,
    the kernel side's host operations after its second kernel and the reference's leave the same contents in the
    quotient's buffer. -/
theorem tail_v42
    (hv : X (Proc.devRef .tc Cert.KernelIdeal.main_v30) = Y (Proc.devRef .tc Cert.ReferenceIdeal.main_v40))
    (h3 : X (Proc.devRef .tc Cert.KernelIdeal.main_arg3) = Y (Proc.devRef .tc Cert.ReferenceIdeal.main_arg3)) :
    StableHlo.after (Cert.KernelIdeal.Gen.hostOps2 (F := Ideal)) X (Proc.devRef .tc Cert.KernelIdeal.main_v42)
      = StableHlo.after (Cert.ReferenceIdeal.Hand.opsH (F := Ideal)) Y (Proc.devRef .tc Cert.ReferenceIdeal.main_v52) := by
  after_results_simp
  simp only [hv, h3]
  rfl

end Cert.Shared

end
-- ==== Proof.RefDense.lean ====
/-
  The reference program's dense stretches, read as the specification's functions.

  Four stretches of the reference are products with weight matrices followed by a bias and, but for the last, a
  cut-off at 0. Read at its result buffer, the fold of each stretch's operations over ANY contents Y of the buffers is
  the specification's function of the contents the stretch reads:
  * `read_v20`, `read_v40`: a layer with mean aggregation — the node rows times one weight, plus the averaged
    neighbour rows times another, plus the bias row, cut off below at 0 (`Cert.Spec.sage`);
  * `read_v57`: the first dense stage of the head, which is also a result (`Cert.Spec.hidden`);
  * `read_v77`: the whole head — that stage, three more, the prediction layer and the log-softmax along the rows
    (`Cert.Spec.logp`), read through the four stretches in a row.
  The bias enters each function as a one-row array: the program's own first broadcast of the bias vector.

  Each proof computes the fold (an operation's result at its own buffer is its function of its operands' contents,
  elsewhere what was there) and cancels the transports typed references put back to back. What is left is the
  host's spelling of the function — products over the plain dimension numbers, the bias row broadcast over the
  rows, a maximum with a broadcast 0; for the head also the row maximum, the sum of exponentials and its logarithm
  broadcast back through a column — up to transports along equations between equal types and the program's own
  names for the dimension records, and the specification's lemma for that spelling closes it. For the head the
  specification is first rewritten into the host's spelling, stage by stage from the outside in, and the two terms
  are compared structurally with the reductions, the exponential and the logarithm kept closed.
-/
import proofs.«176873_j75763223102156_1_alg».proof.Proof.RefRun
import proofs.«176873_j75763223102156_1_alg».proof.Proof.LibTypedRefs
import proofs.«176873_j75763223102156_1_alg».proof.Proof.SpecSage
import proofs.«176873_j75763223102156_1_alg».proof.Proof.SpecHead

noncomputable section

namespace Cert.ReferenceIdeal.Dense

open Cert.ReferenceIdeal Cert.ReferenceIdeal.Gen Cert.ReferenceIdeal.Hand Idealize.ShloMosaic Idealize.ShloMosaic.StableHlo Idealize.SL.Sem

variable (Y : Valuation τ sig (Elt Ideal))

set_option maxHeartbeats 2000000 in
set_option maxRecDepth 8192 in
/-- The first layer: the stretch from the two products to the cut-off leaves, in the cut-off's buffer, the layer
    with mean aggregation of the looked-up rows, their means over incoming edges, the two weights and the bias row. -/
theorem read_v20 :
    StableHlo.after (opsD (F := Ideal)) Y (Proc.devRef .tc main_v20)
      = Cert.Spec.sage 100000 128 128 (Y (Proc.devRef .tc main_v0)) (Y (Proc.devRef .tc main_v13))
          (Y (Proc.devRef .tc main_arg5)) (Y (Proc.devRef .tc main_arg6))
          (broadcastInDim S1x128 ![1] bcast_S128_S1x128_1 (Y (Proc.devRef .tc main_arg7))) := by
  after_results_simp
  simp only [Cert.LibTypedRefs.ofBuf_toBuf, Cert.LibTypedRefs.toBuf_ofBuf]
  exact Cert.Spec.sage_of_dotGeneral 100000 128 128 _ _ _ _ _ _ _

set_option maxHeartbeats 2000000 in
set_option maxRecDepth 8192 in
/-- The second layer: the same function of the first layer's output, its means over incoming edges, the second
    pair of weights and the second bias row. -/
theorem read_v40 :
    StableHlo.after (opsG (F := Ideal)) Y (Proc.devRef .tc main_v40)
      = Cert.Spec.sage 100000 128 128 (Y (Proc.devRef .tc main_v20)) (Y (Proc.devRef .tc main_v33))
          (Y (Proc.devRef .tc main_arg8)) (Y (Proc.devRef .tc main_arg9))
          (broadcastInDim S1x128 ![1] bcast_S128_S1x128_1 (Y (Proc.devRef .tc main_arg10))) := by
  after_results_simp
  simp only [Cert.LibTypedRefs.ofBuf_toBuf, Cert.LibTypedRefs.toBuf_ofBuf]
  exact Cert.Spec.sage_of_dotGeneral 100000 128 128 _ _ _ _ _ _ _

set_option maxHeartbeats 2000000 in
set_option maxRecDepth 8192 in
/-- The head's first stage: the pooled rows times the weight, plus the bias row, cut off below at 0. -/
theorem read_v57 :
    StableHlo.after (opsI (F := Ideal)) Y (Proc.devRef .tc main_v57)
      = Cert.Spec.hidden (Y (Proc.devRef .tc main_v52)) (Y (Proc.devRef .tc main_arg11)) (broadcastInDim S1x256 ![1] bcast_S256_S1x256_1 (Y (Proc.devRef .tc main_arg12))) := by
  after_results_simp
  simp only [Cert.LibTypedRefs.ofBuf_toBuf, Cert.LibTypedRefs.toBuf_ofBuf]
  exact Cert.LibDenseStage.stage_of_dotGeneral 256 128 256 _ _ _ _ _

attribute [local irreducible] Host.reduce Host.reduceAdd Host.exp Host.log in
set_option maxHeartbeats 4000000 in
set_option maxRecDepth 8192 in
/-- The head: read through its four stretches in a row, the last buffer holds the log-softmax of the prediction
    layer of the fourth dense stage, each stage applied to the one before, the first to the pooled rows. -/
theorem read_v77 :
    StableHlo.after (opsL (F := Ideal)) (StableHlo.after (opsK (F := Ideal)) (StableHlo.after (opsJ (F := Ideal)) (StableHlo.after (opsI (F := Ideal)) Y))) (Proc.devRef .tc main_v77)
      = Cert.Spec.logp (Y (Proc.devRef .tc main_v52)) (Y (Proc.devRef .tc main_arg11)) (broadcastInDim S1x256 ![1] bcast_S256_S1x256_1 (Y (Proc.devRef .tc main_arg12)))
          (Y (Proc.devRef .tc main_arg13)) (broadcastInDim S1x256 ![1] bcast_S256_S1x256_1 (Y (Proc.devRef .tc main_arg14)))
          (Y (Proc.devRef .tc main_arg15)) (broadcastInDim S1x256 ![1] bcast_S256_S1x256_1 (Y (Proc.devRef .tc main_arg16)))
          (Y (Proc.devRef .tc main_arg17)) (broadcastInDim S1x256 ![1] bcast_S256_S1x256_1 (Y (Proc.devRef .tc main_arg18)))
          (Y (Proc.devRef .tc main_arg19)) (broadcastInDim S1x2 ![1] bcast_S2_S1x2_1 (Y (Proc.devRef .tc main_arg20))) := by
  after_results_simp
  simp only [Cert.LibTypedRefs.ofBuf_toBuf, Cert.LibTypedRefs.toBuf_ofBuf]
  unfold Cert.Spec.logp Cert.Spec.hidden
  rw [← Cert.Spec.lsm_of_host 256 2 _ reducesTo_S256x2_S256_d1 h_S_ bcast_S_S256 bcast_S256_S256x1_0 bcast_S256x1_S256x2_0_1,
    ← Cert.LibAffineStage.affine_of_dotGeneral 256 256 2 _ _ _ bcast_S1x2_S256x2_0_1,
    ← Cert.LibDenseStage.stage_of_dotGeneral 256 256 256 _ _ _ bcast_S1x256_S256x256_0_1 bcast_S_S256x256,
    ← Cert.LibDenseStage.stage_of_dotGeneral 256 256 256 _ _ _ bcast_S1x256_S256x256_0_1 bcast_S_S256x256,
    ← Cert.LibDenseStage.stage_of_dotGeneral 256 256 256 _ _ _ bcast_S1x256_S256x256_0_1 bcast_S_S256x256,
    ← Cert.LibDenseStage.stage_of_dotGeneral 256 128 256 _ _ _ bcast_S1x256_S256x256_0_1 bcast_S_S256x256]
  rfl

end Cert.ReferenceIdeal.Dense

end
-- ==== Proof.RefKeeps.lean ====
/-
  The reference changes only the buffers of the values it computes.

  The reference's @main is a line of 182 operations, each writing the one buffer of the value it defines, cut into twelve
  consecutive pieces. A reference that is not one of a piece's values — an argument of @main, or a value computed by
  another piece — reads, after the piece, what it read before it. The 21 arguments of @main are values of no piece,
  so after the whole line each holds what it held at the launch.
-/
import proofs.«176873_j75763223102156_1_alg».proof.Proof.RefRun
import Idealize.ShloMosaic.Lib.StableHlo.Run
import Idealize.ShloMosaic.Lib.Pipeline.Frame

set_option maxRecDepth 16384

noncomputable section

namespace Cert.ReferenceIdeal.Keeps

open Idealize.ShloMosaic Idealize.ShloMosaic.TcCoe Idealize.ShloMosaic.StableHlo
open Cert.ReferenceIdeal Cert.ReferenceIdeal.Gen Cert.ReferenceIdeal.Hand

variable {F : FTy → Type} [FloatOps F]

/-- The piece `opsA` writes only its own 23 values: any other reference's buffer is as it was. -/
theorem keeps_opsA (Y : Valuation τ sig (Elt F)) (r : Ref sig .tc)
    (hr : r ∉ ([main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0] : List (Ref sig .tc))) :
    after (opsA (F := F)) Y (Proc.devRef .tc r) = Y (Proc.devRef .tc r) :=
  after_of_forall_not_mem (b := Proc.devRef .tc r) _ _ (List.forall_iff_forall_mem.mp (by
    simp only [opsA, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- The piece `opsB` writes only its own 23 values: any other reference's buffer is as it was. -/
theorem keeps_opsB (Y : Valuation τ sig (Elt F)) (r : Ref sig .tc)
    (hr : r ∉ ([main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1] : List (Ref sig .tc))) :
    after (opsB (F := F)) Y (Proc.devRef .tc r) = Y (Proc.devRef .tc r) :=
  after_of_forall_not_mem (b := Proc.devRef .tc r) _ _ (List.forall_iff_forall_mem.mp (by
    simp only [opsB, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- The piece `opsC` writes only its own 16 values: any other reference's buffer is as it was. -/
theorem keeps_opsC (Y : Valuation τ sig (Elt F)) (r : Ref sig .tc)
    (hr : r ∉ ([main_cst, main_v2, main_v3, main_v4, main_cst_0, main_v5, main_cst_1, main_v6, main_v7, main_v8, main_cst_2, main_v9, main_v10, main_v11, main_v12, main_v13] : List (Ref sig .tc))) :
    after (opsC (F := F)) Y (Proc.devRef .tc r) = Y (Proc.devRef .tc r) :=
  after_of_forall_not_mem (b := Proc.devRef .tc r) _ _ (List.forall_iff_forall_mem.mp (by
    simp only [opsC, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- The piece `opsD` writes only its own 9 values: any other reference's buffer is as it was. -/
theorem keeps_opsD (Y : Valuation τ sig (Elt F)) (r : Ref sig .tc)
    (hr : r ∉ ([main_v14, main_v15, main_v16, main_v17, main_v18, main_v19, main_call2_cst, main_call2_v0, main_v20] : List (Ref sig .tc))) :
    after (opsD (F := F)) Y (Proc.devRef .tc r) = Y (Proc.devRef .tc r) :=
  after_of_forall_not_mem (b := Proc.devRef .tc r) _ _ (List.forall_iff_forall_mem.mp (by
    simp only [opsD, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- The piece `opsE` writes only its own 23 values: any other reference's buffer is as it was. -/
theorem keeps_opsE (Y : Valuation τ sig (Elt F)) (r : Ref sig .tc)
    (hr : r ∉ ([main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v21] : List (Ref sig .tc))) :
    after (opsE (F := F)) Y (Proc.devRef .tc r) = Y (Proc.devRef .tc r) :=
  after_of_forall_not_mem (b := Proc.devRef .tc r) _ _ (List.forall_iff_forall_mem.mp (by
    simp only [opsE, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- The piece `opsF` writes only its own 16 values: any other reference's buffer is as it was. -/
theorem keeps_opsF (Y : Valuation τ sig (Elt F)) (r : Ref sig .tc)
    (hr : r ∉ ([main_cst_3, main_v22, main_v23, main_v24, main_cst_4, main_v25, main_cst_5, main_v26, main_v27, main_v28, main_cst_6, main_v29, main_v30, main_v31, main_v32, main_v33] : List (Ref sig .tc))) :
    after (opsF (F := F)) Y (Proc.devRef .tc r) = Y (Proc.devRef .tc r) :=
  after_of_forall_not_mem (b := Proc.devRef .tc r) _ _ (List.forall_iff_forall_mem.mp (by
    simp only [opsF, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- The piece `opsG` writes only its own 9 values: any other reference's buffer is as it was. -/
theorem keeps_opsG (Y : Valuation τ sig (Elt F)) (r : Ref sig .tc)
    (hr : r ∉ ([main_v34, main_v35, main_v36, main_v37, main_v38, main_v39, main_call4_cst, main_call4_v0, main_v40] : List (Ref sig .tc))) :
    after (opsG (F := F)) Y (Proc.devRef .tc r) = Y (Proc.devRef .tc r) :=
  after_of_forall_not_mem (b := Proc.devRef .tc r) _ _ (List.forall_iff_forall_mem.mp (by
    simp only [opsG, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- The piece `opsH` writes only its own 16 values: any other reference's buffer is as it was. -/
theorem keeps_opsH (Y : Valuation τ sig (Elt F)) (r : Ref sig .tc)
    (hr : r ∉ ([main_cst_7, main_v41, main_v42, main_v43, main_cst_8, main_v44, main_cst_9, main_v45, main_v46, main_v47, main_cst_10, main_v48, main_v49, main_v50, main_v51, main_v52] : List (Ref sig .tc))) :
    after (opsH (F := F)) Y (Proc.devRef .tc r) = Y (Proc.devRef .tc r) :=
  after_of_forall_not_mem (b := Proc.devRef .tc r) _ _ (List.forall_iff_forall_mem.mp (by
    simp only [opsH, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- The piece `opsI` writes only its own 7 values: any other reference's buffer is as it was. -/
theorem keeps_opsI (Y : Valuation τ sig (Elt F)) (r : Ref sig .tc)
    (hr : r ∉ ([main_v53, main_v54, main_v55, main_v56, main_call5_cst, main_call5_v0, main_v57] : List (Ref sig .tc))) :
    after (opsI (F := F)) Y (Proc.devRef .tc r) = Y (Proc.devRef .tc r) :=
  after_of_forall_not_mem (b := Proc.devRef .tc r) _ _ (List.forall_iff_forall_mem.mp (by
    simp only [opsI, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- The piece `opsJ` writes only its own 21 values: any other reference's buffer is as it was. -/
theorem keeps_opsJ (Y : Valuation τ sig (Elt F)) (r : Ref sig .tc)
    (hr : r ∉ ([main_v58, main_v59, main_v60, main_v61, main_call6_cst, main_call6_v0, main_v62, main_v63, main_v64, main_v65, main_v66, main_call7_cst, main_call7_v0, main_v67, main_v68, main_v69, main_v70, main_v71, main_call8_cst, main_call8_v0, main_v72] : List (Ref sig .tc))) :
    after (opsJ (F := F)) Y (Proc.devRef .tc r) = Y (Proc.devRef .tc r) :=
  after_of_forall_not_mem (b := Proc.devRef .tc r) _ _ (List.forall_iff_forall_mem.mp (by
    simp only [opsJ, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- The piece `opsK` writes only its own 4 values: any other reference's buffer is as it was. -/
theorem keeps_opsK (Y : Valuation τ sig (Elt F)) (r : Ref sig .tc)
    (hr : r ∉ ([main_v73, main_v74, main_v75, main_v76] : List (Ref sig .tc))) :
    after (opsK (F := F)) Y (Proc.devRef .tc r) = Y (Proc.devRef .tc r) :=
  after_of_forall_not_mem (b := Proc.devRef .tc r) _ _ (List.forall_iff_forall_mem.mp (by
    simp only [opsK, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- The piece `opsL` writes only its own 15 values: any other reference's buffer is as it was. -/
theorem keeps_opsL (Y : Valuation τ sig (Elt F)) (r : Ref sig .tc)
    (hr : r ∉ ([main_call9_cst, main_call9_v0, main_call9_cst_0, main_call9_v1, main_call9_v2, main_call9_v3, main_call9_v4, main_call9_v5, main_call9_v6, main_call9_cst_1, main_call9_v7, main_call9_v8, main_call9_v9, main_call9_v10, main_v77] : List (Ref sig .tc))) :
    after (opsL (F := F)) Y (Proc.devRef .tc r) = Y (Proc.devRef .tc r) :=
  after_of_forall_not_mem (b := Proc.devRef .tc r) _ _ (List.forall_iff_forall_mem.mp (by
    simp only [opsL, List.Forall, nullary_writes, unary_writes, binary_writes, ternary_writes, quaternary_writes,
      reshape_writes, binaryIndexed_writes, Finset.mem_singleton]
    repeat' apply And.intro
    all_goals exact devRef_ne_of_ne (fun e => hr (by rw [e]; decide))))

/-- The whole line writes only the values of its twelve pieces: a reference that is a value of none of them reads,
    after the line, what it read before it. The fold over the concatenation is the pieces' folds one after the other. -/
theorem keeps_ops (Y : Valuation τ sig (Elt F)) (r : Ref sig .tc)
    (hA : r ∉ ([main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0] : List (Ref sig .tc)))
    (hB : r ∉ ([main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1] : List (Ref sig .tc)))
    (hC : r ∉ ([main_cst, main_v2, main_v3, main_v4, main_cst_0, main_v5, main_cst_1, main_v6, main_v7, main_v8, main_cst_2, main_v9, main_v10, main_v11, main_v12, main_v13] : List (Ref sig .tc)))
    (hD : r ∉ ([main_v14, main_v15, main_v16, main_v17, main_v18, main_v19, main_call2_cst, main_call2_v0, main_v20] : List (Ref sig .tc)))
    (hE : r ∉ ([main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v21] : List (Ref sig .tc)))
    (hF : r ∉ ([main_cst_3, main_v22, main_v23, main_v24, main_cst_4, main_v25, main_cst_5, main_v26, main_v27, main_v28, main_cst_6, main_v29, main_v30, main_v31, main_v32, main_v33] : List (Ref sig .tc)))
    (hG : r ∉ ([main_v34, main_v35, main_v36, main_v37, main_v38, main_v39, main_call4_cst, main_call4_v0, main_v40] : List (Ref sig .tc)))
    (hH : r ∉ ([main_cst_7, main_v41, main_v42, main_v43, main_cst_8, main_v44, main_cst_9, main_v45, main_v46, main_v47, main_cst_10, main_v48, main_v49, main_v50, main_v51, main_v52] : List (Ref sig .tc)))
    (hI : r ∉ ([main_v53, main_v54, main_v55, main_v56, main_call5_cst, main_call5_v0, main_v57] : List (Ref sig .tc)))
    (hJ : r ∉ ([main_v58, main_v59, main_v60, main_v61, main_call6_cst, main_call6_v0, main_v62, main_v63, main_v64, main_v65, main_v66, main_call7_cst, main_call7_v0, main_v67, main_v68, main_v69, main_v70, main_v71, main_call8_cst, main_call8_v0, main_v72] : List (Ref sig .tc)))
    (hK : r ∉ ([main_v73, main_v74, main_v75, main_v76] : List (Ref sig .tc)))
    (hL : r ∉ ([main_call9_cst, main_call9_v0, main_call9_cst_0, main_call9_v1, main_call9_v2, main_call9_v3, main_call9_v4, main_call9_v5, main_call9_v6, main_call9_cst_1, main_call9_v7, main_call9_v8, main_call9_v9, main_call9_v10, main_v77] : List (Ref sig .tc))) :
    after (ops (F := F)) Y (Proc.devRef .tc r) = Y (Proc.devRef .tc r) := by
  show after (opsA ++ (opsB ++ (opsC ++ (opsD ++ (opsE ++ (opsF ++ (opsG ++ (opsH ++ (opsI ++ (opsJ ++ (opsK ++ opsL))))))))))) Y
    (Proc.devRef .tc r) = _
  rw [StableHlo.after_append opsA, StableHlo.after_append opsB, StableHlo.after_append opsC, StableHlo.after_append opsD, StableHlo.after_append opsE, StableHlo.after_append opsF, StableHlo.after_append opsG, StableHlo.after_append opsH, StableHlo.after_append opsI, StableHlo.after_append opsJ, StableHlo.after_append opsK,
    keeps_opsL _ _ hL, keeps_opsK _ _ hK, keeps_opsJ _ _ hJ, keeps_opsI _ _ hI, keeps_opsH _ _ hH, keeps_opsG _ _ hG, keeps_opsF _ _ hF, keeps_opsE _ _ hE, keeps_opsD _ _ hD, keeps_opsC _ _ hC, keeps_opsB _ _ hB, keeps_opsA _ _ hA]

/-! ## The arguments of @main are values of no piece -/

theorem arg_kept_0 (Y : Valuation τ sig (Elt F)) :
    after (ops (F := F)) Y (Proc.devRef .tc main_arg0) = Y (Proc.devRef .tc main_arg0) :=
  keeps_ops Y main_arg0 (by decide) (by decide) (by decide) (by decide) (by decide) (by decide) (by decide) (by decide) (by decide) (by decide) (by decide) (by decide)

theorem arg_kept_1 (Y : Valuation τ sig (Elt F)) :
    after (ops (F := F)) Y (Proc.devRef .tc main_arg1) = Y (Proc.devRef .tc main_arg1) :=
  keeps_ops Y main_arg1 (by decide) (by decide) (by decide) (by decide) (by decide) (by decide) (by decide) (by decide) (by decide) (by decide) (by decide) (by decide)

theorem arg_kept_2 (Y : Valuation τ sig (Elt F)) :
    after (ops (F := F)) Y (Proc.devRef .tc main_arg2) = Y (Proc.devRef .tc main_arg2) :=
  keeps_ops Y main_arg2 (by decide) (by decide) (by decide) (by decide) (by decide) (by decide) (by decide) (by decide) (by decide) (by decide) (by decide) (by decide)

theorem arg_kept_3 (Y : Valuation τ sig (Elt F)) :
    after (ops (F := F)) Y (Proc.devRef .tc main_arg3) = Y (Proc.devRef .tc main_arg3) :=
  keeps_ops Y main_arg3 (by decide) (by decide) (by decide) (by decide) (by decide) (by decide) (by decide) (by decide) (by decide) (by decide) (by decide) (by decide)

theorem arg_kept_4 (Y : Valuation τ sig (Elt F)) :
    after (ops (F := F)) Y (Proc.devRef .tc main_arg4) = Y (Proc.devRef .tc main_arg4) :=
  keeps_ops Y main_arg4 (by decide) (by decide) (by decide) (by decide) (by decide) (by decide) (by decide) (by decide) (by decide) (by decide) (by decide) (by decide)

theorem arg_kept_5 (Y : Valuation τ sig (Elt F)) :
    after (ops (F := F)) Y (Proc.devRef .tc main_arg5) = Y (Proc.devRef .tc main_arg5) :=
  keeps_ops Y main_arg5 (by decide) (by decide) (by decide) (by decide) (by decide) (by decide) (by decide) (by decide) (by decide) (by decide) (by decide) (by decide)

theorem arg_kept_6 (Y : Valuation τ sig (Elt F)) :
    after (ops (F := F)) Y (Proc.devRef .tc main_arg6) = Y (Proc.devRef .tc main_arg6) :=
  keeps_ops Y main_arg6 (by decide) (by decide) (by decide) (by decide) (by decide) (by decide) (by decide) (by decide) (by decide) (by decide) (by decide) (by decide)

theorem arg_kept_7 (Y : Valuation τ sig (Elt F)) :
    after (ops (F := F)) Y (Proc.devRef .tc main_arg7) = Y (Proc.devRef .tc main_arg7) :=
  keeps_ops Y main_arg7 (by decide) (by decide) (by decide) (by decide) (by decide) (by decide) (by decide) (by decide) (by decide) (by decide) (by decide) (by decide)

theorem arg_kept_8 (Y : Valuation τ sig (Elt F)) :
    after (ops (F := F)) Y (Proc.devRef .tc main_arg8) = Y (Proc.devRef .tc main_arg8) :=
  keeps_ops Y main_arg8 (by decide) (by decide) (by decide) (by decide) (by decide) (by decide) (by decide) (by decide) (by decide) (by decide) (by decide) (by decide)

theorem arg_kept_9 (Y : Valuation τ sig (Elt F)) :
    after (ops (F := F)) Y (Proc.devRef .tc main_arg9) = Y (Proc.devRef .tc main_arg9) :=
  keeps_ops Y main_arg9 (by decide) (by decide) (by decide) (by decide) (by decide) (by decide) (by decide) (by decide) (by decide) (by decide) (by decide) (by decide)

theorem arg_kept_10 (Y : Valuation τ sig (Elt F)) :
    after (ops (F := F)) Y (Proc.devRef .tc main_arg10) = Y (Proc.devRef .tc main_arg10) :=
  keeps_ops Y main_arg10 (by decide) (by decide) (by decide) (by decide) (by decide) (by decide) (by decide) (by decide) (by decide) (by decide) (by decide) (by decide)

theorem arg_kept_11 (Y : Valuation τ sig (Elt F)) :
    after (ops (F := F)) Y (Proc.devRef .tc main_arg11) = Y (Proc.devRef .tc main_arg11) :=
  keeps_ops Y main_arg11 (by decide) (by decide) (by decide) (by decide) (by decide) (by decide) (by decide) (by decide) (by decide) (by decide) (by decide) (by decide)

theorem arg_kept_12 (Y : Valuation τ sig (Elt F)) :
    after (ops (F := F)) Y (Proc.devRef .tc main_arg12) = Y (Proc.devRef .tc main_arg12) :=
  keeps_ops Y main_arg12 (by decide) (by decide) (by decide) (by decide) (by decide) (by decide) (by decide) (by decide) (by decide) (by decide) (by decide) (by decide)

theorem arg_kept_13 (Y : Valuation τ sig (Elt F)) :
    after (ops (F := F)) Y (Proc.devRef .tc main_arg13) = Y (Proc.devRef .tc main_arg13) :=
  keeps_ops Y main_arg13 (by decide) (by decide) (by decide) (by decide) (by decide) (by decide) (by decide) (by decide) (by decide) (by decide) (by decide) (by decide)

theorem arg_kept_14 (Y : Valuation τ sig (Elt F)) :
    after (ops (F := F)) Y (Proc.devRef .tc main_arg14) = Y (Proc.devRef .tc main_arg14) :=
  keeps_ops Y main_arg14 (by decide) (by decide) (by decide) (by decide) (by decide) (by decide) (by decide) (by decide) (by decide) (by decide) (by decide) (by decide)

theorem arg_kept_15 (Y : Valuation τ sig (Elt F)) :
    after (ops (F := F)) Y (Proc.devRef .tc main_arg15) = Y (Proc.devRef .tc main_arg15) :=
  keeps_ops Y main_arg15 (by decide) (by decide) (by decide) (by decide) (by decide) (by decide) (by decide) (by decide) (by decide) (by decide) (by decide) (by decide)

theorem arg_kept_16 (Y : Valuation τ sig (Elt F)) :
    after (ops (F := F)) Y (Proc.devRef .tc main_arg16) = Y (Proc.devRef .tc main_arg16) :=
  keeps_ops Y main_arg16 (by decide) (by decide) (by decide) (by decide) (by decide) (by decide) (by decide) (by decide) (by decide) (by decide) (by decide) (by decide)

theorem arg_kept_17 (Y : Valuation τ sig (Elt F)) :
    after (ops (F := F)) Y (Proc.devRef .tc main_arg17) = Y (Proc.devRef .tc main_arg17) :=
  keeps_ops Y main_arg17 (by decide) (by decide) (by decide) (by decide) (by decide) (by decide) (by decide) (by decide) (by decide) (by decide) (by decide) (by decide)

theorem arg_kept_18 (Y : Valuation τ sig (Elt F)) :
    after (ops (F := F)) Y (Proc.devRef .tc main_arg18) = Y (Proc.devRef .tc main_arg18) :=
  keeps_ops Y main_arg18 (by decide) (by decide) (by decide) (by decide) (by decide) (by decide) (by decide) (by decide) (by decide) (by decide) (by decide) (by decide)

theorem arg_kept_19 (Y : Valuation τ sig (Elt F)) :
    after (ops (F := F)) Y (Proc.devRef .tc main_arg19) = Y (Proc.devRef .tc main_arg19) :=
  keeps_ops Y main_arg19 (by decide) (by decide) (by decide) (by decide) (by decide) (by decide) (by decide) (by decide) (by decide) (by decide) (by decide) (by decide)

theorem arg_kept_20 (Y : Valuation τ sig (Elt F)) :
    after (ops (F := F)) Y (Proc.devRef .tc main_arg20) = Y (Proc.devRef .tc main_arg20) :=
  keeps_ops Y main_arg20 (by decide) (by decide) (by decide) (by decide) (by decide) (by decide) (by decide) (by decide) (by decide) (by decide) (by decide) (by decide)

end Cert.ReferenceIdeal.Keeps

end
-- ==== Proof.Bridge.lean ====
/-
  The idealized kernel and the idealized reference compute the same two arrays.

  Both programs are lines of pure operations on whole arrays (the kernel's regions read as operations). Run from
  contents that agree on the 21 arguments, they stay in step, stretch by stretch:
  * the embedding lookup, the edge gather, the scatter-adds, the degree and the mean are the same host operations in
    both programs, so equal inputs give equal results (compared as whole operations, never opened);
  * a graph-convolution layer is, in the kernel, the region's layer of its input arrays and, in the reference, two
    host products, the bias row and a cut-off at 0: both are Spec.sage of the same arrays — the bias row is the bias
    vector reshaped to [1,128] in the kernel and broadcast to [1,128] in the reference, the same array;
  * the pooling by graph is shared host code again;
  * the head is Spec.hidden / Spec.logp of the pooled features and the ten weight and bias arrays on both sides.
  No stretch writes an argument, so the agreement on the arguments is carried through every stretch.
-/
import proofs.«176873_j75763223102156_1_alg».proof.Proof.KernelLine
import proofs.«176873_j75763223102156_1_alg».proof.Proof.KernelKeeps
import proofs.«176873_j75763223102156_1_alg».proof.Proof.SharedPrefix
import proofs.«176873_j75763223102156_1_alg».proof.Proof.SharedMid
import proofs.«176873_j75763223102156_1_alg».proof.Proof.RefDense
import proofs.«176873_j75763223102156_1_alg».proof.Proof.RefKeeps
import proofs.«176873_j75763223102156_1_alg».proof.Proof.LibAffineStage

set_option maxRecDepth 16384

noncomputable section

namespace Cert.Bridge

open Idealize.ShloMosaic Idealize.ShloMosaic.TcCoe Idealize.ShloMosaic.StableHlo

/-- Buffer contents of the idealized kernel's, and of the idealized reference's, TensorCore. -/
abbrev KV := Valuation Cert.KernelIdeal.τ Cert.KernelIdeal.sig (Elt Ideal)
abbrev RV := Valuation Cert.ReferenceIdeal.τ Cert.ReferenceIdeal.sig (Elt Ideal)

/-- The two contents agree on the 21 argument arrays. -/
structure Agree (X : KV) (Y : RV) : Prop where
  a0 : X (Proc.devRef .tc Cert.KernelIdeal.main_arg0) = Y (Proc.devRef .tc Cert.ReferenceIdeal.main_arg0)
  a1 : X (Proc.devRef .tc Cert.KernelIdeal.main_arg1) = Y (Proc.devRef .tc Cert.ReferenceIdeal.main_arg1)
  a2 : X (Proc.devRef .tc Cert.KernelIdeal.main_arg2) = Y (Proc.devRef .tc Cert.ReferenceIdeal.main_arg2)
  a3 : X (Proc.devRef .tc Cert.KernelIdeal.main_arg3) = Y (Proc.devRef .tc Cert.ReferenceIdeal.main_arg3)
  a4 : X (Proc.devRef .tc Cert.KernelIdeal.main_arg4) = Y (Proc.devRef .tc Cert.ReferenceIdeal.main_arg4)
  a5 : X (Proc.devRef .tc Cert.KernelIdeal.main_arg5) = Y (Proc.devRef .tc Cert.ReferenceIdeal.main_arg5)
  a6 : X (Proc.devRef .tc Cert.KernelIdeal.main_arg6) = Y (Proc.devRef .tc Cert.ReferenceIdeal.main_arg6)
  a7 : X (Proc.devRef .tc Cert.KernelIdeal.main_arg7) = Y (Proc.devRef .tc Cert.ReferenceIdeal.main_arg7)
  a8 : X (Proc.devRef .tc Cert.KernelIdeal.main_arg8) = Y (Proc.devRef .tc Cert.ReferenceIdeal.main_arg8)
  a9 : X (Proc.devRef .tc Cert.KernelIdeal.main_arg9) = Y (Proc.devRef .tc Cert.ReferenceIdeal.main_arg9)
  a10 : X (Proc.devRef .tc Cert.KernelIdeal.main_arg10) = Y (Proc.devRef .tc Cert.ReferenceIdeal.main_arg10)
  a11 : X (Proc.devRef .tc Cert.KernelIdeal.main_arg11) = Y (Proc.devRef .tc Cert.ReferenceIdeal.main_arg11)
  a12 : X (Proc.devRef .tc Cert.KernelIdeal.main_arg12) = Y (Proc.devRef .tc Cert.ReferenceIdeal.main_arg12)
  a13 : X (Proc.devRef .tc Cert.KernelIdeal.main_arg13) = Y (Proc.devRef .tc Cert.ReferenceIdeal.main_arg13)
  a14 : X (Proc.devRef .tc Cert.KernelIdeal.main_arg14) = Y (Proc.devRef .tc Cert.ReferenceIdeal.main_arg14)
  a15 : X (Proc.devRef .tc Cert.KernelIdeal.main_arg15) = Y (Proc.devRef .tc Cert.ReferenceIdeal.main_arg15)
  a16 : X (Proc.devRef .tc Cert.KernelIdeal.main_arg16) = Y (Proc.devRef .tc Cert.ReferenceIdeal.main_arg16)
  a17 : X (Proc.devRef .tc Cert.KernelIdeal.main_arg17) = Y (Proc.devRef .tc Cert.ReferenceIdeal.main_arg17)
  a18 : X (Proc.devRef .tc Cert.KernelIdeal.main_arg18) = Y (Proc.devRef .tc Cert.ReferenceIdeal.main_arg18)
  a19 : X (Proc.devRef .tc Cert.KernelIdeal.main_arg19) = Y (Proc.devRef .tc Cert.ReferenceIdeal.main_arg19)
  a20 : X (Proc.devRef .tc Cert.KernelIdeal.main_arg20) = Y (Proc.devRef .tc Cert.ReferenceIdeal.main_arg20)

/-! ## No stretch writes an argument: the agreement is carried through every stretch, on either side -/

theorem agreeK_hostOps0 {X : KV} {Y : RV} (H : Agree X Y) : Agree (after (Cert.KernelIdeal.Gen.hostOps0 (F := Ideal)) X) Y where
  a0 := (Cert.KernelIdeal.Keeps.keeps_hostOps0 X _ (by decide)).trans H.a0
  a1 := (Cert.KernelIdeal.Keeps.keeps_hostOps0 X _ (by decide)).trans H.a1
  a2 := (Cert.KernelIdeal.Keeps.keeps_hostOps0 X _ (by decide)).trans H.a2
  a3 := (Cert.KernelIdeal.Keeps.keeps_hostOps0 X _ (by decide)).trans H.a3
  a4 := (Cert.KernelIdeal.Keeps.keeps_hostOps0 X _ (by decide)).trans H.a4
  a5 := (Cert.KernelIdeal.Keeps.keeps_hostOps0 X _ (by decide)).trans H.a5
  a6 := (Cert.KernelIdeal.Keeps.keeps_hostOps0 X _ (by decide)).trans H.a6
  a7 := (Cert.KernelIdeal.Keeps.keeps_hostOps0 X _ (by decide)).trans H.a7
  a8 := (Cert.KernelIdeal.Keeps.keeps_hostOps0 X _ (by decide)).trans H.a8
  a9 := (Cert.KernelIdeal.Keeps.keeps_hostOps0 X _ (by decide)).trans H.a9
  a10 := (Cert.KernelIdeal.Keeps.keeps_hostOps0 X _ (by decide)).trans H.a10
  a11 := (Cert.KernelIdeal.Keeps.keeps_hostOps0 X _ (by decide)).trans H.a11
  a12 := (Cert.KernelIdeal.Keeps.keeps_hostOps0 X _ (by decide)).trans H.a12
  a13 := (Cert.KernelIdeal.Keeps.keeps_hostOps0 X _ (by decide)).trans H.a13
  a14 := (Cert.KernelIdeal.Keeps.keeps_hostOps0 X _ (by decide)).trans H.a14
  a15 := (Cert.KernelIdeal.Keeps.keeps_hostOps0 X _ (by decide)).trans H.a15
  a16 := (Cert.KernelIdeal.Keeps.keeps_hostOps0 X _ (by decide)).trans H.a16
  a17 := (Cert.KernelIdeal.Keeps.keeps_hostOps0 X _ (by decide)).trans H.a17
  a18 := (Cert.KernelIdeal.Keeps.keeps_hostOps0 X _ (by decide)).trans H.a18
  a19 := (Cert.KernelIdeal.Keeps.keeps_hostOps0 X _ (by decide)).trans H.a19
  a20 := (Cert.KernelIdeal.Keeps.keeps_hostOps0 X _ (by decide)).trans H.a20

theorem agreeK_hostOps0_1 {X : KV} {Y : RV} (H : Agree X Y) : Agree (after (Cert.KernelIdeal.Gen.hostOps0_1 (F := Ideal)) X) Y where
  a0 := (Cert.KernelIdeal.Keeps.keeps_hostOps0_1 X _ (by decide)).trans H.a0
  a1 := (Cert.KernelIdeal.Keeps.keeps_hostOps0_1 X _ (by decide)).trans H.a1
  a2 := (Cert.KernelIdeal.Keeps.keeps_hostOps0_1 X _ (by decide)).trans H.a2
  a3 := (Cert.KernelIdeal.Keeps.keeps_hostOps0_1 X _ (by decide)).trans H.a3
  a4 := (Cert.KernelIdeal.Keeps.keeps_hostOps0_1 X _ (by decide)).trans H.a4
  a5 := (Cert.KernelIdeal.Keeps.keeps_hostOps0_1 X _ (by decide)).trans H.a5
  a6 := (Cert.KernelIdeal.Keeps.keeps_hostOps0_1 X _ (by decide)).trans H.a6
  a7 := (Cert.KernelIdeal.Keeps.keeps_hostOps0_1 X _ (by decide)).trans H.a7
  a8 := (Cert.KernelIdeal.Keeps.keeps_hostOps0_1 X _ (by decide)).trans H.a8
  a9 := (Cert.KernelIdeal.Keeps.keeps_hostOps0_1 X _ (by decide)).trans H.a9
  a10 := (Cert.KernelIdeal.Keeps.keeps_hostOps0_1 X _ (by decide)).trans H.a10
  a11 := (Cert.KernelIdeal.Keeps.keeps_hostOps0_1 X _ (by decide)).trans H.a11
  a12 := (Cert.KernelIdeal.Keeps.keeps_hostOps0_1 X _ (by decide)).trans H.a12
  a13 := (Cert.KernelIdeal.Keeps.keeps_hostOps0_1 X _ (by decide)).trans H.a13
  a14 := (Cert.KernelIdeal.Keeps.keeps_hostOps0_1 X _ (by decide)).trans H.a14
  a15 := (Cert.KernelIdeal.Keeps.keeps_hostOps0_1 X _ (by decide)).trans H.a15
  a16 := (Cert.KernelIdeal.Keeps.keeps_hostOps0_1 X _ (by decide)).trans H.a16
  a17 := (Cert.KernelIdeal.Keeps.keeps_hostOps0_1 X _ (by decide)).trans H.a17
  a18 := (Cert.KernelIdeal.Keeps.keeps_hostOps0_1 X _ (by decide)).trans H.a18
  a19 := (Cert.KernelIdeal.Keeps.keeps_hostOps0_1 X _ (by decide)).trans H.a19
  a20 := (Cert.KernelIdeal.Keeps.keeps_hostOps0_1 X _ (by decide)).trans H.a20

theorem agreeK_hostOps0_2 {X : KV} {Y : RV} (H : Agree X Y) : Agree (after (Cert.KernelIdeal.Gen.hostOps0_2 (F := Ideal)) X) Y where
  a0 := (Cert.KernelIdeal.Keeps.keeps_hostOps0_2 X _ (by decide)).trans H.a0
  a1 := (Cert.KernelIdeal.Keeps.keeps_hostOps0_2 X _ (by decide)).trans H.a1
  a2 := (Cert.KernelIdeal.Keeps.keeps_hostOps0_2 X _ (by decide)).trans H.a2
  a3 := (Cert.KernelIdeal.Keeps.keeps_hostOps0_2 X _ (by decide)).trans H.a3
  a4 := (Cert.KernelIdeal.Keeps.keeps_hostOps0_2 X _ (by decide)).trans H.a4
  a5 := (Cert.KernelIdeal.Keeps.keeps_hostOps0_2 X _ (by decide)).trans H.a5
  a6 := (Cert.KernelIdeal.Keeps.keeps_hostOps0_2 X _ (by decide)).trans H.a6
  a7 := (Cert.KernelIdeal.Keeps.keeps_hostOps0_2 X _ (by decide)).trans H.a7
  a8 := (Cert.KernelIdeal.Keeps.keeps_hostOps0_2 X _ (by decide)).trans H.a8
  a9 := (Cert.KernelIdeal.Keeps.keeps_hostOps0_2 X _ (by decide)).trans H.a9
  a10 := (Cert.KernelIdeal.Keeps.keeps_hostOps0_2 X _ (by decide)).trans H.a10
  a11 := (Cert.KernelIdeal.Keeps.keeps_hostOps0_2 X _ (by decide)).trans H.a11
  a12 := (Cert.KernelIdeal.Keeps.keeps_hostOps0_2 X _ (by decide)).trans H.a12
  a13 := (Cert.KernelIdeal.Keeps.keeps_hostOps0_2 X _ (by decide)).trans H.a13
  a14 := (Cert.KernelIdeal.Keeps.keeps_hostOps0_2 X _ (by decide)).trans H.a14
  a15 := (Cert.KernelIdeal.Keeps.keeps_hostOps0_2 X _ (by decide)).trans H.a15
  a16 := (Cert.KernelIdeal.Keeps.keeps_hostOps0_2 X _ (by decide)).trans H.a16
  a17 := (Cert.KernelIdeal.Keeps.keeps_hostOps0_2 X _ (by decide)).trans H.a17
  a18 := (Cert.KernelIdeal.Keeps.keeps_hostOps0_2 X _ (by decide)).trans H.a18
  a19 := (Cert.KernelIdeal.Keeps.keeps_hostOps0_2 X _ (by decide)).trans H.a19
  a20 := (Cert.KernelIdeal.Keeps.keeps_hostOps0_2 X _ (by decide)).trans H.a20

theorem agreeK_hostOps1 {X : KV} {Y : RV} (H : Agree X Y) : Agree (after (Cert.KernelIdeal.Gen.hostOps1 (F := Ideal)) X) Y where
  a0 := (Cert.KernelIdeal.Keeps.keeps_hostOps1 X _ (by decide)).trans H.a0
  a1 := (Cert.KernelIdeal.Keeps.keeps_hostOps1 X _ (by decide)).trans H.a1
  a2 := (Cert.KernelIdeal.Keeps.keeps_hostOps1 X _ (by decide)).trans H.a2
  a3 := (Cert.KernelIdeal.Keeps.keeps_hostOps1 X _ (by decide)).trans H.a3
  a4 := (Cert.KernelIdeal.Keeps.keeps_hostOps1 X _ (by decide)).trans H.a4
  a5 := (Cert.KernelIdeal.Keeps.keeps_hostOps1 X _ (by decide)).trans H.a5
  a6 := (Cert.KernelIdeal.Keeps.keeps_hostOps1 X _ (by decide)).trans H.a6
  a7 := (Cert.KernelIdeal.Keeps.keeps_hostOps1 X _ (by decide)).trans H.a7
  a8 := (Cert.KernelIdeal.Keeps.keeps_hostOps1 X _ (by decide)).trans H.a8
  a9 := (Cert.KernelIdeal.Keeps.keeps_hostOps1 X _ (by decide)).trans H.a9
  a10 := (Cert.KernelIdeal.Keeps.keeps_hostOps1 X _ (by decide)).trans H.a10
  a11 := (Cert.KernelIdeal.Keeps.keeps_hostOps1 X _ (by decide)).trans H.a11
  a12 := (Cert.KernelIdeal.Keeps.keeps_hostOps1 X _ (by decide)).trans H.a12
  a13 := (Cert.KernelIdeal.Keeps.keeps_hostOps1 X _ (by decide)).trans H.a13
  a14 := (Cert.KernelIdeal.Keeps.keeps_hostOps1 X _ (by decide)).trans H.a14
  a15 := (Cert.KernelIdeal.Keeps.keeps_hostOps1 X _ (by decide)).trans H.a15
  a16 := (Cert.KernelIdeal.Keeps.keeps_hostOps1 X _ (by decide)).trans H.a16
  a17 := (Cert.KernelIdeal.Keeps.keeps_hostOps1 X _ (by decide)).trans H.a17
  a18 := (Cert.KernelIdeal.Keeps.keeps_hostOps1 X _ (by decide)).trans H.a18
  a19 := (Cert.KernelIdeal.Keeps.keeps_hostOps1 X _ (by decide)).trans H.a19
  a20 := (Cert.KernelIdeal.Keeps.keeps_hostOps1 X _ (by decide)).trans H.a20

theorem agreeK_hostOps1_1 {X : KV} {Y : RV} (H : Agree X Y) : Agree (after (Cert.KernelIdeal.Gen.hostOps1_1 (F := Ideal)) X) Y where
  a0 := (Cert.KernelIdeal.Keeps.keeps_hostOps1_1 X _ (by decide)).trans H.a0
  a1 := (Cert.KernelIdeal.Keeps.keeps_hostOps1_1 X _ (by decide)).trans H.a1
  a2 := (Cert.KernelIdeal.Keeps.keeps_hostOps1_1 X _ (by decide)).trans H.a2
  a3 := (Cert.KernelIdeal.Keeps.keeps_hostOps1_1 X _ (by decide)).trans H.a3
  a4 := (Cert.KernelIdeal.Keeps.keeps_hostOps1_1 X _ (by decide)).trans H.a4
  a5 := (Cert.KernelIdeal.Keeps.keeps_hostOps1_1 X _ (by decide)).trans H.a5
  a6 := (Cert.KernelIdeal.Keeps.keeps_hostOps1_1 X _ (by decide)).trans H.a6
  a7 := (Cert.KernelIdeal.Keeps.keeps_hostOps1_1 X _ (by decide)).trans H.a7
  a8 := (Cert.KernelIdeal.Keeps.keeps_hostOps1_1 X _ (by decide)).trans H.a8
  a9 := (Cert.KernelIdeal.Keeps.keeps_hostOps1_1 X _ (by decide)).trans H.a9
  a10 := (Cert.KernelIdeal.Keeps.keeps_hostOps1_1 X _ (by decide)).trans H.a10
  a11 := (Cert.KernelIdeal.Keeps.keeps_hostOps1_1 X _ (by decide)).trans H.a11
  a12 := (Cert.KernelIdeal.Keeps.keeps_hostOps1_1 X _ (by decide)).trans H.a12
  a13 := (Cert.KernelIdeal.Keeps.keeps_hostOps1_1 X _ (by decide)).trans H.a13
  a14 := (Cert.KernelIdeal.Keeps.keeps_hostOps1_1 X _ (by decide)).trans H.a14
  a15 := (Cert.KernelIdeal.Keeps.keeps_hostOps1_1 X _ (by decide)).trans H.a15
  a16 := (Cert.KernelIdeal.Keeps.keeps_hostOps1_1 X _ (by decide)).trans H.a16
  a17 := (Cert.KernelIdeal.Keeps.keeps_hostOps1_1 X _ (by decide)).trans H.a17
  a18 := (Cert.KernelIdeal.Keeps.keeps_hostOps1_1 X _ (by decide)).trans H.a18
  a19 := (Cert.KernelIdeal.Keeps.keeps_hostOps1_1 X _ (by decide)).trans H.a19
  a20 := (Cert.KernelIdeal.Keeps.keeps_hostOps1_1 X _ (by decide)).trans H.a20

theorem agreeK_hostOps2 {X : KV} {Y : RV} (H : Agree X Y) : Agree (after (Cert.KernelIdeal.Gen.hostOps2 (F := Ideal)) X) Y where
  a0 := (Cert.KernelIdeal.Keeps.keeps_hostOps2 X _ (by decide)).trans H.a0
  a1 := (Cert.KernelIdeal.Keeps.keeps_hostOps2 X _ (by decide)).trans H.a1
  a2 := (Cert.KernelIdeal.Keeps.keeps_hostOps2 X _ (by decide)).trans H.a2
  a3 := (Cert.KernelIdeal.Keeps.keeps_hostOps2 X _ (by decide)).trans H.a3
  a4 := (Cert.KernelIdeal.Keeps.keeps_hostOps2 X _ (by decide)).trans H.a4
  a5 := (Cert.KernelIdeal.Keeps.keeps_hostOps2 X _ (by decide)).trans H.a5
  a6 := (Cert.KernelIdeal.Keeps.keeps_hostOps2 X _ (by decide)).trans H.a6
  a7 := (Cert.KernelIdeal.Keeps.keeps_hostOps2 X _ (by decide)).trans H.a7
  a8 := (Cert.KernelIdeal.Keeps.keeps_hostOps2 X _ (by decide)).trans H.a8
  a9 := (Cert.KernelIdeal.Keeps.keeps_hostOps2 X _ (by decide)).trans H.a9
  a10 := (Cert.KernelIdeal.Keeps.keeps_hostOps2 X _ (by decide)).trans H.a10
  a11 := (Cert.KernelIdeal.Keeps.keeps_hostOps2 X _ (by decide)).trans H.a11
  a12 := (Cert.KernelIdeal.Keeps.keeps_hostOps2 X _ (by decide)).trans H.a12
  a13 := (Cert.KernelIdeal.Keeps.keeps_hostOps2 X _ (by decide)).trans H.a13
  a14 := (Cert.KernelIdeal.Keeps.keeps_hostOps2 X _ (by decide)).trans H.a14
  a15 := (Cert.KernelIdeal.Keeps.keeps_hostOps2 X _ (by decide)).trans H.a15
  a16 := (Cert.KernelIdeal.Keeps.keeps_hostOps2 X _ (by decide)).trans H.a16
  a17 := (Cert.KernelIdeal.Keeps.keeps_hostOps2 X _ (by decide)).trans H.a17
  a18 := (Cert.KernelIdeal.Keeps.keeps_hostOps2 X _ (by decide)).trans H.a18
  a19 := (Cert.KernelIdeal.Keeps.keeps_hostOps2 X _ (by decide)).trans H.a19
  a20 := (Cert.KernelIdeal.Keeps.keeps_hostOps2 X _ (by decide)).trans H.a20

theorem agreeK_op0 {X : KV} {Y : RV} (H : Agree X Y) : Agree (after [Cert.KernelIdeal.Line.op0] X) Y where
  a0 := (Cert.KernelIdeal.Line.op0_other X _ (by decide)).trans H.a0
  a1 := (Cert.KernelIdeal.Line.op0_other X _ (by decide)).trans H.a1
  a2 := (Cert.KernelIdeal.Line.op0_other X _ (by decide)).trans H.a2
  a3 := (Cert.KernelIdeal.Line.op0_other X _ (by decide)).trans H.a3
  a4 := (Cert.KernelIdeal.Line.op0_other X _ (by decide)).trans H.a4
  a5 := (Cert.KernelIdeal.Line.op0_other X _ (by decide)).trans H.a5
  a6 := (Cert.KernelIdeal.Line.op0_other X _ (by decide)).trans H.a6
  a7 := (Cert.KernelIdeal.Line.op0_other X _ (by decide)).trans H.a7
  a8 := (Cert.KernelIdeal.Line.op0_other X _ (by decide)).trans H.a8
  a9 := (Cert.KernelIdeal.Line.op0_other X _ (by decide)).trans H.a9
  a10 := (Cert.KernelIdeal.Line.op0_other X _ (by decide)).trans H.a10
  a11 := (Cert.KernelIdeal.Line.op0_other X _ (by decide)).trans H.a11
  a12 := (Cert.KernelIdeal.Line.op0_other X _ (by decide)).trans H.a12
  a13 := (Cert.KernelIdeal.Line.op0_other X _ (by decide)).trans H.a13
  a14 := (Cert.KernelIdeal.Line.op0_other X _ (by decide)).trans H.a14
  a15 := (Cert.KernelIdeal.Line.op0_other X _ (by decide)).trans H.a15
  a16 := (Cert.KernelIdeal.Line.op0_other X _ (by decide)).trans H.a16
  a17 := (Cert.KernelIdeal.Line.op0_other X _ (by decide)).trans H.a17
  a18 := (Cert.KernelIdeal.Line.op0_other X _ (by decide)).trans H.a18
  a19 := (Cert.KernelIdeal.Line.op0_other X _ (by decide)).trans H.a19
  a20 := (Cert.KernelIdeal.Line.op0_other X _ (by decide)).trans H.a20

theorem agreeK_op1 {X : KV} {Y : RV} (H : Agree X Y) : Agree (after [Cert.KernelIdeal.Line.op1] X) Y where
  a0 := (Cert.KernelIdeal.Line.op1_other X _ (by decide)).trans H.a0
  a1 := (Cert.KernelIdeal.Line.op1_other X _ (by decide)).trans H.a1
  a2 := (Cert.KernelIdeal.Line.op1_other X _ (by decide)).trans H.a2
  a3 := (Cert.KernelIdeal.Line.op1_other X _ (by decide)).trans H.a3
  a4 := (Cert.KernelIdeal.Line.op1_other X _ (by decide)).trans H.a4
  a5 := (Cert.KernelIdeal.Line.op1_other X _ (by decide)).trans H.a5
  a6 := (Cert.KernelIdeal.Line.op1_other X _ (by decide)).trans H.a6
  a7 := (Cert.KernelIdeal.Line.op1_other X _ (by decide)).trans H.a7
  a8 := (Cert.KernelIdeal.Line.op1_other X _ (by decide)).trans H.a8
  a9 := (Cert.KernelIdeal.Line.op1_other X _ (by decide)).trans H.a9
  a10 := (Cert.KernelIdeal.Line.op1_other X _ (by decide)).trans H.a10
  a11 := (Cert.KernelIdeal.Line.op1_other X _ (by decide)).trans H.a11
  a12 := (Cert.KernelIdeal.Line.op1_other X _ (by decide)).trans H.a12
  a13 := (Cert.KernelIdeal.Line.op1_other X _ (by decide)).trans H.a13
  a14 := (Cert.KernelIdeal.Line.op1_other X _ (by decide)).trans H.a14
  a15 := (Cert.KernelIdeal.Line.op1_other X _ (by decide)).trans H.a15
  a16 := (Cert.KernelIdeal.Line.op1_other X _ (by decide)).trans H.a16
  a17 := (Cert.KernelIdeal.Line.op1_other X _ (by decide)).trans H.a17
  a18 := (Cert.KernelIdeal.Line.op1_other X _ (by decide)).trans H.a18
  a19 := (Cert.KernelIdeal.Line.op1_other X _ (by decide)).trans H.a19
  a20 := (Cert.KernelIdeal.Line.op1_other X _ (by decide)).trans H.a20

theorem agreeK_op2 {X : KV} {Y : RV} (H : Agree X Y) : Agree (after [Cert.KernelIdeal.Line.op2h, Cert.KernelIdeal.Line.op2l] X) Y where
  a0 := (Cert.KernelIdeal.Line.op2_other X _ (by decide) (by decide)).trans H.a0
  a1 := (Cert.KernelIdeal.Line.op2_other X _ (by decide) (by decide)).trans H.a1
  a2 := (Cert.KernelIdeal.Line.op2_other X _ (by decide) (by decide)).trans H.a2
  a3 := (Cert.KernelIdeal.Line.op2_other X _ (by decide) (by decide)).trans H.a3
  a4 := (Cert.KernelIdeal.Line.op2_other X _ (by decide) (by decide)).trans H.a4
  a5 := (Cert.KernelIdeal.Line.op2_other X _ (by decide) (by decide)).trans H.a5
  a6 := (Cert.KernelIdeal.Line.op2_other X _ (by decide) (by decide)).trans H.a6
  a7 := (Cert.KernelIdeal.Line.op2_other X _ (by decide) (by decide)).trans H.a7
  a8 := (Cert.KernelIdeal.Line.op2_other X _ (by decide) (by decide)).trans H.a8
  a9 := (Cert.KernelIdeal.Line.op2_other X _ (by decide) (by decide)).trans H.a9
  a10 := (Cert.KernelIdeal.Line.op2_other X _ (by decide) (by decide)).trans H.a10
  a11 := (Cert.KernelIdeal.Line.op2_other X _ (by decide) (by decide)).trans H.a11
  a12 := (Cert.KernelIdeal.Line.op2_other X _ (by decide) (by decide)).trans H.a12
  a13 := (Cert.KernelIdeal.Line.op2_other X _ (by decide) (by decide)).trans H.a13
  a14 := (Cert.KernelIdeal.Line.op2_other X _ (by decide) (by decide)).trans H.a14
  a15 := (Cert.KernelIdeal.Line.op2_other X _ (by decide) (by decide)).trans H.a15
  a16 := (Cert.KernelIdeal.Line.op2_other X _ (by decide) (by decide)).trans H.a16
  a17 := (Cert.KernelIdeal.Line.op2_other X _ (by decide) (by decide)).trans H.a17
  a18 := (Cert.KernelIdeal.Line.op2_other X _ (by decide) (by decide)).trans H.a18
  a19 := (Cert.KernelIdeal.Line.op2_other X _ (by decide) (by decide)).trans H.a19
  a20 := (Cert.KernelIdeal.Line.op2_other X _ (by decide) (by decide)).trans H.a20

theorem agreeR_opsA {X : KV} {Y : RV} (H : Agree X Y) : Agree X (after (Cert.ReferenceIdeal.Hand.opsA (F := Ideal)) Y) where
  a0 := H.a0.trans (Cert.ReferenceIdeal.Keeps.keeps_opsA Y _ (by decide)).symm
  a1 := H.a1.trans (Cert.ReferenceIdeal.Keeps.keeps_opsA Y _ (by decide)).symm
  a2 := H.a2.trans (Cert.ReferenceIdeal.Keeps.keeps_opsA Y _ (by decide)).symm
  a3 := H.a3.trans (Cert.ReferenceIdeal.Keeps.keeps_opsA Y _ (by decide)).symm
  a4 := H.a4.trans (Cert.ReferenceIdeal.Keeps.keeps_opsA Y _ (by decide)).symm
  a5 := H.a5.trans (Cert.ReferenceIdeal.Keeps.keeps_opsA Y _ (by decide)).symm
  a6 := H.a6.trans (Cert.ReferenceIdeal.Keeps.keeps_opsA Y _ (by decide)).symm
  a7 := H.a7.trans (Cert.ReferenceIdeal.Keeps.keeps_opsA Y _ (by decide)).symm
  a8 := H.a8.trans (Cert.ReferenceIdeal.Keeps.keeps_opsA Y _ (by decide)).symm
  a9 := H.a9.trans (Cert.ReferenceIdeal.Keeps.keeps_opsA Y _ (by decide)).symm
  a10 := H.a10.trans (Cert.ReferenceIdeal.Keeps.keeps_opsA Y _ (by decide)).symm
  a11 := H.a11.trans (Cert.ReferenceIdeal.Keeps.keeps_opsA Y _ (by decide)).symm
  a12 := H.a12.trans (Cert.ReferenceIdeal.Keeps.keeps_opsA Y _ (by decide)).symm
  a13 := H.a13.trans (Cert.ReferenceIdeal.Keeps.keeps_opsA Y _ (by decide)).symm
  a14 := H.a14.trans (Cert.ReferenceIdeal.Keeps.keeps_opsA Y _ (by decide)).symm
  a15 := H.a15.trans (Cert.ReferenceIdeal.Keeps.keeps_opsA Y _ (by decide)).symm
  a16 := H.a16.trans (Cert.ReferenceIdeal.Keeps.keeps_opsA Y _ (by decide)).symm
  a17 := H.a17.trans (Cert.ReferenceIdeal.Keeps.keeps_opsA Y _ (by decide)).symm
  a18 := H.a18.trans (Cert.ReferenceIdeal.Keeps.keeps_opsA Y _ (by decide)).symm
  a19 := H.a19.trans (Cert.ReferenceIdeal.Keeps.keeps_opsA Y _ (by decide)).symm
  a20 := H.a20.trans (Cert.ReferenceIdeal.Keeps.keeps_opsA Y _ (by decide)).symm

theorem agreeR_opsB {X : KV} {Y : RV} (H : Agree X Y) : Agree X (after (Cert.ReferenceIdeal.Hand.opsB (F := Ideal)) Y) where
  a0 := H.a0.trans (Cert.ReferenceIdeal.Keeps.keeps_opsB Y _ (by decide)).symm
  a1 := H.a1.trans (Cert.ReferenceIdeal.Keeps.keeps_opsB Y _ (by decide)).symm
  a2 := H.a2.trans (Cert.ReferenceIdeal.Keeps.keeps_opsB Y _ (by decide)).symm
  a3 := H.a3.trans (Cert.ReferenceIdeal.Keeps.keeps_opsB Y _ (by decide)).symm
  a4 := H.a4.trans (Cert.ReferenceIdeal.Keeps.keeps_opsB Y _ (by decide)).symm
  a5 := H.a5.trans (Cert.ReferenceIdeal.Keeps.keeps_opsB Y _ (by decide)).symm
  a6 := H.a6.trans (Cert.ReferenceIdeal.Keeps.keeps_opsB Y _ (by decide)).symm
  a7 := H.a7.trans (Cert.ReferenceIdeal.Keeps.keeps_opsB Y _ (by decide)).symm
  a8 := H.a8.trans (Cert.ReferenceIdeal.Keeps.keeps_opsB Y _ (by decide)).symm
  a9 := H.a9.trans (Cert.ReferenceIdeal.Keeps.keeps_opsB Y _ (by decide)).symm
  a10 := H.a10.trans (Cert.ReferenceIdeal.Keeps.keeps_opsB Y _ (by decide)).symm
  a11 := H.a11.trans (Cert.ReferenceIdeal.Keeps.keeps_opsB Y _ (by decide)).symm
  a12 := H.a12.trans (Cert.ReferenceIdeal.Keeps.keeps_opsB Y _ (by decide)).symm
  a13 := H.a13.trans (Cert.ReferenceIdeal.Keeps.keeps_opsB Y _ (by decide)).symm
  a14 := H.a14.trans (Cert.ReferenceIdeal.Keeps.keeps_opsB Y _ (by decide)).symm
  a15 := H.a15.trans (Cert.ReferenceIdeal.Keeps.keeps_opsB Y _ (by decide)).symm
  a16 := H.a16.trans (Cert.ReferenceIdeal.Keeps.keeps_opsB Y _ (by decide)).symm
  a17 := H.a17.trans (Cert.ReferenceIdeal.Keeps.keeps_opsB Y _ (by decide)).symm
  a18 := H.a18.trans (Cert.ReferenceIdeal.Keeps.keeps_opsB Y _ (by decide)).symm
  a19 := H.a19.trans (Cert.ReferenceIdeal.Keeps.keeps_opsB Y _ (by decide)).symm
  a20 := H.a20.trans (Cert.ReferenceIdeal.Keeps.keeps_opsB Y _ (by decide)).symm

theorem agreeR_opsC {X : KV} {Y : RV} (H : Agree X Y) : Agree X (after (Cert.ReferenceIdeal.Hand.opsC (F := Ideal)) Y) where
  a0 := H.a0.trans (Cert.ReferenceIdeal.Keeps.keeps_opsC Y _ (by decide)).symm
  a1 := H.a1.trans (Cert.ReferenceIdeal.Keeps.keeps_opsC Y _ (by decide)).symm
  a2 := H.a2.trans (Cert.ReferenceIdeal.Keeps.keeps_opsC Y _ (by decide)).symm
  a3 := H.a3.trans (Cert.ReferenceIdeal.Keeps.keeps_opsC Y _ (by decide)).symm
  a4 := H.a4.trans (Cert.ReferenceIdeal.Keeps.keeps_opsC Y _ (by decide)).symm
  a5 := H.a5.trans (Cert.ReferenceIdeal.Keeps.keeps_opsC Y _ (by decide)).symm
  a6 := H.a6.trans (Cert.ReferenceIdeal.Keeps.keeps_opsC Y _ (by decide)).symm
  a7 := H.a7.trans (Cert.ReferenceIdeal.Keeps.keeps_opsC Y _ (by decide)).symm
  a8 := H.a8.trans (Cert.ReferenceIdeal.Keeps.keeps_opsC Y _ (by decide)).symm
  a9 := H.a9.trans (Cert.ReferenceIdeal.Keeps.keeps_opsC Y _ (by decide)).symm
  a10 := H.a10.trans (Cert.ReferenceIdeal.Keeps.keeps_opsC Y _ (by decide)).symm
  a11 := H.a11.trans (Cert.ReferenceIdeal.Keeps.keeps_opsC Y _ (by decide)).symm
  a12 := H.a12.trans (Cert.ReferenceIdeal.Keeps.keeps_opsC Y _ (by decide)).symm
  a13 := H.a13.trans (Cert.ReferenceIdeal.Keeps.keeps_opsC Y _ (by decide)).symm
  a14 := H.a14.trans (Cert.ReferenceIdeal.Keeps.keeps_opsC Y _ (by decide)).symm
  a15 := H.a15.trans (Cert.ReferenceIdeal.Keeps.keeps_opsC Y _ (by decide)).symm
  a16 := H.a16.trans (Cert.ReferenceIdeal.Keeps.keeps_opsC Y _ (by decide)).symm
  a17 := H.a17.trans (Cert.ReferenceIdeal.Keeps.keeps_opsC Y _ (by decide)).symm
  a18 := H.a18.trans (Cert.ReferenceIdeal.Keeps.keeps_opsC Y _ (by decide)).symm
  a19 := H.a19.trans (Cert.ReferenceIdeal.Keeps.keeps_opsC Y _ (by decide)).symm
  a20 := H.a20.trans (Cert.ReferenceIdeal.Keeps.keeps_opsC Y _ (by decide)).symm

theorem agreeR_opsD {X : KV} {Y : RV} (H : Agree X Y) : Agree X (after (Cert.ReferenceIdeal.Hand.opsD (F := Ideal)) Y) where
  a0 := H.a0.trans (Cert.ReferenceIdeal.Keeps.keeps_opsD Y _ (by decide)).symm
  a1 := H.a1.trans (Cert.ReferenceIdeal.Keeps.keeps_opsD Y _ (by decide)).symm
  a2 := H.a2.trans (Cert.ReferenceIdeal.Keeps.keeps_opsD Y _ (by decide)).symm
  a3 := H.a3.trans (Cert.ReferenceIdeal.Keeps.keeps_opsD Y _ (by decide)).symm
  a4 := H.a4.trans (Cert.ReferenceIdeal.Keeps.keeps_opsD Y _ (by decide)).symm
  a5 := H.a5.trans (Cert.ReferenceIdeal.Keeps.keeps_opsD Y _ (by decide)).symm
  a6 := H.a6.trans (Cert.ReferenceIdeal.Keeps.keeps_opsD Y _ (by decide)).symm
  a7 := H.a7.trans (Cert.ReferenceIdeal.Keeps.keeps_opsD Y _ (by decide)).symm
  a8 := H.a8.trans (Cert.ReferenceIdeal.Keeps.keeps_opsD Y _ (by decide)).symm
  a9 := H.a9.trans (Cert.ReferenceIdeal.Keeps.keeps_opsD Y _ (by decide)).symm
  a10 := H.a10.trans (Cert.ReferenceIdeal.Keeps.keeps_opsD Y _ (by decide)).symm
  a11 := H.a11.trans (Cert.ReferenceIdeal.Keeps.keeps_opsD Y _ (by decide)).symm
  a12 := H.a12.trans (Cert.ReferenceIdeal.Keeps.keeps_opsD Y _ (by decide)).symm
  a13 := H.a13.trans (Cert.ReferenceIdeal.Keeps.keeps_opsD Y _ (by decide)).symm
  a14 := H.a14.trans (Cert.ReferenceIdeal.Keeps.keeps_opsD Y _ (by decide)).symm
  a15 := H.a15.trans (Cert.ReferenceIdeal.Keeps.keeps_opsD Y _ (by decide)).symm
  a16 := H.a16.trans (Cert.ReferenceIdeal.Keeps.keeps_opsD Y _ (by decide)).symm
  a17 := H.a17.trans (Cert.ReferenceIdeal.Keeps.keeps_opsD Y _ (by decide)).symm
  a18 := H.a18.trans (Cert.ReferenceIdeal.Keeps.keeps_opsD Y _ (by decide)).symm
  a19 := H.a19.trans (Cert.ReferenceIdeal.Keeps.keeps_opsD Y _ (by decide)).symm
  a20 := H.a20.trans (Cert.ReferenceIdeal.Keeps.keeps_opsD Y _ (by decide)).symm

theorem agreeR_opsE {X : KV} {Y : RV} (H : Agree X Y) : Agree X (after (Cert.ReferenceIdeal.Hand.opsE (F := Ideal)) Y) where
  a0 := H.a0.trans (Cert.ReferenceIdeal.Keeps.keeps_opsE Y _ (by decide)).symm
  a1 := H.a1.trans (Cert.ReferenceIdeal.Keeps.keeps_opsE Y _ (by decide)).symm
  a2 := H.a2.trans (Cert.ReferenceIdeal.Keeps.keeps_opsE Y _ (by decide)).symm
  a3 := H.a3.trans (Cert.ReferenceIdeal.Keeps.keeps_opsE Y _ (by decide)).symm
  a4 := H.a4.trans (Cert.ReferenceIdeal.Keeps.keeps_opsE Y _ (by decide)).symm
  a5 := H.a5.trans (Cert.ReferenceIdeal.Keeps.keeps_opsE Y _ (by decide)).symm
  a6 := H.a6.trans (Cert.ReferenceIdeal.Keeps.keeps_opsE Y _ (by decide)).symm
  a7 := H.a7.trans (Cert.ReferenceIdeal.Keeps.keeps_opsE Y _ (by decide)).symm
  a8 := H.a8.trans (Cert.ReferenceIdeal.Keeps.keeps_opsE Y _ (by decide)).symm
  a9 := H.a9.trans (Cert.ReferenceIdeal.Keeps.keeps_opsE Y _ (by decide)).symm
  a10 := H.a10.trans (Cert.ReferenceIdeal.Keeps.keeps_opsE Y _ (by decide)).symm
  a11 := H.a11.trans (Cert.ReferenceIdeal.Keeps.keeps_opsE Y _ (by decide)).symm
  a12 := H.a12.trans (Cert.ReferenceIdeal.Keeps.keeps_opsE Y _ (by decide)).symm
  a13 := H.a13.trans (Cert.ReferenceIdeal.Keeps.keeps_opsE Y _ (by decide)).symm
  a14 := H.a14.trans (Cert.ReferenceIdeal.Keeps.keeps_opsE Y _ (by decide)).symm
  a15 := H.a15.trans (Cert.ReferenceIdeal.Keeps.keeps_opsE Y _ (by decide)).symm
  a16 := H.a16.trans (Cert.ReferenceIdeal.Keeps.keeps_opsE Y _ (by decide)).symm
  a17 := H.a17.trans (Cert.ReferenceIdeal.Keeps.keeps_opsE Y _ (by decide)).symm
  a18 := H.a18.trans (Cert.ReferenceIdeal.Keeps.keeps_opsE Y _ (by decide)).symm
  a19 := H.a19.trans (Cert.ReferenceIdeal.Keeps.keeps_opsE Y _ (by decide)).symm
  a20 := H.a20.trans (Cert.ReferenceIdeal.Keeps.keeps_opsE Y _ (by decide)).symm

theorem agreeR_opsF {X : KV} {Y : RV} (H : Agree X Y) : Agree X (after (Cert.ReferenceIdeal.Hand.opsF (F := Ideal)) Y) where
  a0 := H.a0.trans (Cert.ReferenceIdeal.Keeps.keeps_opsF Y _ (by decide)).symm
  a1 := H.a1.trans (Cert.ReferenceIdeal.Keeps.keeps_opsF Y _ (by decide)).symm
  a2 := H.a2.trans (Cert.ReferenceIdeal.Keeps.keeps_opsF Y _ (by decide)).symm
  a3 := H.a3.trans (Cert.ReferenceIdeal.Keeps.keeps_opsF Y _ (by decide)).symm
  a4 := H.a4.trans (Cert.ReferenceIdeal.Keeps.keeps_opsF Y _ (by decide)).symm
  a5 := H.a5.trans (Cert.ReferenceIdeal.Keeps.keeps_opsF Y _ (by decide)).symm
  a6 := H.a6.trans (Cert.ReferenceIdeal.Keeps.keeps_opsF Y _ (by decide)).symm
  a7 := H.a7.trans (Cert.ReferenceIdeal.Keeps.keeps_opsF Y _ (by decide)).symm
  a8 := H.a8.trans (Cert.ReferenceIdeal.Keeps.keeps_opsF Y _ (by decide)).symm
  a9 := H.a9.trans (Cert.ReferenceIdeal.Keeps.keeps_opsF Y _ (by decide)).symm
  a10 := H.a10.trans (Cert.ReferenceIdeal.Keeps.keeps_opsF Y _ (by decide)).symm
  a11 := H.a11.trans (Cert.ReferenceIdeal.Keeps.keeps_opsF Y _ (by decide)).symm
  a12 := H.a12.trans (Cert.ReferenceIdeal.Keeps.keeps_opsF Y _ (by decide)).symm
  a13 := H.a13.trans (Cert.ReferenceIdeal.Keeps.keeps_opsF Y _ (by decide)).symm
  a14 := H.a14.trans (Cert.ReferenceIdeal.Keeps.keeps_opsF Y _ (by decide)).symm
  a15 := H.a15.trans (Cert.ReferenceIdeal.Keeps.keeps_opsF Y _ (by decide)).symm
  a16 := H.a16.trans (Cert.ReferenceIdeal.Keeps.keeps_opsF Y _ (by decide)).symm
  a17 := H.a17.trans (Cert.ReferenceIdeal.Keeps.keeps_opsF Y _ (by decide)).symm
  a18 := H.a18.trans (Cert.ReferenceIdeal.Keeps.keeps_opsF Y _ (by decide)).symm
  a19 := H.a19.trans (Cert.ReferenceIdeal.Keeps.keeps_opsF Y _ (by decide)).symm
  a20 := H.a20.trans (Cert.ReferenceIdeal.Keeps.keeps_opsF Y _ (by decide)).symm

theorem agreeR_opsG {X : KV} {Y : RV} (H : Agree X Y) : Agree X (after (Cert.ReferenceIdeal.Hand.opsG (F := Ideal)) Y) where
  a0 := H.a0.trans (Cert.ReferenceIdeal.Keeps.keeps_opsG Y _ (by decide)).symm
  a1 := H.a1.trans (Cert.ReferenceIdeal.Keeps.keeps_opsG Y _ (by decide)).symm
  a2 := H.a2.trans (Cert.ReferenceIdeal.Keeps.keeps_opsG Y _ (by decide)).symm
  a3 := H.a3.trans (Cert.ReferenceIdeal.Keeps.keeps_opsG Y _ (by decide)).symm
  a4 := H.a4.trans (Cert.ReferenceIdeal.Keeps.keeps_opsG Y _ (by decide)).symm
  a5 := H.a5.trans (Cert.ReferenceIdeal.Keeps.keeps_opsG Y _ (by decide)).symm
  a6 := H.a6.trans (Cert.ReferenceIdeal.Keeps.keeps_opsG Y _ (by decide)).symm
  a7 := H.a7.trans (Cert.ReferenceIdeal.Keeps.keeps_opsG Y _ (by decide)).symm
  a8 := H.a8.trans (Cert.ReferenceIdeal.Keeps.keeps_opsG Y _ (by decide)).symm
  a9 := H.a9.trans (Cert.ReferenceIdeal.Keeps.keeps_opsG Y _ (by decide)).symm
  a10 := H.a10.trans (Cert.ReferenceIdeal.Keeps.keeps_opsG Y _ (by decide)).symm
  a11 := H.a11.trans (Cert.ReferenceIdeal.Keeps.keeps_opsG Y _ (by decide)).symm
  a12 := H.a12.trans (Cert.ReferenceIdeal.Keeps.keeps_opsG Y _ (by decide)).symm
  a13 := H.a13.trans (Cert.ReferenceIdeal.Keeps.keeps_opsG Y _ (by decide)).symm
  a14 := H.a14.trans (Cert.ReferenceIdeal.Keeps.keeps_opsG Y _ (by decide)).symm
  a15 := H.a15.trans (Cert.ReferenceIdeal.Keeps.keeps_opsG Y _ (by decide)).symm
  a16 := H.a16.trans (Cert.ReferenceIdeal.Keeps.keeps_opsG Y _ (by decide)).symm
  a17 := H.a17.trans (Cert.ReferenceIdeal.Keeps.keeps_opsG Y _ (by decide)).symm
  a18 := H.a18.trans (Cert.ReferenceIdeal.Keeps.keeps_opsG Y _ (by decide)).symm
  a19 := H.a19.trans (Cert.ReferenceIdeal.Keeps.keeps_opsG Y _ (by decide)).symm
  a20 := H.a20.trans (Cert.ReferenceIdeal.Keeps.keeps_opsG Y _ (by decide)).symm

theorem agreeR_opsH {X : KV} {Y : RV} (H : Agree X Y) : Agree X (after (Cert.ReferenceIdeal.Hand.opsH (F := Ideal)) Y) where
  a0 := H.a0.trans (Cert.ReferenceIdeal.Keeps.keeps_opsH Y _ (by decide)).symm
  a1 := H.a1.trans (Cert.ReferenceIdeal.Keeps.keeps_opsH Y _ (by decide)).symm
  a2 := H.a2.trans (Cert.ReferenceIdeal.Keeps.keeps_opsH Y _ (by decide)).symm
  a3 := H.a3.trans (Cert.ReferenceIdeal.Keeps.keeps_opsH Y _ (by decide)).symm
  a4 := H.a4.trans (Cert.ReferenceIdeal.Keeps.keeps_opsH Y _ (by decide)).symm
  a5 := H.a5.trans (Cert.ReferenceIdeal.Keeps.keeps_opsH Y _ (by decide)).symm
  a6 := H.a6.trans (Cert.ReferenceIdeal.Keeps.keeps_opsH Y _ (by decide)).symm
  a7 := H.a7.trans (Cert.ReferenceIdeal.Keeps.keeps_opsH Y _ (by decide)).symm
  a8 := H.a8.trans (Cert.ReferenceIdeal.Keeps.keeps_opsH Y _ (by decide)).symm
  a9 := H.a9.trans (Cert.ReferenceIdeal.Keeps.keeps_opsH Y _ (by decide)).symm
  a10 := H.a10.trans (Cert.ReferenceIdeal.Keeps.keeps_opsH Y _ (by decide)).symm
  a11 := H.a11.trans (Cert.ReferenceIdeal.Keeps.keeps_opsH Y _ (by decide)).symm
  a12 := H.a12.trans (Cert.ReferenceIdeal.Keeps.keeps_opsH Y _ (by decide)).symm
  a13 := H.a13.trans (Cert.ReferenceIdeal.Keeps.keeps_opsH Y _ (by decide)).symm
  a14 := H.a14.trans (Cert.ReferenceIdeal.Keeps.keeps_opsH Y _ (by decide)).symm
  a15 := H.a15.trans (Cert.ReferenceIdeal.Keeps.keeps_opsH Y _ (by decide)).symm
  a16 := H.a16.trans (Cert.ReferenceIdeal.Keeps.keeps_opsH Y _ (by decide)).symm
  a17 := H.a17.trans (Cert.ReferenceIdeal.Keeps.keeps_opsH Y _ (by decide)).symm
  a18 := H.a18.trans (Cert.ReferenceIdeal.Keeps.keeps_opsH Y _ (by decide)).symm
  a19 := H.a19.trans (Cert.ReferenceIdeal.Keeps.keeps_opsH Y _ (by decide)).symm
  a20 := H.a20.trans (Cert.ReferenceIdeal.Keeps.keeps_opsH Y _ (by decide)).symm

theorem agreeR_opsI {X : KV} {Y : RV} (H : Agree X Y) : Agree X (after (Cert.ReferenceIdeal.Hand.opsI (F := Ideal)) Y) where
  a0 := H.a0.trans (Cert.ReferenceIdeal.Keeps.keeps_opsI Y _ (by decide)).symm
  a1 := H.a1.trans (Cert.ReferenceIdeal.Keeps.keeps_opsI Y _ (by decide)).symm
  a2 := H.a2.trans (Cert.ReferenceIdeal.Keeps.keeps_opsI Y _ (by decide)).symm
  a3 := H.a3.trans (Cert.ReferenceIdeal.Keeps.keeps_opsI Y _ (by decide)).symm
  a4 := H.a4.trans (Cert.ReferenceIdeal.Keeps.keeps_opsI Y _ (by decide)).symm
  a5 := H.a5.trans (Cert.ReferenceIdeal.Keeps.keeps_opsI Y _ (by decide)).symm
  a6 := H.a6.trans (Cert.ReferenceIdeal.Keeps.keeps_opsI Y _ (by decide)).symm
  a7 := H.a7.trans (Cert.ReferenceIdeal.Keeps.keeps_opsI Y _ (by decide)).symm
  a8 := H.a8.trans (Cert.ReferenceIdeal.Keeps.keeps_opsI Y _ (by decide)).symm
  a9 := H.a9.trans (Cert.ReferenceIdeal.Keeps.keeps_opsI Y _ (by decide)).symm
  a10 := H.a10.trans (Cert.ReferenceIdeal.Keeps.keeps_opsI Y _ (by decide)).symm
  a11 := H.a11.trans (Cert.ReferenceIdeal.Keeps.keeps_opsI Y _ (by decide)).symm
  a12 := H.a12.trans (Cert.ReferenceIdeal.Keeps.keeps_opsI Y _ (by decide)).symm
  a13 := H.a13.trans (Cert.ReferenceIdeal.Keeps.keeps_opsI Y _ (by decide)).symm
  a14 := H.a14.trans (Cert.ReferenceIdeal.Keeps.keeps_opsI Y _ (by decide)).symm
  a15 := H.a15.trans (Cert.ReferenceIdeal.Keeps.keeps_opsI Y _ (by decide)).symm
  a16 := H.a16.trans (Cert.ReferenceIdeal.Keeps.keeps_opsI Y _ (by decide)).symm
  a17 := H.a17.trans (Cert.ReferenceIdeal.Keeps.keeps_opsI Y _ (by decide)).symm
  a18 := H.a18.trans (Cert.ReferenceIdeal.Keeps.keeps_opsI Y _ (by decide)).symm
  a19 := H.a19.trans (Cert.ReferenceIdeal.Keeps.keeps_opsI Y _ (by decide)).symm
  a20 := H.a20.trans (Cert.ReferenceIdeal.Keeps.keeps_opsI Y _ (by decide)).symm

theorem agreeR_opsJ {X : KV} {Y : RV} (H : Agree X Y) : Agree X (after (Cert.ReferenceIdeal.Hand.opsJ (F := Ideal)) Y) where
  a0 := H.a0.trans (Cert.ReferenceIdeal.Keeps.keeps_opsJ Y _ (by decide)).symm
  a1 := H.a1.trans (Cert.ReferenceIdeal.Keeps.keeps_opsJ Y _ (by decide)).symm
  a2 := H.a2.trans (Cert.ReferenceIdeal.Keeps.keeps_opsJ Y _ (by decide)).symm
  a3 := H.a3.trans (Cert.ReferenceIdeal.Keeps.keeps_opsJ Y _ (by decide)).symm
  a4 := H.a4.trans (Cert.ReferenceIdeal.Keeps.keeps_opsJ Y _ (by decide)).symm
  a5 := H.a5.trans (Cert.ReferenceIdeal.Keeps.keeps_opsJ Y _ (by decide)).symm
  a6 := H.a6.trans (Cert.ReferenceIdeal.Keeps.keeps_opsJ Y _ (by decide)).symm
  a7 := H.a7.trans (Cert.ReferenceIdeal.Keeps.keeps_opsJ Y _ (by decide)).symm
  a8 := H.a8.trans (Cert.ReferenceIdeal.Keeps.keeps_opsJ Y _ (by decide)).symm
  a9 := H.a9.trans (Cert.ReferenceIdeal.Keeps.keeps_opsJ Y _ (by decide)).symm
  a10 := H.a10.trans (Cert.ReferenceIdeal.Keeps.keeps_opsJ Y _ (by decide)).symm
  a11 := H.a11.trans (Cert.ReferenceIdeal.Keeps.keeps_opsJ Y _ (by decide)).symm
  a12 := H.a12.trans (Cert.ReferenceIdeal.Keeps.keeps_opsJ Y _ (by decide)).symm
  a13 := H.a13.trans (Cert.ReferenceIdeal.Keeps.keeps_opsJ Y _ (by decide)).symm
  a14 := H.a14.trans (Cert.ReferenceIdeal.Keeps.keeps_opsJ Y _ (by decide)).symm
  a15 := H.a15.trans (Cert.ReferenceIdeal.Keeps.keeps_opsJ Y _ (by decide)).symm
  a16 := H.a16.trans (Cert.ReferenceIdeal.Keeps.keeps_opsJ Y _ (by decide)).symm
  a17 := H.a17.trans (Cert.ReferenceIdeal.Keeps.keeps_opsJ Y _ (by decide)).symm
  a18 := H.a18.trans (Cert.ReferenceIdeal.Keeps.keeps_opsJ Y _ (by decide)).symm
  a19 := H.a19.trans (Cert.ReferenceIdeal.Keeps.keeps_opsJ Y _ (by decide)).symm
  a20 := H.a20.trans (Cert.ReferenceIdeal.Keeps.keeps_opsJ Y _ (by decide)).symm

theorem agreeR_opsK {X : KV} {Y : RV} (H : Agree X Y) : Agree X (after (Cert.ReferenceIdeal.Hand.opsK (F := Ideal)) Y) where
  a0 := H.a0.trans (Cert.ReferenceIdeal.Keeps.keeps_opsK Y _ (by decide)).symm
  a1 := H.a1.trans (Cert.ReferenceIdeal.Keeps.keeps_opsK Y _ (by decide)).symm
  a2 := H.a2.trans (Cert.ReferenceIdeal.Keeps.keeps_opsK Y _ (by decide)).symm
  a3 := H.a3.trans (Cert.ReferenceIdeal.Keeps.keeps_opsK Y _ (by decide)).symm
  a4 := H.a4.trans (Cert.ReferenceIdeal.Keeps.keeps_opsK Y _ (by decide)).symm
  a5 := H.a5.trans (Cert.ReferenceIdeal.Keeps.keeps_opsK Y _ (by decide)).symm
  a6 := H.a6.trans (Cert.ReferenceIdeal.Keeps.keeps_opsK Y _ (by decide)).symm
  a7 := H.a7.trans (Cert.ReferenceIdeal.Keeps.keeps_opsK Y _ (by decide)).symm
  a8 := H.a8.trans (Cert.ReferenceIdeal.Keeps.keeps_opsK Y _ (by decide)).symm
  a9 := H.a9.trans (Cert.ReferenceIdeal.Keeps.keeps_opsK Y _ (by decide)).symm
  a10 := H.a10.trans (Cert.ReferenceIdeal.Keeps.keeps_opsK Y _ (by decide)).symm
  a11 := H.a11.trans (Cert.ReferenceIdeal.Keeps.keeps_opsK Y _ (by decide)).symm
  a12 := H.a12.trans (Cert.ReferenceIdeal.Keeps.keeps_opsK Y _ (by decide)).symm
  a13 := H.a13.trans (Cert.ReferenceIdeal.Keeps.keeps_opsK Y _ (by decide)).symm
  a14 := H.a14.trans (Cert.ReferenceIdeal.Keeps.keeps_opsK Y _ (by decide)).symm
  a15 := H.a15.trans (Cert.ReferenceIdeal.Keeps.keeps_opsK Y _ (by decide)).symm
  a16 := H.a16.trans (Cert.ReferenceIdeal.Keeps.keeps_opsK Y _ (by decide)).symm
  a17 := H.a17.trans (Cert.ReferenceIdeal.Keeps.keeps_opsK Y _ (by decide)).symm
  a18 := H.a18.trans (Cert.ReferenceIdeal.Keeps.keeps_opsK Y _ (by decide)).symm
  a19 := H.a19.trans (Cert.ReferenceIdeal.Keeps.keeps_opsK Y _ (by decide)).symm
  a20 := H.a20.trans (Cert.ReferenceIdeal.Keeps.keeps_opsK Y _ (by decide)).symm

theorem agreeR_opsL {X : KV} {Y : RV} (H : Agree X Y) : Agree X (after (Cert.ReferenceIdeal.Hand.opsL (F := Ideal)) Y) where
  a0 := H.a0.trans (Cert.ReferenceIdeal.Keeps.keeps_opsL Y _ (by decide)).symm
  a1 := H.a1.trans (Cert.ReferenceIdeal.Keeps.keeps_opsL Y _ (by decide)).symm
  a2 := H.a2.trans (Cert.ReferenceIdeal.Keeps.keeps_opsL Y _ (by decide)).symm
  a3 := H.a3.trans (Cert.ReferenceIdeal.Keeps.keeps_opsL Y _ (by decide)).symm
  a4 := H.a4.trans (Cert.ReferenceIdeal.Keeps.keeps_opsL Y _ (by decide)).symm
  a5 := H.a5.trans (Cert.ReferenceIdeal.Keeps.keeps_opsL Y _ (by decide)).symm
  a6 := H.a6.trans (Cert.ReferenceIdeal.Keeps.keeps_opsL Y _ (by decide)).symm
  a7 := H.a7.trans (Cert.ReferenceIdeal.Keeps.keeps_opsL Y _ (by decide)).symm
  a8 := H.a8.trans (Cert.ReferenceIdeal.Keeps.keeps_opsL Y _ (by decide)).symm
  a9 := H.a9.trans (Cert.ReferenceIdeal.Keeps.keeps_opsL Y _ (by decide)).symm
  a10 := H.a10.trans (Cert.ReferenceIdeal.Keeps.keeps_opsL Y _ (by decide)).symm
  a11 := H.a11.trans (Cert.ReferenceIdeal.Keeps.keeps_opsL Y _ (by decide)).symm
  a12 := H.a12.trans (Cert.ReferenceIdeal.Keeps.keeps_opsL Y _ (by decide)).symm
  a13 := H.a13.trans (Cert.ReferenceIdeal.Keeps.keeps_opsL Y _ (by decide)).symm
  a14 := H.a14.trans (Cert.ReferenceIdeal.Keeps.keeps_opsL Y _ (by decide)).symm
  a15 := H.a15.trans (Cert.ReferenceIdeal.Keeps.keeps_opsL Y _ (by decide)).symm
  a16 := H.a16.trans (Cert.ReferenceIdeal.Keeps.keeps_opsL Y _ (by decide)).symm
  a17 := H.a17.trans (Cert.ReferenceIdeal.Keeps.keeps_opsL Y _ (by decide)).symm
  a18 := H.a18.trans (Cert.ReferenceIdeal.Keeps.keeps_opsL Y _ (by decide)).symm
  a19 := H.a19.trans (Cert.ReferenceIdeal.Keeps.keeps_opsL Y _ (by decide)).symm
  a20 := H.a20.trans (Cert.ReferenceIdeal.Keeps.keeps_opsL Y _ (by decide)).symm

/-! ## The kernel's bias rows -/

/-- The bias vector `main_arg7` laid out as a one-row array. -/
theorem row7 (Z : KV) (h : Cert.KernelIdeal.S128.ShapeCasts Cert.KernelIdeal.S1x128) :
    after (Cert.KernelIdeal.Gen.hostOps0_2 (F := Ideal)) Z (Proc.devRef .tc Cert.KernelIdeal.main_v14) = shapeCast Cert.KernelIdeal.S1x128 (Z (Proc.devRef .tc Cert.KernelIdeal.main_arg7)) h := by
  after_results_simp
  rfl

/-- The bias vector `main_arg10` laid out as a one-row array. -/
theorem row10 (Z : KV) (h : Cert.KernelIdeal.S128.ShapeCasts Cert.KernelIdeal.S1x128) :
    after (Cert.KernelIdeal.Gen.hostOps1_1 (F := Ideal)) Z (Proc.devRef .tc Cert.KernelIdeal.main_v29) = shapeCast Cert.KernelIdeal.S1x128 (Z (Proc.devRef .tc Cert.KernelIdeal.main_arg10)) h := by
  after_results_simp
  rfl

/-- The bias vector `main_arg12` laid out as a one-row array. -/
theorem row12 (Z : KV) (h : Cert.KernelIdeal.S256.ShapeCasts Cert.KernelIdeal.S1x256) :
    after (Cert.KernelIdeal.Gen.hostOps2 (F := Ideal)) Z (Proc.devRef .tc Cert.KernelIdeal.main_v43) = shapeCast Cert.KernelIdeal.S1x256 (Z (Proc.devRef .tc Cert.KernelIdeal.main_arg12)) h := by
  after_results_simp
  rfl

/-- The bias vector `main_arg14` laid out as a one-row array. -/
theorem row14 (Z : KV) (h : Cert.KernelIdeal.S256.ShapeCasts Cert.KernelIdeal.S1x256) :
    after (Cert.KernelIdeal.Gen.hostOps2 (F := Ideal)) Z (Proc.devRef .tc Cert.KernelIdeal.main_v44) = shapeCast Cert.KernelIdeal.S1x256 (Z (Proc.devRef .tc Cert.KernelIdeal.main_arg14)) h := by
  after_results_simp
  rfl

/-- The bias vector `main_arg16` laid out as a one-row array. -/
theorem row16 (Z : KV) (h : Cert.KernelIdeal.S256.ShapeCasts Cert.KernelIdeal.S1x256) :
    after (Cert.KernelIdeal.Gen.hostOps2 (F := Ideal)) Z (Proc.devRef .tc Cert.KernelIdeal.main_v45) = shapeCast Cert.KernelIdeal.S1x256 (Z (Proc.devRef .tc Cert.KernelIdeal.main_arg16)) h := by
  after_results_simp
  rfl

/-- The bias vector `main_arg18` laid out as a one-row array. -/
theorem row18 (Z : KV) (h : Cert.KernelIdeal.S256.ShapeCasts Cert.KernelIdeal.S1x256) :
    after (Cert.KernelIdeal.Gen.hostOps2 (F := Ideal)) Z (Proc.devRef .tc Cert.KernelIdeal.main_v46) = shapeCast Cert.KernelIdeal.S1x256 (Z (Proc.devRef .tc Cert.KernelIdeal.main_arg18)) h := by
  after_results_simp
  rfl

/-- The bias vector `main_arg20` laid out as a one-row array. -/
theorem row20 (Z : KV) (h : Cert.KernelIdeal.S2.ShapeCasts Cert.KernelIdeal.S1x2) :
    after (Cert.KernelIdeal.Gen.hostOps2 (F := Ideal)) Z (Proc.devRef .tc Cert.KernelIdeal.main_v47) = shapeCast Cert.KernelIdeal.S1x2 (Z (Proc.devRef .tc Cert.KernelIdeal.main_arg20)) h := by
  after_results_simp
  rfl

/-! ## The two programs in step, stretch by stretch -/

section Stages

variable {X : KV} {Y : RV}

/-- After the shared first stretch (embedding lookup, edge gather, scatter-adds, degree, mean) the contents still
    agree on the arguments. -/
theorem agree_a (H : Agree X Y) : Agree (after (Cert.KernelIdeal.Gen.hostOps0_2 (F := Ideal)) (after (Cert.KernelIdeal.Gen.hostOps0_1 (F := Ideal)) (after (Cert.KernelIdeal.Gen.hostOps0 (F := Ideal)) X))) (after (Cert.ReferenceIdeal.Hand.opsC (F := Ideal)) (after (Cert.ReferenceIdeal.Hand.opsB (F := Ideal)) (after (Cert.ReferenceIdeal.Hand.opsA (F := Ideal)) Y))) :=
  agreeR_opsC (agreeR_opsB (agreeR_opsA (agreeK_hostOps0_2 (agreeK_hostOps0_1 (agreeK_hostOps0 H)))))

/-- The looked-up node features are the same array. -/
theorem feat_a (H : Agree X Y) : (after (Cert.KernelIdeal.Gen.hostOps0_2 (F := Ideal)) (after (Cert.KernelIdeal.Gen.hostOps0_1 (F := Ideal)) (after (Cert.KernelIdeal.Gen.hostOps0 (F := Ideal)) X))) (Proc.devRef .tc Cert.KernelIdeal.main_v0) = (after (Cert.ReferenceIdeal.Hand.opsC (F := Ideal)) (after (Cert.ReferenceIdeal.Hand.opsB (F := Ideal)) (after (Cert.ReferenceIdeal.Hand.opsA (F := Ideal)) Y))) (Proc.devRef .tc Cert.ReferenceIdeal.main_v0) := by
  rw [Cert.KernelIdeal.Keeps.keeps_hostOps0_2 _ Cert.KernelIdeal.main_v0 (by decide), Cert.KernelIdeal.Keeps.keeps_hostOps0_1 _ Cert.KernelIdeal.main_v0 (by decide),
    Cert.ReferenceIdeal.Keeps.keeps_opsC _ Cert.ReferenceIdeal.main_v0 (by decide), Cert.ReferenceIdeal.Keeps.keeps_opsB _ Cert.ReferenceIdeal.main_v0 (by decide)]
  exact Cert.Shared.prefix_v0 H.a0 H.a4

/-- The averaged neighbour features are the same array. -/
theorem neigh_a (H : Agree X Y) : (after (Cert.KernelIdeal.Gen.hostOps0_2 (F := Ideal)) (after (Cert.KernelIdeal.Gen.hostOps0_1 (F := Ideal)) (after (Cert.KernelIdeal.Gen.hostOps0 (F := Ideal)) X))) (Proc.devRef .tc Cert.KernelIdeal.main_v13) = (after (Cert.ReferenceIdeal.Hand.opsC (F := Ideal)) (after (Cert.ReferenceIdeal.Hand.opsB (F := Ideal)) (after (Cert.ReferenceIdeal.Hand.opsA (F := Ideal)) Y))) (Proc.devRef .tc Cert.ReferenceIdeal.main_v13) :=
  Cert.Shared.prefix_v13 H.a0 H.a1 H.a2 H.a4

/-- The kernel's first bias row (the vector reshaped) is the reference's (the vector broadcast). -/
theorem bias_a (H : Agree X Y) :
    (after (Cert.KernelIdeal.Gen.hostOps0_2 (F := Ideal)) (after (Cert.KernelIdeal.Gen.hostOps0_1 (F := Ideal)) (after (Cert.KernelIdeal.Gen.hostOps0 (F := Ideal)) X))) (Proc.devRef .tc Cert.KernelIdeal.main_v14) = (broadcastInDim Cert.ReferenceIdeal.S1x128 ![1] Cert.ReferenceIdeal.Gen.bcast_S128_S1x128_1 ((after (Cert.ReferenceIdeal.Hand.opsC (F := Ideal)) (after (Cert.ReferenceIdeal.Hand.opsB (F := Ideal)) (after (Cert.ReferenceIdeal.Hand.opsA (F := Ideal)) Y))) (Proc.devRef .tc Cert.ReferenceIdeal.main_arg7))) := by
  have Hz := agreeR_opsC (agreeR_opsB (agreeR_opsA (agreeK_hostOps0_1 (agreeK_hostOps0 H))))
  rw [row7 _ Cert.KernelIdeal.Gen.shapeCasts_S128_S1x128, Hz.a7]
  exact Cert.LibAffineStage.reshape_row_eq_broadcast_row 128 _ _ _

/-- The first graph-convolution layer: the kernel's region and the reference's host operations leave the same array. -/
theorem layer_b (H : Agree X Y) : (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X)))) (Proc.devRef .tc Cert.KernelIdeal.main_v15) = (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))) (Proc.devRef .tc Cert.ReferenceIdeal.main_v20) := by
  rw [Cert.KernelIdeal.Line.op0_out, Cert.ReferenceIdeal.Dense.read_v20, feat_a H, neigh_a H, (agree_a H).a5, (agree_a H).a6, bias_a H]

theorem agree_b (H : Agree X Y) : Agree (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X)))) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))) := agreeR_opsD (agreeK_op0 (agree_a H))

/-- The second layer's averaged neighbour features (shared gather, scatter-adds, degree, mean) are the same array. -/
theorem neigh_c (H : Agree X Y) : (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X)))))) (Proc.devRef .tc Cert.KernelIdeal.main_v28) = (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))) (Proc.devRef .tc Cert.ReferenceIdeal.main_v33) :=
  Cert.Shared.mid_v28 (layer_b H) (agree_b H).a1 (agree_b H).a2

theorem agree_c (H : Agree X Y) : Agree (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X)))))) (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))) :=
  agreeR_opsF (agreeR_opsE (agreeK_hostOps1_1 (agreeK_hostOps1 (agree_b H))))

/-- The first layer's result is still in place on both sides. -/
theorem feat_c (H : Agree X Y) : (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X)))))) (Proc.devRef .tc Cert.KernelIdeal.main_v15) = (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))) (Proc.devRef .tc Cert.ReferenceIdeal.main_v20) := by
  rw [Cert.KernelIdeal.Keeps.keeps_hostOps1_1 _ Cert.KernelIdeal.main_v15 (by decide), Cert.KernelIdeal.Keeps.keeps_hostOps1 _ Cert.KernelIdeal.main_v15 (by decide),
    Cert.ReferenceIdeal.Keeps.keeps_opsF _ Cert.ReferenceIdeal.main_v20 (by decide), Cert.ReferenceIdeal.Keeps.keeps_opsE _ Cert.ReferenceIdeal.main_v20 (by decide)]
  exact layer_b H

theorem bias_c (H : Agree X Y) :
    (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X)))))) (Proc.devRef .tc Cert.KernelIdeal.main_v29) = (broadcastInDim Cert.ReferenceIdeal.S1x128 ![1] Cert.ReferenceIdeal.Gen.bcast_S128_S1x128_1 ((after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))) (Proc.devRef .tc Cert.ReferenceIdeal.main_arg10))) := by
  have Hz := agreeR_opsF (agreeR_opsE (agreeK_hostOps1 (agree_b H)))
  rw [row10 _ Cert.KernelIdeal.Gen.shapeCasts_S128_S1x128, Hz.a10]
  exact Cert.LibAffineStage.reshape_row_eq_broadcast_row 128 _ _ _

/-- The second graph-convolution layer. -/
theorem layer_d (H : Agree X Y) : (after [Cert.KernelIdeal.Line.op1] (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X))))))) (Proc.devRef .tc Cert.KernelIdeal.main_v30) = (after (Cert.ReferenceIdeal.Hand.opsG (F := Ideal)) (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y))))))) (Proc.devRef .tc Cert.ReferenceIdeal.main_v40) := by
  rw [Cert.KernelIdeal.Line.op1_out, Cert.ReferenceIdeal.Dense.read_v40, feat_c H, neigh_c H, (agree_c H).a8, (agree_c H).a9, bias_c H]

theorem agree_d (H : Agree X Y) : Agree (after [Cert.KernelIdeal.Line.op1] (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X))))))) (after (Cert.ReferenceIdeal.Hand.opsG (F := Ideal)) (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y))))))) := agreeR_opsG (agreeK_op1 (agree_c H))

/-- The per-graph mean of the node features (shared scatter-add, count, divide) is the same array. -/
theorem pooled_e (H : Agree X Y) : (after (Cert.KernelIdeal.Gen.hostOps2 (F := Ideal)) (after [Cert.KernelIdeal.Line.op1] (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X)))))))) (Proc.devRef .tc Cert.KernelIdeal.main_v42) = (after (Cert.ReferenceIdeal.Hand.opsH (F := Ideal)) (after (Cert.ReferenceIdeal.Hand.opsG (F := Ideal)) (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))))) (Proc.devRef .tc Cert.ReferenceIdeal.main_v52) :=
  Cert.Shared.tail_v42 (layer_d H) (agree_d H).a3

theorem agree_e (H : Agree X Y) : Agree (after (Cert.KernelIdeal.Gen.hostOps2 (F := Ideal)) (after [Cert.KernelIdeal.Line.op1] (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X)))))))) (after (Cert.ReferenceIdeal.Hand.opsH (F := Ideal)) (after (Cert.ReferenceIdeal.Hand.opsG (F := Ideal)) (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))))) := agreeR_opsH (agreeK_hostOps2 (agree_d H))

/-- The head's five bias rows, reshaped in the kernel and broadcast in the reference. -/
theorem bias_e12 (H : Agree X Y) :
    (after (Cert.KernelIdeal.Gen.hostOps2 (F := Ideal)) (after [Cert.KernelIdeal.Line.op1] (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X)))))))) (Proc.devRef .tc Cert.KernelIdeal.main_v43) = (broadcastInDim Cert.ReferenceIdeal.S1x256 ![1] Cert.ReferenceIdeal.Gen.bcast_S256_S1x256_1 ((after (Cert.ReferenceIdeal.Hand.opsH (F := Ideal)) (after (Cert.ReferenceIdeal.Hand.opsG (F := Ideal)) (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))))) (Proc.devRef .tc Cert.ReferenceIdeal.main_arg12))) := by
  have Hz := agreeR_opsH (agree_d H)
  rw [row12 _ Cert.KernelIdeal.Gen.shapeCasts_S256_S1x256, Hz.a12]
  exact Cert.LibAffineStage.reshape_row_eq_broadcast_row 256 _ _ _

theorem bias_e14 (H : Agree X Y) :
    (after (Cert.KernelIdeal.Gen.hostOps2 (F := Ideal)) (after [Cert.KernelIdeal.Line.op1] (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X)))))))) (Proc.devRef .tc Cert.KernelIdeal.main_v44) = (broadcastInDim Cert.ReferenceIdeal.S1x256 ![1] Cert.ReferenceIdeal.Gen.bcast_S256_S1x256_1 ((after (Cert.ReferenceIdeal.Hand.opsH (F := Ideal)) (after (Cert.ReferenceIdeal.Hand.opsG (F := Ideal)) (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))))) (Proc.devRef .tc Cert.ReferenceIdeal.main_arg14))) := by
  have Hz := agreeR_opsH (agree_d H)
  rw [row14 _ Cert.KernelIdeal.Gen.shapeCasts_S256_S1x256, Hz.a14]
  exact Cert.LibAffineStage.reshape_row_eq_broadcast_row 256 _ _ _

theorem bias_e16 (H : Agree X Y) :
    (after (Cert.KernelIdeal.Gen.hostOps2 (F := Ideal)) (after [Cert.KernelIdeal.Line.op1] (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X)))))))) (Proc.devRef .tc Cert.KernelIdeal.main_v45) = (broadcastInDim Cert.ReferenceIdeal.S1x256 ![1] Cert.ReferenceIdeal.Gen.bcast_S256_S1x256_1 ((after (Cert.ReferenceIdeal.Hand.opsH (F := Ideal)) (after (Cert.ReferenceIdeal.Hand.opsG (F := Ideal)) (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))))) (Proc.devRef .tc Cert.ReferenceIdeal.main_arg16))) := by
  have Hz := agreeR_opsH (agree_d H)
  rw [row16 _ Cert.KernelIdeal.Gen.shapeCasts_S256_S1x256, Hz.a16]
  exact Cert.LibAffineStage.reshape_row_eq_broadcast_row 256 _ _ _

theorem bias_e18 (H : Agree X Y) :
    (after (Cert.KernelIdeal.Gen.hostOps2 (F := Ideal)) (after [Cert.KernelIdeal.Line.op1] (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X)))))))) (Proc.devRef .tc Cert.KernelIdeal.main_v46) = (broadcastInDim Cert.ReferenceIdeal.S1x256 ![1] Cert.ReferenceIdeal.Gen.bcast_S256_S1x256_1 ((after (Cert.ReferenceIdeal.Hand.opsH (F := Ideal)) (after (Cert.ReferenceIdeal.Hand.opsG (F := Ideal)) (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))))) (Proc.devRef .tc Cert.ReferenceIdeal.main_arg18))) := by
  have Hz := agreeR_opsH (agree_d H)
  rw [row18 _ Cert.KernelIdeal.Gen.shapeCasts_S256_S1x256, Hz.a18]
  exact Cert.LibAffineStage.reshape_row_eq_broadcast_row 256 _ _ _

theorem bias_e20 (H : Agree X Y) :
    (after (Cert.KernelIdeal.Gen.hostOps2 (F := Ideal)) (after [Cert.KernelIdeal.Line.op1] (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X)))))))) (Proc.devRef .tc Cert.KernelIdeal.main_v47) = (broadcastInDim Cert.ReferenceIdeal.S1x2 ![1] Cert.ReferenceIdeal.Gen.bcast_S2_S1x2_1 ((after (Cert.ReferenceIdeal.Hand.opsH (F := Ideal)) (after (Cert.ReferenceIdeal.Hand.opsG (F := Ideal)) (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))))) (Proc.devRef .tc Cert.ReferenceIdeal.main_arg20))) := by
  have Hz := agreeR_opsH (agree_d H)
  rw [row20 _ Cert.KernelIdeal.Gen.shapeCasts_S2_S1x2, Hz.a20]
  exact Cert.LibAffineStage.reshape_row_eq_broadcast_row 2 _ _ _

/-- THE HIDDEN LAYER: the head region's first output (the programs' second result) is the reference's. -/
theorem hidden_eq (H : Agree X Y) : (after [Cert.KernelIdeal.Line.op2h, Cert.KernelIdeal.Line.op2l] (after (Cert.KernelIdeal.Gen.hostOps2 (F := Ideal)) (after [Cert.KernelIdeal.Line.op1] (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X))))))))) (Proc.devRef .tc Cert.KernelIdeal.main_v48_0) = (after (Cert.ReferenceIdeal.Hand.opsL (F := Ideal)) (after (Cert.ReferenceIdeal.Hand.opsK (F := Ideal)) (after (Cert.ReferenceIdeal.Hand.opsJ (F := Ideal)) (after (Cert.ReferenceIdeal.Hand.opsI (F := Ideal)) (after (Cert.ReferenceIdeal.Hand.opsH (F := Ideal)) (after (Cert.ReferenceIdeal.Hand.opsG (F := Ideal)) (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))))))))) (Proc.devRef .tc Cert.ReferenceIdeal.main_v57) := by
  rw [Cert.KernelIdeal.Line.op2_hidden, Cert.ReferenceIdeal.Keeps.keeps_opsL _ Cert.ReferenceIdeal.main_v57 (by decide), Cert.ReferenceIdeal.Keeps.keeps_opsK _ Cert.ReferenceIdeal.main_v57 (by decide),
    Cert.ReferenceIdeal.Keeps.keeps_opsJ _ Cert.ReferenceIdeal.main_v57 (by decide), Cert.ReferenceIdeal.Dense.read_v57, pooled_e H, (agree_e H).a11, bias_e12 H]

/-- THE LOG-PROBABILITIES: the head region's second output (the programs' first result) is the reference's. -/
theorem logp_eq (H : Agree X Y) : (after [Cert.KernelIdeal.Line.op2h, Cert.KernelIdeal.Line.op2l] (after (Cert.KernelIdeal.Gen.hostOps2 (F := Ideal)) (after [Cert.KernelIdeal.Line.op1] (after (Cert.KernelIdeal.Gen.hostOps1_1 (F := Ideal)) (after (Cert.KernelIdeal.Gen.hostOps1 (F := Ideal)) (after [Cert.KernelIdeal.Line.op0] (after (Cert.KernelIdeal.Gen.hostOps0_2 (F := Ideal)) (after (Cert.KernelIdeal.Gen.hostOps0_1 (F := Ideal)) (after (Cert.KernelIdeal.Gen.hostOps0 (F := Ideal)) X))))))))) (Proc.devRef .tc Cert.KernelIdeal.main_v48_1) = (after (Cert.ReferenceIdeal.Hand.opsL (F := Ideal)) (after (Cert.ReferenceIdeal.Hand.opsK (F := Ideal)) (after (Cert.ReferenceIdeal.Hand.opsJ (F := Ideal)) (after (Cert.ReferenceIdeal.Hand.opsI (F := Ideal)) (after (Cert.ReferenceIdeal.Hand.opsH (F := Ideal)) (after (Cert.ReferenceIdeal.Hand.opsG (F := Ideal)) (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))))))))) (Proc.devRef .tc Cert.ReferenceIdeal.main_v77) := by
  rw [Cert.KernelIdeal.Line.op2_logp, Cert.ReferenceIdeal.Dense.read_v77, pooled_e H, (agree_e H).a11, bias_e12 H, (agree_e H).a13, bias_e14 H, (agree_e H).a15,
    bias_e16 H, (agree_e H).a17, bias_e18 H, (agree_e H).a19, bias_e20 H]

/-- The reference's whole line is its twelve chunks in order. -/
theorem ref_line (Y : RV) : after (Cert.ReferenceIdeal.Hand.ops (F := Ideal)) Y = (after (Cert.ReferenceIdeal.Hand.opsL (F := Ideal)) (after (Cert.ReferenceIdeal.Hand.opsK (F := Ideal)) (after (Cert.ReferenceIdeal.Hand.opsJ (F := Ideal)) (after (Cert.ReferenceIdeal.Hand.opsI (F := Ideal)) (after (Cert.ReferenceIdeal.Hand.opsH (F := Ideal)) (after (Cert.ReferenceIdeal.Hand.opsG (F := Ideal)) (after (Cert.ReferenceIdeal.Hand.opsF (F := Ideal)) (after (Cert.ReferenceIdeal.Hand.opsE (F := Ideal)) (after (Cert.ReferenceIdeal.Hand.opsD (F := Ideal)) (after (Cert.ReferenceIdeal.Hand.opsC (F := Ideal)) (after (Cert.ReferenceIdeal.Hand.opsB (F := Ideal)) (after (Cert.ReferenceIdeal.Hand.opsA (F := Ideal)) Y)))))))))))) := by
  simp only [Cert.ReferenceIdeal.Hand.ops, Cert.LibRegionLine.after_append]

end Stages

end Cert.Bridge

end
-- ==== Proof.RefFrame.lean ====
/-
  The reference runs, and its argument arrays end unchanged.

  Every weakly fair execution of the reference's @main terminates with each buffer at the fold of the program's
  operations over the launch contents; an argument of @main is a value of none of the operations, so the fold reads
  there what the launch memory held.
-/
import proofs.«176873_j75763223102156_1_alg».proof.Defs
import proofs.«176873_j75763223102156_1_alg».proof.Proof.Gen.ReferenceIdeal
import proofs.«176873_j75763223102156_1_alg».proof.Proof.Gen.Pre_finite_inputs
import proofs.«176873_j75763223102156_1_alg».proof.Proof.RefKeeps
import Idealize.ShloMosaic.PureOps.Ideal

set_option maxRecDepth 16384

noncomputable section

namespace Cert.ReferenceIdeal.Keeps

open Idealize.ShloMosaic Idealize.ShloMosaic.TcCoe Idealize.SL.Sem Idealize.ShloMosaic.StableHlo
open Cert.ReferenceIdeal Cert.ReferenceIdeal.Gen Cert.ReferenceIdeal.Hand

/-- The reference's frame claim at the ideal values: it terminates, and each of its 21 arguments ends as launched. -/
theorem frame_ref : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun r h c =>
    ⟨(h c main_arg0).trans (arg_kept_0 _),
      (h c main_arg1).trans (arg_kept_1 _),
      (h c main_arg2).trans (arg_kept_2 _),
      (h c main_arg3).trans (arg_kept_3 _),
      (h c main_arg4).trans (arg_kept_4 _),
      (h c main_arg5).trans (arg_kept_5 _),
      (h c main_arg6).trans (arg_kept_6 _),
      (h c main_arg7).trans (arg_kept_7 _),
      (h c main_arg8).trans (arg_kept_8 _),
      (h c main_arg9).trans (arg_kept_9 _),
      (h c main_arg10).trans (arg_kept_10 _),
      (h c main_arg11).trans (arg_kept_11 _),
      (h c main_arg12).trans (arg_kept_12 _),
      (h c main_arg13).trans (arg_kept_13 _),
      (h c main_arg14).trans (arg_kept_14 _),
      (h c main_arg15).trans (arg_kept_15 _),
      (h c main_arg16).trans (arg_kept_16 _),
      (h c main_arg17).trans (arg_kept_17 _),
      (h c main_arg18).trans (arg_kept_18 _),
      (h c main_arg19).trans (arg_kept_19 _),
      (h c main_arg20).trans (arg_kept_20 _)⟩)
    (Cert.ReferenceIdeal.Hand.run_main (F := Ideal) m ρ)

end Cert.ReferenceIdeal.Keeps

end
-- ==== Proof.lean ====
/-
  The certificate of a two-layer graph network with a pooled MLP head: the kernel (three pipelined regions among
  stretches of host operations) against the plain host reference.

  * The three frames: the kernel's and the idealized kernel's are the generated frame certificates; the reference's is
    its run (a line of 182 host operations, none of which writes an argument).
  * The idealization rewrote nothing, so `preserves` holds trivially.
  * `algebraic`: at the ideal values both programs are lines of pure operations on whole arrays. The kernel's regions,
    seen from outside, are operations — each graph-convolution region the layer max(h·Ws + hn·Wn + b, 0) of its whole
    input arrays (a row of the layer depends only on that row of h and hn, and the blocks of rows tile the array), the
    head's region the hidden layer and the log-probabilities log-softmax(…) of the pooled features. The reference spells
    the same layers with host products, and a narrowing to a 16-bit format is the identity on the extended reals. The
    gathers, scatter-adds and means around them are the same host operations in both programs. So from memories that
    agree on the 21 arguments the two result arrays are equal, entry by entry; no entry needs to be finite, since only
    sums are re-indexed.
-/
import proofs.«176873_j75763223102156_1_alg».proof.Defs
import proofs.«176873_j75763223102156_1_alg».proof.Proof.Gen.Kernel
import proofs.«176873_j75763223102156_1_alg».proof.Proof.Gen.Kernel.Skeleton
import proofs.«176873_j75763223102156_1_alg».proof.Proof.Gen.Kernel.Launch
import proofs.«176873_j75763223102156_1_alg».proof.Proof.Gen.Kernel.Points
import proofs.«176873_j75763223102156_1_alg».proof.Proof.Gen.Kernel.Frame
import proofs.«176873_j75763223102156_1_alg».proof.Proof.Gen.KernelIdeal
import proofs.«176873_j75763223102156_1_alg».proof.Proof.Gen.KernelIdeal.Skeleton
import proofs.«176873_j75763223102156_1_alg».proof.Proof.Gen.KernelIdeal.Launch
import proofs.«176873_j75763223102156_1_alg».proof.Proof.Gen.KernelIdeal.Points
import proofs.«176873_j75763223102156_1_alg».proof.Proof.Gen.KernelIdeal.Frame
import proofs.«176873_j75763223102156_1_alg».proof.Proof.Gen.ReferenceIdeal
import proofs.«176873_j75763223102156_1_alg».proof.Proof.Gen.Pre_finite_inputs
import proofs.«176873_j75763223102156_1_alg».proof.Proof.KernelRun
import proofs.«176873_j75763223102156_1_alg».proof.Proof.KernelLine
import proofs.«176873_j75763223102156_1_alg».proof.Proof.Bridge
import proofs.«176873_j75763223102156_1_alg».proof.Proof.RefRun
import proofs.«176873_j75763223102156_1_alg».proof.Proof.RefKeeps
import proofs.«176873_j75763223102156_1_alg».proof.Proof.RefFrame
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments: the generated frame certificate. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- From memories that agree on the arguments, the two idealized programs end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  have H : ∀ c, Cert.Bridge.Agree (Cert.KernelIdeal.Gen.W0 m ρ c) (StableHlo.launchContents m' c) := fun c =>
    ⟨(hagree c).1.symm,
     (hagree c).2.1.symm,
     (hagree c).2.2.1.symm,
     (hagree c).2.2.2.1.symm,
     (hagree c).2.2.2.2.1.symm,
     (hagree c).2.2.2.2.2.1.symm,
     (hagree c).2.2.2.2.2.2.1.symm,
     (hagree c).2.2.2.2.2.2.2.1.symm,
     (hagree c).2.2.2.2.2.2.2.2.1.symm,
     (hagree c).2.2.2.2.2.2.2.2.2.1.symm,
     (hagree c).2.2.2.2.2.2.2.2.2.2.1.symm,
     (hagree c).2.2.2.2.2.2.2.2.2.2.2.1.symm,
     (hagree c).2.2.2.2.2.2.2.2.2.2.2.2.1.symm,
     (hagree c).2.2.2.2.2.2.2.2.2.2.2.2.2.1.symm,
     (hagree c).2.2.2.2.2.2.2.2.2.2.2.2.2.2.1.symm,
     (hagree c).2.2.2.2.2.2.2.2.2.2.2.2.2.2.2.1.symm,
     (hagree c).2.2.2.2.2.2.2.2.2.2.2.2.2.2.2.2.1.symm,
     (hagree c).2.2.2.2.2.2.2.2.2.2.2.2.2.2.2.2.2.1.symm,
     (hagree c).2.2.2.2.2.2.2.2.2.2.2.2.2.2.2.2.2.2.1.symm,
     (hagree c).2.2.2.2.2.2.2.2.2.2.2.2.2.2.2.2.2.2.2.1.symm,
     (hagree c).2.2.2.2.2.2.2.2.2.2.2.2.2.2.2.2.2.2.2.2.symm⟩
  refine ⟨fun c => Cert.KernelIdeal.Gen.W9 m ρ c (Proc.devRef .tc Cert.KernelIdeal.main_v48_1),
    fun c => Cert.KernelIdeal.Gen.W9 m ρ c (Proc.devRef .tc Cert.KernelIdeal.main_v48_0), ?_, ?_⟩
  · exact (θ_run Cert.KernelIdeal.defs _ _).mono (fun r h c =>
      ⟨h c _ (Cert.KernelIdeal.Run.mem_final Cert.KernelIdeal.main_v48_1 (by decide)),
       h c _ (Cert.KernelIdeal.Run.mem_final Cert.KernelIdeal.main_v48_0 (by decide)),
       (h c _ (Cert.KernelIdeal.Run.mem_final Cert.KernelIdeal.main_arg0 (by decide))).trans (Cert.KernelIdeal.Gen.W9_main_arg0 m ρ c),
       (h c _ (Cert.KernelIdeal.Run.mem_final Cert.KernelIdeal.main_arg1 (by decide))).trans (Cert.KernelIdeal.Gen.W9_main_arg1 m ρ c),
       (h c _ (Cert.KernelIdeal.Run.mem_final Cert.KernelIdeal.main_arg2 (by decide))).trans (Cert.KernelIdeal.Gen.W9_main_arg2 m ρ c),
       (h c _ (Cert.KernelIdeal.Run.mem_final Cert.KernelIdeal.main_arg3 (by decide))).trans (Cert.KernelIdeal.Gen.W9_main_arg3 m ρ c),
       (h c _ (Cert.KernelIdeal.Run.mem_final Cert.KernelIdeal.main_arg4 (by decide))).trans (Cert.KernelIdeal.Gen.W9_main_arg4 m ρ c),
       (h c _ (Cert.KernelIdeal.Run.mem_final Cert.KernelIdeal.main_arg5 (by decide))).trans (Cert.KernelIdeal.Gen.W9_main_arg5 m ρ c),
       (h c _ (Cert.KernelIdeal.Run.mem_final Cert.KernelIdeal.main_arg6 (by decide))).trans (Cert.KernelIdeal.Gen.W9_main_arg6 m ρ c),
       (h c _ (Cert.KernelIdeal.Run.mem_final Cert.KernelIdeal.main_arg7 (by decide))).trans (Cert.KernelIdeal.Gen.W9_main_arg7 m ρ c),
       (h c _ (Cert.KernelIdeal.Run.mem_final Cert.KernelIdeal.main_arg8 (by decide))).trans (Cert.KernelIdeal.Gen.W9_main_arg8 m ρ c),
       (h c _ (Cert.KernelIdeal.Run.mem_final Cert.KernelIdeal.main_arg9 (by decide))).trans (Cert.KernelIdeal.Gen.W9_main_arg9 m ρ c),
       (h c _ (Cert.KernelIdeal.Run.mem_final Cert.KernelIdeal.main_arg10 (by decide))).trans (Cert.KernelIdeal.Gen.W9_main_arg10 m ρ c),
       (h c _ (Cert.KernelIdeal.Run.mem_final Cert.KernelIdeal.main_arg11 (by decide))).trans (Cert.KernelIdeal.Gen.W9_main_arg11 m ρ c),
       (h c _ (Cert.KernelIdeal.Run.mem_final Cert.KernelIdeal.main_arg12 (by decide))).trans (Cert.KernelIdeal.Gen.W9_main_arg12 m ρ c),
       (h c _ (Cert.KernelIdeal.Run.mem_final Cert.KernelIdeal.main_arg13 (by decide))).trans (Cert.KernelIdeal.Gen.W9_main_arg13 m ρ c),
       (h c _ (Cert.KernelIdeal.Run.mem_final Cert.KernelIdeal.main_arg14 (by decide))).trans (Cert.KernelIdeal.Gen.W9_main_arg14 m ρ c),
       (h c _ (Cert.KernelIdeal.Run.mem_final Cert.KernelIdeal.main_arg15 (by decide))).trans (Cert.KernelIdeal.Gen.W9_main_arg15 m ρ c),
       (h c _ (Cert.KernelIdeal.Run.mem_final Cert.KernelIdeal.main_arg16 (by decide))).trans (Cert.KernelIdeal.Gen.W9_main_arg16 m ρ c),
       (h c _ (Cert.KernelIdeal.Run.mem_final Cert.KernelIdeal.main_arg17 (by decide))).trans (Cert.KernelIdeal.Gen.W9_main_arg17 m ρ c),
       (h c _ (Cert.KernelIdeal.Run.mem_final Cert.KernelIdeal.main_arg18 (by decide))).trans (Cert.KernelIdeal.Gen.W9_main_arg18 m ρ c),
       (h c _ (Cert.KernelIdeal.Run.mem_final Cert.KernelIdeal.main_arg19 (by decide))).trans (Cert.KernelIdeal.Gen.W9_main_arg19 m ρ c),
       (h c _ (Cert.KernelIdeal.Run.mem_final Cert.KernelIdeal.main_arg20 (by decide))).trans (Cert.KernelIdeal.Gen.W9_main_arg20 m ρ c)⟩)
      (Cert.KernelIdeal.Run.run_all m ρ)
  · refine (θ_run Cert.ReferenceIdeal.defs _ _).mono (fun r h c =>
      ⟨(h c Cert.ReferenceIdeal.main_v77).trans ?_, (h c Cert.ReferenceIdeal.main_v57).trans ?_,
       (h c Cert.ReferenceIdeal.main_arg0).trans (Cert.ReferenceIdeal.Keeps.arg_kept_0 _),
       (h c Cert.ReferenceIdeal.main_arg1).trans (Cert.ReferenceIdeal.Keeps.arg_kept_1 _),
       (h c Cert.ReferenceIdeal.main_arg2).trans (Cert.ReferenceIdeal.Keeps.arg_kept_2 _),
       (h c Cert.ReferenceIdeal.main_arg3).trans (Cert.ReferenceIdeal.Keeps.arg_kept_3 _),
       (h c Cert.ReferenceIdeal.main_arg4).trans (Cert.ReferenceIdeal.Keeps.arg_kept_4 _),
       (h c Cert.ReferenceIdeal.main_arg5).trans (Cert.ReferenceIdeal.Keeps.arg_kept_5 _),
       (h c Cert.ReferenceIdeal.main_arg6).trans (Cert.ReferenceIdeal.Keeps.arg_kept_6 _),
       (h c Cert.ReferenceIdeal.main_arg7).trans (Cert.ReferenceIdeal.Keeps.arg_kept_7 _),
       (h c Cert.ReferenceIdeal.main_arg8).trans (Cert.ReferenceIdeal.Keeps.arg_kept_8 _),
       (h c Cert.ReferenceIdeal.main_arg9).trans (Cert.ReferenceIdeal.Keeps.arg_kept_9 _),
       (h c Cert.ReferenceIdeal.main_arg10).trans (Cert.ReferenceIdeal.Keeps.arg_kept_10 _),
       (h c Cert.ReferenceIdeal.main_arg11).trans (Cert.ReferenceIdeal.Keeps.arg_kept_11 _),
       (h c Cert.ReferenceIdeal.main_arg12).trans (Cert.ReferenceIdeal.Keeps.arg_kept_12 _),
       (h c Cert.ReferenceIdeal.main_arg13).trans (Cert.ReferenceIdeal.Keeps.arg_kept_13 _),
       (h c Cert.ReferenceIdeal.main_arg14).trans (Cert.ReferenceIdeal.Keeps.arg_kept_14 _),
       (h c Cert.ReferenceIdeal.main_arg15).trans (Cert.ReferenceIdeal.Keeps.arg_kept_15 _),
       (h c Cert.ReferenceIdeal.main_arg16).trans (Cert.ReferenceIdeal.Keeps.arg_kept_16 _),
       (h c Cert.ReferenceIdeal.main_arg17).trans (Cert.ReferenceIdeal.Keeps.arg_kept_17 _),
       (h c Cert.ReferenceIdeal.main_arg18).trans (Cert.ReferenceIdeal.Keeps.arg_kept_18 _),
       (h c Cert.ReferenceIdeal.main_arg19).trans (Cert.ReferenceIdeal.Keeps.arg_kept_19 _),
       (h c Cert.ReferenceIdeal.main_arg20).trans (Cert.ReferenceIdeal.Keeps.arg_kept_20 _)⟩)
      (Cert.ReferenceIdeal.Hand.run_main (F := Ideal) m' ρ')
    · beta_reduce
      rw [Cert.KernelIdeal.Line.W9_line m ρ c, Cert.Bridge.ref_line]
      exact (Cert.Bridge.logp_eq (H c)).symm
    · beta_reduce
      rw [Cert.KernelIdeal.Line.W9_line m ρ c, Cert.Bridge.ref_line]
      exact (Cert.Bridge.hidden_eq (H c)).symm

theorem claim : Cert.Claim := ⟨Cert.Kernel.Gen.facts, Cert.KernelIdeal.Gen.facts, Cert.ReferenceIdeal.Gen.facts, Cert.Pre_finite_inputs.Gen.facts,
  frame_kernel, frame_kernelIdeal, Cert.ReferenceIdeal.Keeps.frame_ref, trivial, algebraic⟩

end Cert.Proof

end
